-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x1600000 : Shape := ⟨2, ![2, 1600000]⟩
abbrev S3000x192 : Shape := ⟨2, ![3000, 192]⟩
abbrev S200x128 : Shape := ⟨2, ![200, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S3000x192 : S_.BroadcastsInDim S3000x192 (![] : Fin 0 → Fin S3000x192.rank)
  reducesTo_S3000x192_S_d0_1 : S3000x192.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x9 .f32) (main_arg1 : IVec S2x1600000 32) (main_arg2 : FVec F S3000x192 .f32) (main_arg3 : FVec F S200x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S3000x192 .f32 := Host.absf main_arg2
  let main_cst_0 : FVec F S_ .f32 := constant S_ .f32 0x7F800000#32
  let main_v5 : FVec F S3000x192 .f32 := broadcastInDim S3000x192 ![] bcast_S_S3000x192 main_cst_0
  let main_v6 : IVec S3000x192 1 := cmpf .olt main_v4 main_v5
  let main_c_1 : IVec S_ 1 := constantI S_ 1 1#1
  let main_v7 : IVec S_ 1 := (fun x v => Host.reduce IntOp.andi x v reducesTo_S3000x192_S_d0_1 h_S_) main_v6 main_c_1
  let main_v8 : IVec S_ 1 := andi main_v3 main_v7
  let main_v9 : FVec F S200x128 .f32 := Host.absf main_arg3
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x9 : Shape := ⟨2, ![50000, 9]⟩
abbrev S2x1600000 : Shape := ⟨2, ![2, 1600000]⟩
abbrev S3000x192 : Shape := ⟨2, ![3000, 192]⟩
abbrev S200x128 : Shape := ⟨2, ![200, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x1 : Shape := ⟨2, ![50000, 1]⟩
abbrev S50000 : Shape := ⟨1, ![50000]⟩
abbrev S50000x8 : Shape := ⟨2, ![50000, 8]⟩
abbrev S_ : Shape := ⟨0, ![]⟩
abbrev S50000x192 : Shape := ⟨2, ![50000, 192]⟩
abbrev S50000x200 : Shape := ⟨2, ![50000, 200]⟩
abbrev S1x1600000 : Shape := ⟨2, ![1, 1600000]⟩
abbrev S1600000 : Shape := ⟨1, ![1600000]⟩
abbrev S1600000x1 : Shape := ⟨2, ![1600000, 1]⟩
abbrev S50000x128 : Shape := ⟨2, ![50000, 128]⟩
abbrev S5000x200 : Shape := ⟨2, ![5000, 200]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S50000x64 : Shape := ⟨2, ![50000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 104
  | .vmem => 64
  | .smem => 0
  | _ => 0

abbrev bufTy : (tb : Table) → Fin (tcTables nBuf tb) → BufTy
  | .hbm, ⟨0, _⟩ => ⟨S50000x9, .f32⟩
  | .hbm, ⟨1, _⟩ => ⟨S2x1600000, .i32⟩
  | .hbm, ⟨2, _⟩ => ⟨S3000x192, .f32⟩
  | .hbm, ⟨3, _⟩ => ⟨S200x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S50000x1, .f32⟩
  | .hbm, ⟨12, _⟩ => ⟨S50000, .f32⟩
  | .hbm, ⟨13, _⟩ => ⟨S50000, .i32⟩
  | .hbm, ⟨14, _⟩ => ⟨S50000x8, .f32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x192, .f32⟩
  | .hbm, ⟨24, _⟩ => ⟨S50000x200, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S50000x128, .f32⟩
  | .hbm, ⟨52, _⟩ => ⟨S1600000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S50000x128, .f32⟩
  | .hbm, ⟨68, _⟩ => ⟨S1600000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S50000x128, .f32⟩
  | .hbm, ⟨84, _⟩ => ⟨S1600000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S50000x64, .f32⟩
  | .hbm, ⟨100, _⟩ => ⟨S1600000x1, .i32⟩
  | .hbm, ⟨101, _⟩ => ⟨S50000x64, .f32⟩
  | .hbm, ⟨102, _⟩ => ⟨S1x64, .f32⟩
  | .hbm, ⟨103, _⟩ => ⟨S50000x64, .f32⟩
  | .local _ .vmem, ⟨0, _⟩ => ⟨S5000x200, .f32⟩
  | .local _ .vmem, ⟨1, _⟩ => ⟨S5000x200, .f32⟩
  | .local _ .vmem, ⟨2, _⟩ => ⟨S200x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x64, .f32⟩
  | .local _ .vmem, ⟨51, _⟩ => ⟨S5000x1, .f32⟩
  | .local _ .vmem, ⟨52, _⟩ => ⟨S5000x1, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x1, .f32⟩
  | .local _ .vmem, ⟨60, _⟩ => ⟨S5000x1, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S50000x9_S50000x1_0_8 : S50000x9.Slices ![0, 8] S50000x1
  shapeCasts_S50000x1_S50000 : S50000x1.ShapeCasts S50000
  slices_S50000x9_S50000x8_0_0 : S50000x9.Slices ![0, 0] S50000x8
  bcast_S_S50000 : S_.BroadcastsInDim S50000 (![] : Fin 0 → Fin S50000.rank)
  bcast_S50000_S50000x1_0 : S50000.BroadcastsInDim S50000x1 (![0] : Fin 1 → Fin S50000x1.rank)
  concatenates_S50000x8_S50000x192_S50000x200_d1 : Shape.Concatenates [S50000x8, S50000x192] S50000x200 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x200_S5000x200_0_0 : ∀ a, (![0, 0] : Fin 2 → Nat) a + S5000x200.size a ≤ S5000x200.size a
  h_S5000x200 : 0 < S5000x200.numel
  shapeCasts_S5000x200_S5000x200 : S5000x200.ShapeCasts S5000x200
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S3000x192_S50000x1_S50000x192_1_0_n_n_0_1_1192_wf : GatherDims.WF S3000x192 S50000x1 S50000x192 [1] [0] [] [0] [] 1 ![1, 192]
  scatter_S50000_S1600000x1_S1600000_n_0_0_1_wf : ScatterDims.WF S50000 S1600000x1 S1600000 [] [0] [0] 1
  dot_S5000x200_S200x128_S5000x128_1_0_0_1_n_n_wf : DotDims.WF S5000x200 S200x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S50000x200.size a
  hwx0_0 : ∀ i : grid0.Coords, EltTy.bits .f32 = 32 ∨ (Rect.block (s := S50000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)

variable [Facts₀]

def gather_S3000x192_S50000x1_S50000x192_1_0_n_n_0_1_1192 : GatherDims S3000x192 S50000x1 S50000x192 where
  offsetDims := [1]
  collapsedSliceDims := [0]
  operandBatchingDims := []
  startIndicesBatchingDims := []
  startIndexMap := [0]
  indexVectorDim := 1
  sliceSizes := ![1, 192]
  wf := gather_S3000x192_S50000x1_S50000x192_1_0_n_n_0_1_1192_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x200_S200x128_S5000x128_1_0_0_1_n_n : DotDims S5000x200 S200x128 S5000x128 where
  lhsContracting := [1]
  rhsContracting := [0]
  lhsNonContracting := [0]
  rhsNonContracting := [1]
  lhsBatch := []
  rhsBatch := []
  wf := dot_S5000x200_S200x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_v11) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v23) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v23) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v63) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v73) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v63) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v23) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x9 : Shape := ⟨2, ![50000, 9]⟩
abbrev S2x1600000 : Shape := ⟨2, ![2, 1600000]⟩
abbrev S3000x192 : Shape := ⟨2, ![3000, 192]⟩
abbrev S200x128 : Shape := ⟨2, ![200, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x1 : Shape := ⟨2, ![50000, 1]⟩
abbrev S50000 : Shape := ⟨1, ![50000]⟩
abbrev S50000x8 : Shape := ⟨2, ![50000, 8]⟩
abbrev S_ : Shape := ⟨0, ![]⟩
abbrev S50000x192 : Shape := ⟨2, ![50000, 192]⟩
abbrev S50000x200 : Shape := ⟨2, ![50000, 200]⟩
abbrev S1x1600000 : Shape := ⟨2, ![1, 1600000]⟩
abbrev S1600000 : Shape := ⟨1, ![1600000]⟩
abbrev S1600000x1 : Shape := ⟨2, ![1600000, 1]⟩
abbrev S50000x128 : Shape := ⟨2, ![50000, 128]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 224
  | .vmem => 0
  | .smem => 0
  | _ => 0

abbrev hbmTy0_0 (i : Nat) : BufTy := match i % 128 with
  | 0 => ⟨S50000x9, .f32⟩
  | 1 => ⟨S2x1600000, .i32⟩
  | 2 => ⟨S3000x192, .f32⟩
  | 3 => ⟨S200x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S50000x1, .f32⟩
  | 12 => ⟨S50000, .f32⟩
  | 13 => ⟨S50000, .i32⟩
  | 14 => ⟨S50000x8, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x192, .f32⟩
  | 24 => ⟨S50000x200, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S50000, .f32⟩
  | 33 => ⟨S1600000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S50000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x128, .f32⟩
  | 70 => ⟨S1600000x128, .f32⟩
  | 71 => ⟨S_, .f32⟩
  | 72 => ⟨S50000x128, .f32⟩
  | 73 => ⟨S1600000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S50000x128, .f32⟩
  | 120 => ⟨S1600000x1, .i32⟩
  | 121 => ⟨S50000x128, .f32⟩
  | 122 => ⟨S50000, .f32⟩
  | 123 => ⟨S50000x1, .f32⟩
  | 124 => ⟨S50000x128, .f32⟩
  | 125 => ⟨S50000x128, .f32⟩
  | 126 => ⟨S50000x128, .f32⟩
  | 127 => ⟨S1x128, .f32⟩
  | _ => ⟨S50000x9, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S1600000, .f32⟩
  | 25 => ⟨S1600000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S1600000x128, .f32⟩
  | 36 => ⟨S1600000x128, .f32⟩
  | 37 => ⟨S_, .f32⟩
  | 38 => ⟨S50000x128, .f32⟩
  | 39 => ⟨S1600000x1, .i32⟩
  | 40 => ⟨S50000x128, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S50000x64, .f32⟩
  | 86 => ⟨S1600000x1, .i32⟩
  | 87 => ⟨S50000x64, .f32⟩
  | 88 => ⟨S50000, .f32⟩
  | 89 => ⟨S50000x1, .f32⟩
  | 90 => ⟨S50000x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call0_cst : Ref sig .tc := ⟨.hbm, 83, rfl⟩
abbrev main_call0_v0 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_14 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call1_cst : Ref sig .tc := ⟨.hbm, 130, rfl⟩
abbrev main_call1_v0 : Ref sig .tc := ⟨.hbm, 131, rfl⟩
abbrev main_v98 : Ref sig .tc := ⟨.hbm, 132, rfl⟩
abbrev main_v99 : Ref sig .tc := ⟨.hbm, 133, rfl⟩
abbrev main_c_17 : Ref sig .tc := ⟨.hbm, 134, rfl⟩
abbrev main_v100 : Ref sig .tc := ⟨.hbm, 135, rfl⟩
abbrev main_v101 : Ref sig .tc := ⟨.hbm, 136, rfl⟩
abbrev main_c_18 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_19 : Ref sig .tc := ⟨.hbm, 143, rfl⟩
abbrev main_v107 : Ref sig .tc := ⟨.hbm, 144, rfl⟩
abbrev main_v108 : Ref sig .tc := ⟨.hbm, 145, rfl⟩
abbrev main_c_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_21 : Ref sig .tc := ⟨.hbm, 154, rfl⟩
abbrev main_v116 : Ref sig .tc := ⟨.hbm, 155, rfl⟩
abbrev main_v117 : Ref sig .tc := ⟨.hbm, 156, rfl⟩
abbrev main_c_22 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_call2_cst : Ref sig .tc := ⟨.hbm, 177, rfl⟩
abbrev main_call2_v0 : Ref sig .tc := ⟨.hbm, 178, rfl⟩
abbrev main_v136 : Ref sig .tc := ⟨.hbm, 179, rfl⟩
abbrev main_v137 : Ref sig .tc := ⟨.hbm, 180, rfl⟩
abbrev main_c_24 : Ref sig .tc := ⟨.hbm, 181, rfl⟩
abbrev main_v138 : Ref sig .tc := ⟨.hbm, 182, rfl⟩
abbrev main_v139 : Ref sig .tc := ⟨.hbm, 183, rfl⟩
abbrev main_c_25 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_26 : Ref sig .tc := ⟨.hbm, 190, rfl⟩
abbrev main_v145 : Ref sig .tc := ⟨.hbm, 191, rfl⟩
abbrev main_v146 : Ref sig .tc := ⟨.hbm, 192, rfl⟩
abbrev main_c_27 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_c_28 : Ref sig .tc := ⟨.hbm, 201, rfl⟩
abbrev main_v154 : Ref sig .tc := ⟨.hbm, 202, rfl⟩
abbrev main_v155 : Ref sig .tc := ⟨.hbm, 203, rfl⟩
abbrev main_c_29 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_30 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩

abbrev nD : Nat := 1
abbrev τ : Topo := Topo.v7x

variable {F : FTy → Type} [FloatOps F]

class Facts₀ : Prop where
  slices_S50000x9_S50000x1_0_8 : S50000x9.Slices ![0, 8] S50000x1
  shapeCasts_S50000x1_S50000 : S50000x1.ShapeCasts S50000
  slices_S50000x9_S50000x8_0_0 : S50000x9.Slices ![0, 0] S50000x8
  bcast_S_S50000 : S_.BroadcastsInDim S50000 (![] : Fin 0 → Fin S50000.rank)
  bcast_S50000_S50000x1_0 : S50000.BroadcastsInDim S50000x1 (![0] : Fin 1 → Fin S50000x1.rank)
  concatenates_S50000x8_S50000x192_S50000x200_d1 : Shape.Concatenates [S50000x8, S50000x192] S50000x200 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S3000x192_S50000x1_S50000x192_1_0_n_n_0_1_1192_wf : GatherDims.WF S3000x192 S50000x1 S50000x192 [1] [0] [] [0] [] 1 ![1, 192]
  scatter_S50000_S1600000x1_S1600000_n_0_0_1_wf : ScatterDims.WF S50000 S1600000x1 S1600000 [] [0] [0] 1
  dot_S50000x200_S200x128_S50000x128_1_0_0_1_n_n_wf : DotDims.WF S50000x200 S200x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def gather_S3000x192_S50000x1_S50000x192_1_0_n_n_0_1_1192 : GatherDims S3000x192 S50000x1 S50000x192 where
  offsetDims := [1]
  collapsedSliceDims := [0]
  operandBatchingDims := []
  startIndicesBatchingDims := []
  startIndexMap := [0]
  indexVectorDim := 1
  sliceSizes := ![1, 192]
  wf := gather_S3000x192_S50000x1_S50000x192_1_0_n_n_0_1_1192_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x200_S200x128_S50000x128_1_0_0_1_n_n : DotDims S50000x200 S200x128 S50000x128 where
  lhsContracting := [1]
  rhsContracting := [0]
  lhsNonContracting := [0]
  rhsNonContracting := [1]
  lhsBatch := []
  rhsBatch := []
  wf := dot_S50000x200_S200x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KernelRun.lean ====
/-
  The idealized kernel's run with its result named.

  @main is thirteen segments: five stretches of host operations and eight pipelined regions. The buffer contents at every
  segment boundary are a fold from the launch memory; at the last boundary the result buffer holds the fold's value there
  and every argument array holds what it held at the launch. Every weakly fair execution terminates without a fault in
  such a state.
-/
import proofs.«130063_j23605140259289_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«130063_j23605140259289_2_alg».proof.Proof.LibScatterSet
import proofs.«130063_j23605140259289_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibGatherRows.lean ====
/-
  A row gather read at an index. What `x[idx]` of a table `x : [N, C]` at an integer vector lowers to: a gather along
  axis 0 with whole rows as slices (offset axis 1, axis 0 collapsed, slice sizes `[1, C]`) over the indices laid out as a
  column `[R, 1]`. Result entry `(f, k)` is the table's entry `(row f, k)`, where `row f` is the start index at `f` read as
  a signed integer and clamped into `[0, N − 1]`. So the gather selects rows by a function of the indices alone and
  keeps columns: it commutes with anything done to the table row by row. Nothing here depends on a program.
-/
import Idealize.ShloMosaic.Lib.ValueIdx

namespace Cert.KernelIdeal.Hand

open Idealize.ShloMosaic Idealize.ShloMosaic.ValueIdx

section Rows
variable {α : Type}

/-- The dimension numbers of a row gather from a table `[N, C]` at start indices `[R, 1]` into `[R, C]`; their conditions
    `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row the gather reads for result row `f`: the start index there, signed, clamped into `[0, N − 1]`. -/
def rowOf {N R w : Nat} (hN : 0 < N) (idx : IVec ⟨2, ![R, 1]⟩ w) (f : Fin R) : Fin N :=
  ⟨min (idx (ix2 f (0 : Fin 1))).toInt.toNat (N - 1), by omega⟩

/-- THE ROW GATHER READ AT `(f, k)`: the table at `(rowOf f, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (f : Fin R) (k : Fin C) :
    Host.gather (rowDims N R C wf) x idx (ix2 f k) = x (ix2 (rowOf hN idx f) k) := by
  unfold Host.gather
  congr 1
  funext a
  refine Fin.ext ?_
  match a with
  | ⟨0, _⟩ =>
    show (rowDims N R C wf).start (ix2 f k) idx 0 + (rowDims N R C wf).batchCoord (ix2 f k) 0
      + (rowDims N R C wf).offCoord (ix2 f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 f k) ⟨List.idxOf (0 : Fin 2) (rowDims N R C wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl
  | ⟨1, _⟩ =>
    show (rowDims N R C wf).start (ix2 f k) idx 1 + (rowDims N R C wf).batchCoord (ix2 f k) 1
      + (rowDims N R C wf).offCoord (ix2 f k) 1 = _
    rw [GatherDims.batchCoord_eq_zero _ _ _ List.not_mem_nil]
    unfold GatherDims.start
    have h10 : (1 : Fin 2) ≠ 0 := by decide
    rw [dif_neg (show (1 : Fin 2) ∉ (rowDims N R C wf).startIndexMap from
      fun h => absurd (List.mem_singleton.mp h) h10)]
    have hk : (1 : Fin 2) ∈ (rowDims N R C wf).sKept :=
      (GatherDims.mem_sKept _ _).mpr ⟨fun h => absurd (List.mem_singleton.mp h) h10, List.not_mem_nil⟩
    unfold GatherDims.offCoord
    rw [dif_pos hk]
    simp only [Nat.zero_add]
    rfl

end Rows

end Cert.KernelIdeal.Hand
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.LibGraphLayers.lean ====
/-
  A linear graph network, entry by entry on the extended reals.

  Nodes 0 … N − 1 carry feature rows; messages e = 0 … E − 1 each name a source row (an index word read signed and clamped
  into the table, as a row gather reads it) and a destination node (an index word read signed; a word naming no node
  lands nowhere). One convolution layer multiplies the rows by a weight matrix, lets every node collect the rows of the
  messages that land on it, each scaled by the normalisation d(source) · d(destination), adds a bias and takes the
  maximum with zero. The network is an affine encoder, two such layers and an affine decoder.

  Two arrangements of a layer are written down. In the first the factor d(source) is multiplied into the rows before
  they are collected and the factor d(destination) into the collected sum afterwards; in the second every collected row
  carries its whole factor. They agree whenever every d(n) is a non-negative real number: a non-negative real factor
  distributes over a finite sum of extended reals, and multiplication of extended reals is associative. No entry of
  the features, weights or biases needs to be finite.
-/
import Idealize.ShloMosaic.PureOps.Ideal
import Idealize.ShloMosaic.Lib.ValueIdx
import Mathlib.Algebra.BigOperators.Fin
import proofs.«130063_j23605140259289_2_alg».proof.Proof.LibSegmentSum
import proofs.«130063_j23605140259289_2_alg».proof.Proof.LibGatherRows
import proofs.«130063_j23605140259289_2_alg».proof.Proof.LibSoftmaxRow

noncomputable section

namespace Cert.GraphLinear

open Idealize.ShloMosaic Idealize.ShloMosaic.ValueIdx Cert.SegmentSum Cert.KernelIdeal.Hand

/-- An array [a, b] of extended reals. -/
abbrev Mat (a b : Nat) : Type := (⟨2, ![a, b]⟩ : Shape).Idx → EReal
/-- A vector [a] of extended reals. -/
abbrev Vect (a : Nat) : Type := (⟨1, ![a]⟩ : Shape).Idx → EReal
/-- A column [E, 1] of index words. -/
abbrev IdxCol (E w : Nat) : Type := IVec ⟨2, ![E, 1]⟩ w

/-! ## What one launch of each kernel computes, as a function of whole arrays -/

/-- Rows times weights plus a bias row: (x · w)(p, q) + b(0, q). -/
def affine {N K C : Nat} (x : Mat N K) (w : Mat K C) (b : Mat 1 C) : Mat N C :=
  fun i => (∑ k : Fin K, x (ix2 (i 0) k) * w (ix2 k (i 1))) + b (ix2 (0 : Fin 1) (i 1))

/-- Rows times weights, each row scaled by its entry of a column: (x · w)(p, q) · d(p, 0). -/
def scaled {N K C : Nat} (x : Mat N K) (w : Mat K C) (d : Mat N 1) : Mat N C :=
  fun i => (∑ k : Fin K, x (ix2 (i 0) k) * w (ix2 k (i 1))) * d (ix2 (i 0) (0 : Fin 1))

/-- Each row scaled by its entry of a column, plus a bias row, maximum with zero: max (s(p, q) · d(p, 0) + b(0, q)) 0. -/
def biasRelu {N C : Nat} (s : Mat N C) (d : Mat N 1) (b : Mat 1 C) : Mat N C :=
  fun i => max (s i * d (ix2 (i 0) (0 : Fin 1)) + b (ix2 (0 : Fin 1) (i 1))) (0 : EReal)

theorem affine_apply {N K C : Nat} (x : Mat N K) (w : Mat K C) (b : Mat 1 C) (p : Fin N) (q : Fin C) :
    affine x w b (ix2 p q) = (∑ k : Fin K, x (ix2 p k) * w (ix2 k q)) + b (ix2 (0 : Fin 1) q) := rfl
theorem scaled_apply {N K C : Nat} (x : Mat N K) (w : Mat K C) (d : Mat N 1) (p : Fin N) (q : Fin C) :
    scaled x w d (ix2 p q) = (∑ k : Fin K, x (ix2 p k) * w (ix2 k q)) * d (ix2 p (0 : Fin 1)) := rfl
theorem biasRelu_apply {N C : Nat} (s : Mat N C) (d : Mat N 1) (b : Mat 1 C) (p : Fin N) (q : Fin C) :
    biasRelu s d b (ix2 p q) = max (s (ix2 p q) * d (ix2 p (0 : Fin 1)) + b (ix2 (0 : Fin 1) q)) (0 : EReal) := rfl

/-! ## Collecting rows along the messages -/

section Messages
variable {N E C w w' : Nat} (hN : 0 < N) (dst : IdxCol E w) (src : IdxCol E w')

/-- Every node collects the rows of `t` named by the sources of the messages that land on it. -/
def collect (t : Mat N C) : Mat N C :=
  fun i => ∑ e ∈ edgesAt dst (i 0), t (ix2 (rowOf hN src e) (i 1))

/-- The same with each message's row scaled by the message's own weight. -/
def collectWeighted (t : Mat N C) (nrm : Vect E) : Mat N C :=
  fun i => ∑ e ∈ edgesAt dst (i 0), t (ix2 (rowOf hN src e) (i 1)) * nrm (ix1 e)

theorem collect_apply (t : Mat N C) (n : Fin N) (k : Fin C) :
    collect hN dst src t (ix2 n k) = ∑ e ∈ edgesAt dst n, t (ix2 (rowOf hN src e) k) := rfl
theorem collectWeighted_apply (t : Mat N C) (nrm : Vect E) (n : Fin N) (k : Fin C) :
    collectWeighted hN dst src t nrm (ix2 n k) = ∑ e ∈ edgesAt dst n, t (ix2 (rowOf hN src e) k) * nrm (ix1 e) := rfl

/-! ## The two arrangements of a layer and of the network -/

/-- Plain rows times weights. -/
def product {K : Nat} (x : Mat N K) (wt : Mat K C) : Mat N C :=
  fun i => ∑ k : Fin K, x (ix2 (i 0) k) * wt (ix2 k (i 1))
/-- Rows times weights plus a bias vector. -/
def affineVec {K : Nat} (x : Mat N K) (wt : Mat K C) (b : Vect C) : Mat N C :=
  fun i => (∑ k : Fin K, x (ix2 (i 0) k) * wt (ix2 k (i 1))) + b (ix1 (i 1))
/-- Plus a bias vector, maximum with zero. -/
def addRelu (s : Mat N C) (b : Vect C) : Mat N C :=
  fun i => max (s i + b (ix1 (i 1))) (0 : EReal)

/-- A layer with the normalisation split: d(source) before the rows are collected, d(destination) after. -/
def layerSplit {K : Nat} (d : Mat N 1) (h : Mat N K) (wt : Mat K C) (b : Mat 1 C) : Mat N C :=
  biasRelu (collect hN dst src (scaled h wt d)) d b
/-- A layer with every collected row carrying its whole normalisation weight. -/
def layerWhole {K : Nat} (nrm : Vect E) (h : Mat N K) (wt : Mat K C) (b : Vect C) : Mat N C :=
  addRelu (collectWeighted hN dst src (product h wt) nrm) b

/-- The network in the split arrangement: encoder, two layers, decoder; the biases as one-row matrices. -/
def netSplit {K0 H O : Nat} (d : Mat N 1) (x : Mat N K0) (We : Mat K0 H) (be : Mat 1 H) (W1 : Mat H H) (b1 : Mat 1 H)
    (W2 : Mat H H) (b2 : Mat 1 H) (Wo : Mat H O) (bo : Mat 1 O) : Mat N O :=
  affine (layerSplit hN dst src d (layerSplit hN dst src d (affine x We be) W1 b1) W2 b2) Wo bo
/-- The network in the whole-weight arrangement; the biases as vectors. -/
def netWhole {K0 H O : Nat} (nrm : Vect E) (x : Mat N K0) (We : Mat K0 H) (be : Vect H) (W1 : Mat H H) (b1 : Vect H)
    (W2 : Mat H H) (b2 : Vect H) (Wo : Mat H O) (bo : Vect O) : Mat N O :=
  affineVec (layerWhole hN dst src nrm (layerWhole hN dst src nrm (affineVec x We be) W1 b1) W2 b2) Wo bo

/-! ## The law between them -/

/-- One layer: if every d(n) is a non-negative real and every message landing on n weighs d(its source) · d(n), the two
    arrangements agree on any rows. -/
theorem layerSplit_eq_layerWhole {K : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (h : Mat N K) (wt : Mat K C) (b : Mat 1 C) (bv : Vect C) (hb : ∀ q : Fin C, b (ix2 (0 : Fin 1) q) = bv (ix1 q)) :
    layerSplit hN dst src d h wt b = layerWhole hN dst src nrm h wt bv := by
  funext i
  obtain ⟨n, k, rfl⟩ : ∃ (n : Fin N) (k : Fin C), i = ix2 n k := ⟨i 0, i 1, eq_ix2 i⟩
  obtain ⟨r, hr, hdn⟩ := hd n
  show max ((∑ e ∈ edgesAt dst n, (∑ j : Fin K, h (ix2 (rowOf hN src e) j) * wt (ix2 j k))
        * d (ix2 (rowOf hN src e) (0 : Fin 1))) * d (ix2 n (0 : Fin 1)) + b (ix2 (0 : Fin 1) k)) (0 : EReal)
      = max ((∑ e ∈ edgesAt dst n, (∑ j : Fin K, h (ix2 (rowOf hN src e) j) * wt (ix2 j k)) * nrm (ix1 e))
        + bv (ix1 k)) (0 : EReal)
  rw [hb k, hdn, ← Cert.Attn.sum_mul_coe _ _ r hr]
  refine congrArg (fun z => max (z + bv (ix1 k)) (0 : EReal)) (Finset.sum_congr rfl fun e he => ?_)
  rw [hn n e he, hdn, mul_assoc]

/-- The network: the two arrangements agree. -/
theorem netSplit_eq_netWhole {K0 H O : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (x : Mat N K0) (We : Mat K0 H) (W1 W2 : Mat H H) (Wo : Mat H O)
    (be b1 b2 : Mat 1 H) (bo : Mat 1 O) (bev b1v b2v : Vect H) (bov : Vect O)
    (hbe : ∀ q : Fin H, be (ix2 (0 : Fin 1) q) = bev (ix1 q)) (hb1 : ∀ q : Fin H, b1 (ix2 (0 : Fin 1) q) = b1v (ix1 q))
    (hb2 : ∀ q : Fin H, b2 (ix2 (0 : Fin 1) q) = b2v (ix1 q)) (hbo : ∀ q : Fin O, bo (ix2 (0 : Fin 1) q) = bov (ix1 q)) :
    netSplit hN dst src d x We be W1 b1 W2 b2 Wo bo = netWhole hN dst src nrm x We bev W1 b1v W2 b2v Wo bov := by
  have henc : affine x We be = affineVec x We bev := by
    funext i
    obtain ⟨n, k, rfl⟩ : ∃ (n : Fin N) (k : Fin H), i = ix2 n k := ⟨i 0, i 1, eq_ix2 i⟩
    show _ + be (ix2 (0 : Fin 1) k) = _ + bev (ix1 k); rw [hbe]
  unfold netSplit netWhole
  rw [henc, layerSplit_eq_layerWhole hN dst src d nrm hd hn _ W1 b1 b1v hb1,
    layerSplit_eq_layerWhole hN dst src d nrm hd hn _ W2 b2 b2v hb2]
  funext i
  obtain ⟨n, k, rfl⟩ : ∃ (n : Fin N) (k : Fin O), i = ix2 n k := ⟨i 0, i 1, eq_ix2 i⟩
  show _ + bo (ix2 (0 : Fin 1) k) = _ + bov (ix1 k); rw [hbo]

end Messages

end Cert.GraphLinear

end
-- ==== Proof.LibCollect.lean ====
/-
  Rows gathered along the messages and added into zeros, read as one collecting sum.

  A row gather of a table at the source column followed by a segment sum into an array of zeros at the destination column
  leaves at (n, k) the sum, over the messages that land on n, of the table's entry at (the message's source row, k): the
  gather keeps columns, the segment sum adds the updates of column k that land on row n, and the zero it starts from adds
  nothing. No finiteness is needed.
-/
import Idealize.ShloMosaic.Lib.IdealHost
import proofs.«130063_j23605140259289_2_alg».proof.Proof.LibGraphLayers

noncomputable section

namespace Cert.GraphLinear

open Idealize.ShloMosaic Idealize.ShloMosaic.ValueIdx Cert.SegmentSum Cert.KernelIdeal.Hand

theorem scatter_gather_eq_collect {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb : (⟨0, ![]⟩ : Shape).BroadcastsInDim ⟨2, ![N, C]⟩ ![])
    (dstc : IVec ⟨2, ![E, 1]⟩ w) (srcc : IVec ⟨2, ![E, 1]⟩ w') (t : FVec Ideal ⟨2, ![N, C]⟩ .f32) :
    Host.scatterAdd ds (broadcastInDim ⟨2, ![N, C]⟩ ![] hb (constant (F := Ideal) ⟨0, ![]⟩ .f32 0x00000000#32)) dstc
        (Host.gather dg t srcc)
      = collect hN dstc srcc t := by
  subst hdg
  funext i
  obtain ⟨n, k, rfl⟩ : ∃ (n : Fin N) (k : Fin C), i = ix2 n k := ⟨i 0, i 1, eq_ix2 i⟩
  show Ideal.hostScatterAdd ds (broadcastInDim ⟨2, ![N, C]⟩ ![] hb (constant (F := Ideal) ⟨0, ![]⟩ .f32 0x00000000#32)) dstc
      (fun j => Host.gather (rowDims N E C wf) t srcc j) (ix2 n k) = _
  rw [scatterAdd_rows_apply ds h1 h2 h3 h4, collect_apply, broadcastInDim_scalar_apply, constant_apply,
    Ideal.ofBits_zero_f32, zero_add]
  exact Finset.sum_congr rfl fun e _ => gather_rows_apply hN wf t srcc e k

end Cert.GraphLinear

end
-- ==== Proof.LibDegreeNorm.lean ====
/-
  The index columns, the degrees and the normalisation of a message list, as the host operations compute them.

  From a vector of source words and a vector of destination words (E messages): an index column [E, 1]; a word made
  non-negative the way array indexing does it (a negative word has the number of nodes added); the degree of a node, the
  number of messages whose destination word names it, as a sum of ones added into zeros; d(n), the inverse square root of
  the degree where the degree is positive and 0 elsewhere; and the weight of message e, d(source of e) · d(destination of
  e), both read through a gather at the wrapped words. Definitions only; the dimension records and side conditions are
  parameters, so that each printed program instantiates them at its own.
-/
import Idealize.ShloMosaic.PureOps
import Idealize.ShloMosaic.PureOps.Ideal
import Idealize.ShloMosaic.Lib.ValueIdx

noncomputable section

namespace Cert.GraphLinear

open Idealize.ShloMosaic Idealize.ShloMosaic.ValueIdx

section Defs
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (dg : GatherDims ⟨1, ![N]⟩ ⟨2, ![E, 1]⟩ ⟨1, ![E]⟩)

/-- A vector of words as a column [E, 1]. -/
def idxCol (v : IVec ⟨1, ![E]⟩ 32) : IVec ⟨2, ![E, 1]⟩ 32 :=
  broadcastInDim ⟨2, ![E, 1]⟩ ![0] hcol v

/-- Array indexing's wrap: a negative word has `nWord` added, any other word is kept. -/
def wrapIdx (nWord : BitVec 32) (v : IVec ⟨1, ![E]⟩ 32) : IVec ⟨1, ![E]⟩ 32 :=
  select (cmpi .slt v (broadcastInDim ⟨1, ![E]⟩ ![] hbE (constantI ⟨0, ![]⟩ 32 0#32)))
    (addi v (broadcastInDim ⟨1, ![E]⟩ ![] hbE (constantI ⟨0, ![]⟩ 32 nWord))) v

/-- The degree of every node: ones, one per message, added into zeros at the destination words. -/
def degree (dst : IVec ⟨1, ![E]⟩ 32) : FVec Ideal ⟨1, ![N]⟩ .f32 :=
  Host.scatterAdd ds (broadcastInDim ⟨1, ![N]⟩ ![] hbN (constant (F := Ideal) ⟨0, ![]⟩ .f32 0x00000000#32)) (idxCol hcol dst)
    (broadcastInDim ⟨1, ![E]⟩ ![] hbE (constant (F := Ideal) ⟨0, ![]⟩ .f32 0x3F800000#32))

/-- d(n): the inverse square root of the degree where it is positive, 0 elsewhere. -/
def dinv (dst : IVec ⟨1, ![E]⟩ 32) : FVec Ideal ⟨1, ![N]⟩ .f32 :=
  select (cmpf .ogt (degree hbN hbE hcol ds dst) (broadcastInDim ⟨1, ![N]⟩ ![] hbN (constant (F := Ideal) ⟨0, ![]⟩ .f32 0x00000000#32)))
    (Host.rsqrt (degree hbN hbE hcol ds dst))
    (broadcastInDim ⟨1, ![N]⟩ ![] hbN (constant (F := Ideal) ⟨0, ![]⟩ .f32 0x00000000#32))

/-- The weight of every message: d at its wrapped source word times d at its wrapped destination word. -/
def norm (nWord : BitVec 32) (src dst : IVec ⟨1, ![E]⟩ 32) : FVec Ideal ⟨1, ![E]⟩ .f32 :=
  mulf (Host.gather dg (dinv hbN hbE hcol ds dst) (idxCol hcol (wrapIdx hbE nWord src)))
    (Host.gather dg (dinv hbN hbE hcol ds dst) (idxCol hcol (wrapIdx hbE nWord dst)))

end Defs

end Cert.GraphLinear

end
-- ==== Proof.LibGatherVec.lean ====
/-
  A gather from a vector read at an index. What `x[idx]` of a vector `x : [N]` at an integer vector lowers to: a gather
  along the one axis with single entries as slices (no offset axis, axis 0 collapsed, slice sizes `[1]`) over the indices
  laid out as a column `[R, 1]`. Result entry `f` is the vector's entry `row f`, where `row f` is the start index at `f`
  read as a signed integer and clamped into `[0, N − 1]`: the same row a gather of whole rows of a table with N rows
  reads at these indices. Nothing here depends on a program.
-/
import Idealize.ShloMosaic.Lib.ValueIdx
import proofs.«130063_j23605140259289_2_alg».proof.Proof.LibGatherRows

namespace Cert.LibGatherVec

open Idealize.ShloMosaic Idealize.ShloMosaic.ValueIdx Cert.KernelIdeal.Hand

variable {α : Type}

/-- The dimension numbers of a gather of single entries from a vector `[N]` at start indices `[R, 1]` into `[R]`; their
    conditions `wf` are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `f`: the vector at `rowOf f`, the start index at `f` read signed and clamped. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (f : Fin R) :
    Host.gather (vecDims N R wf) x idx (ix1 f) = x (ix1 (rowOf hN idx f)) := by
  unfold Host.gather
  congr 1
  funext a
  refine Fin.ext ?_
  match a with
  | ⟨0, _⟩ =>
    show (vecDims N R wf).start (ix1 f) idx 0 + (vecDims N R wf).batchCoord (ix1 f) 0
      + (vecDims N R wf).offCoord (ix1 f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 f) ⟨List.idxOf (0 : Fin 1) (vecDims N R wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl

end Cert.LibGatherVec
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibClippedDegree.lean ====
/-
  The degree normalisation with the degree clipped at one under the root, and the weight of a message for any vector d.

  d(n) = 1/√max(degree(n), 1) where the degree is positive and 0 elsewhere. The degree of a node is a count, so it is a
  natural number as an extended real; where the count is 0 the comparison fails and d(n) is the zero literal; where it
  is positive, max(count, 1) is a real number at least 1 and its inverse square root is the real (√·)⁻¹, which is not
  negative. Either way d(n) is a non-negative real number, whatever the index words are.

  For ANY vector d over the nodes, the weight d(wrapped source) · d(wrapped destination) of a message that lands on node n
  is d(its source row) · d(n): the destination word read signed is n, so it is not negative, the wrap keeps it, and the
  clamp into [0, N − 1] keeps it.
-/
import Idealize.ShloMosaic.Lib.IdealHost
import proofs.«130063_j23605140259289_2_alg».proof.Proof.LibDegreeNorm
import proofs.«130063_j23605140259289_2_alg».proof.Proof.LibSegmentSum
import proofs.«130063_j23605140259289_2_alg».proof.Proof.LibGatherRows
import proofs.«130063_j23605140259289_2_alg».proof.Proof.LibGatherVec
import proofs.«130063_j23605140259289_2_alg».proof.Proof.LibColumn

noncomputable section

namespace Cert.ClippedDegree

open Idealize.ShloMosaic Idealize.ShloMosaic.ValueIdx Cert.SegmentSum Cert.KernelIdeal.Hand Cert.LibGatherVec Cert.GraphLinear

section Defs
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (dg : GatherDims ⟨1, ![N]⟩ ⟨2, ![E, 1]⟩ ⟨1, ![E]⟩)

/-- d(n): the inverse square root of max(degree, 1) where the degree is positive, 0 elsewhere. -/
def dinvClip (dst : IVec ⟨1, ![E]⟩ 32) : FVec Ideal ⟨1, ![N]⟩ .f32 :=
  select (cmpf .ogt (degree hbN hbE hcol ds dst) (broadcastInDim ⟨1, ![N]⟩ ![] hbN (constant (F := Ideal) ⟨0, ![]⟩ .f32 0x00000000#32)))
    (Host.rsqrt (maximumf (degree hbN hbE hcol ds dst) (broadcastInDim ⟨1, ![N]⟩ ![] hbN (constant (F := Ideal) ⟨0, ![]⟩ .f32 0x3F800000#32))))
    (broadcastInDim ⟨1, ![N]⟩ ![] hbN (constant (F := Ideal) ⟨0, ![]⟩ .f32 0x00000000#32))

/-- The weight of every message for a vector d: d at its wrapped source word times d at its wrapped destination word. -/
def normOf (d : FVec Ideal ⟨1, ![N]⟩ .f32) (nWord : BitVec 32) (src dst : IVec ⟨1, ![E]⟩ 32) : FVec Ideal ⟨1, ![E]⟩ .f32 :=
  mulf (Host.gather dg d (idxCol hcol (wrapIdx hbE nWord src))) (Host.gather dg d (idxCol hcol (wrapIdx hbE nWord dst)))

end Defs

section Facts
variable {N E : Nat} (hN : 0 < N)
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (h1 : ds.updateWindowDims = []) (h2 : ds.insertedWindowDims = [0]) (h3 : ds.scatterDimsToOperandDims = [0]) (h4 : ds.indexVectorDim = 1)
variable (wf : GatherDims.WF ⟨1, ![N]⟩ ⟨2, ![E, 1]⟩ ⟨1, ![E]⟩ [] [0] [] [0] [] 1 ![1])
variable (dg : GatherDims ⟨1, ![N]⟩ ⟨2, ![E, 1]⟩ ⟨1, ![E]⟩) (hdg : dg = vecDims N E wf)

/-- A literal spread over a vector reads the literal's value everywhere. -/
theorem splat_apply {M : Nat} (hb : (⟨0, ![]⟩ : Shape).BroadcastsInDim ⟨1, ![M]⟩ ![]) (wd : BitVec 32) (i : (⟨1, ![M]⟩ : Shape).Idx) :
    broadcastInDim ⟨1, ![M]⟩ ![] hb (constant (F := Ideal) ⟨0, ![]⟩ .f32 wd) i = Ideal.ofBits .f32 wd := by
  rw [broadcastInDim_scalar_apply]
  rfl

include h1 h2 h3 h4 in
/-- The degree of node n is the number of messages whose destination word names it. -/
theorem degree_eq_card (dst : IVec ⟨1, ![E]⟩ 32) (n : Fin N) :
    degree hbN hbE hcol ds dst (ix1 n) = (((edgesAt (idxCol hcol dst) n).card : ℝ) : EReal) := by
  show Ideal.hostScatterAdd ds _ (idxCol hcol dst) _ (ix1 n) = _
  rw [scatterAdd_vec_apply ds h1 h2 h3 h4, splat_apply, Ideal.ofBits_zero_f32, zero_add]
  have hs : ∑ _e ∈ edgesAt (idxCol hcol dst) n, (1 : EReal) = (((edgesAt (idxCol hcol dst) n).card : ℝ) : EReal) := by
    have h := Cert.RealEntries.coe_sum (edgesAt (idxCol hcol dst) n) (fun _ => (1 : ℝ))
    rw [Finset.sum_const, nsmul_eq_mul, mul_one] at h
    exact h.symm
  refine (Finset.sum_congr rfl fun e _ => ?_).trans hs
  rw [splat_apply, Ideal.ofBits_one_f32]

include h1 h2 h3 h4 in
/-- d(n) is a non-negative real number. -/
theorem dinvClip_nonneg_real (dst : IVec ⟨1, ![E]⟩ 32) (n : Fin N) :
    ∃ r : ℝ, 0 ≤ r ∧ dinvClip hbN hbE hcol ds dst (ix1 n) = (r : EReal) := by
  have hd := degree_eq_card hbN hbE hcol ds h1 h2 h3 h4 dst n
  show ∃ r : ℝ, 0 ≤ r ∧ Scalar.select (Ideal.cmp .ogt (degree hbN hbE hcol ds dst (ix1 n))
      (broadcastInDim ⟨1, ![N]⟩ ![] hbN (constant (F := Ideal) ⟨0, ![]⟩ .f32 0x00000000#32) (ix1 n)))
      (Ideal.rsqrt (max (degree hbN hbE hcol ds dst (ix1 n))
        (broadcastInDim ⟨1, ![N]⟩ ![] hbN (constant (F := Ideal) ⟨0, ![]⟩ .f32 0x3F800000#32) (ix1 n))))
      (broadcastInDim ⟨1, ![N]⟩ ![] hbN (constant (F := Ideal) ⟨0, ![]⟩ .f32 0x00000000#32) (ix1 n)) = (r : EReal)
  rw [hd, splat_apply, splat_apply, Ideal.ofBits_zero_f32, Ideal.ofBits_one_f32]
  generalize (edgesAt (idxCol hcol dst) n).card = c
  rcases Nat.eq_zero_or_pos c with h0 | hpos
  · refine ⟨0, le_rfl, ?_⟩
    subst h0
    have hc : Ideal.cmp .ogt (((0 : ℕ) : ℝ) : EReal) 0 = 0#1 := by simp [Ideal.cmp]
    rw [hc, select_zero]
    rfl
  · have hc : Ideal.cmp .ogt ((c : ℝ) : EReal) 0 = 1#1 := by simp [Ideal.cmp, hpos]
    have hmax : max (((c : ℝ)) : EReal) (1 : EReal) = ((max (c : ℝ) 1 : ℝ) : EReal) := by
      rw [← EReal.coe_one]
      exact (EReal.coe_strictMono.monotone.map_max).symm
    have hpos' : (0 : ℝ) < max (c : ℝ) 1 := lt_of_lt_of_le one_pos (le_max_right _ _)
    refine ⟨(Real.sqrt (max (c : ℝ) 1))⁻¹, inv_nonneg.2 (Real.sqrt_nonneg _), ?_⟩
    rw [hc, select_one, hmax, Ideal.rsqrt_coe, if_neg (not_lt.2 hpos'.le), if_neg (ne_of_gt hpos')]

/-- A vector laid out as a column reads, at (e, 0), the vector's word e. -/
theorem idxCol_apply (v : IVec ⟨1, ![E]⟩ 32) (e : Fin E) :
    idxCol hcol v (ix2 e (0 : Fin 1)) = v (ix1 e) :=
  Cert.LibColumn.broadcastInDim_a_a1_apply v hcol e 0

/-- The wrap keeps a word that, read signed, is not negative. -/
theorem wrapIdx_of_nonneg (nWord : BitVec 32) (v : IVec ⟨1, ![E]⟩ 32) (e : Fin E)
    (h : 0 ≤ (v (ix1 e)).toInt) : wrapIdx hbE nWord v (ix1 e) = v (ix1 e) := by
  show Scalar.select (IntOp.cmpi .slt (v (ix1 e))
      (broadcastInDim ⟨1, ![E]⟩ ![] hbE (constantI ⟨0, ![]⟩ 32 0#32) (ix1 e))) _ _ = _
  rw [broadcastInDim_scalar_apply]
  have hs : (v (ix1 e)).slt 0#32 = false := by
    simp only [BitVec.slt, BitVec.toInt_zero, decide_eq_false_iff_not, not_lt]
    exact h
  have hc : IntOp.cmpi .slt (v (ix1 e)) (constantI ⟨0, ![]⟩ 32 0#32 ix0) = 0#1 := by
    show BitVec.ofBool ((v (ix1 e)).slt 0#32) = 0#1
    rw [hs]
    rfl
  rw [hc, select_zero]

include hdg in
/-- A message that lands on node n weighs d(its source row) · d(n), for any vector d. -/
theorem normOf_of_lands (d : FVec Ideal ⟨1, ![N]⟩ .f32) (nWord : BitVec 32) (src dst : IVec ⟨1, ![E]⟩ 32) (n : Fin N) (e : Fin E)
    (he : e ∈ edgesAt (idxCol hcol dst) n) :
    normOf hbE hcol dg d nWord src dst (ix1 e)
      = d (ix1 (rowOf hN (idxCol hcol (wrapIdx hbE nWord src)) e)) * d (ix1 n) := by
  subst hdg
  have hword : (dst (ix1 e)).toInt = ((n.val : Nat) : Int) := by
    have h := (mem_edgesAt (idxCol hcol dst) n e).1 he
    rwa [idxCol_apply] at h
  have hrow : rowOf hN (idxCol hcol (wrapIdx hbE nWord dst)) e = n := by
    refine Fin.ext ?_
    show min ((idxCol hcol (wrapIdx hbE nWord dst)) (ix2 e (0 : Fin 1))).toInt.toNat (N - 1) = n.val
    rw [idxCol_apply, wrapIdx_of_nonneg hbE nWord dst e (by rw [hword]; exact Int.natCast_nonneg _), hword,
      Int.toNat_natCast]
    have := n.isLt
    omega
  show Host.gather (vecDims N E wf) _ _ (ix1 e) * Host.gather (vecDims N E wf) _ _ (ix1 e) = _
  rw [gather_vec_apply hN wf, gather_vec_apply hN wf, hrow]

end Facts

end Cert.ClippedDegree

end
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibAggregate.lean ====
/-
  A weighted neighbourhood sum read at one entry.

  Messages e = 0 … E − 1 each carry a source row (an index into a table of N rows and C columns, read signed and clamped
  as a row gather reads it), a destination id and a weight. The aggregate gathers each message's source row, scales it by
  the message's weight (the weight vector laid out as a column and spread across the C columns) and adds it into its
  destination's row of an operand, as a segment sum does. At the ideal (extended-real) values its entry at row n and
  column k is therefore

      x₀(n, k) + ∑ over the messages e with destination n of  T(source e, k) · weight e,

  one exact finite sum: the gather keeps columns, the weight does not depend on the column, and the segment sum adds the
  updates of column k that land on row n. No finiteness is needed. Nothing here depends on a program.
-/
import Idealize.ShloMosaic.PureOps
import Idealize.ShloMosaic.PureOps.Ideal
import Idealize.ShloMosaic.Lib.ValueIdx
import Idealize.ShloMosaic.Lib.Pipeline.Value
import proofs.«130063_j23605140259289_2_alg».proof.Proof.LibSegmentSum
import proofs.«130063_j23605140259289_2_alg».proof.Proof.LibGatherRows
import proofs.«130063_j23605140259289_2_alg».proof.Proof.LibColumn
import proofs.«130063_j23605140259289_2_alg».proof.Proof.LibHostColumn

noncomputable section

namespace Cert.LibAggregate

open Idealize.ShloMosaic Idealize.ShloMosaic.ValueIdx Cert.SegmentSum Cert.KernelIdeal.Hand

/-- The weighted neighbourhood sum at (n, k): the operand's entry plus the sum, over the messages whose destination is n,
    of the table's entry at (the message's source row, k) times the message's weight. The gather's dimension numbers are
    any record equal to a row gather's (the equation is `rfl` at a literal record). -/
theorem aggregate_apply {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb1 : (⟨1, ![E]⟩ : Shape).BroadcastsInDim ⟨2, ![E, 1]⟩ ![0])
    (hb2 : (⟨2, ![E, 1]⟩ : Shape).BroadcastsInDim ⟨2, ![E, C]⟩ ![0, 1])
    (x0 : FVec Ideal ⟨2, ![N, C]⟩ .f32) (ci : IVec ⟨2, ![E, 1]⟩ w) (T : FVec Ideal ⟨2, ![N, C]⟩ .f32)
    (gi : IVec ⟨2, ![E, 1]⟩ w') (nrm : FVec Ideal ⟨1, ![E]⟩ .f32) (n : Fin N) (k : Fin C) :
    Host.scatterAdd ds x0 ci
        (mulf (Host.gather dg T gi)
          (broadcastInDim ⟨2, ![E, C]⟩ ![0, 1] hb2 (broadcastInDim ⟨2, ![E, 1]⟩ ![0] hb1 nrm))) (ix2 n k)
      = x0 (ix2 n k) + ∑ e ∈ edgesAt ci n, T (ix2 (rowOf hN gi e) k) * nrm (ix1 e) := by
  subst hdg
  show Ideal.hostScatterAdd ds x0 ci
      (fun j => Host.gather (rowDims N E C wf) T gi j
        * broadcastInDim ⟨2, ![E, C]⟩ ![0, 1] hb2 (broadcastInDim ⟨2, ![E, 1]⟩ ![0] hb1 nrm) j) (ix2 n k) = _
  rw [scatterAdd_rows_apply ds h1 h2 h3 h4]
  refine congrArg (x0 (ix2 n k) + ·) (Finset.sum_congr rfl fun e _ => ?_)
  show Host.gather (rowDims N E C wf) T gi (ix2 e k)
      * broadcastInDim ⟨2, ![E, C]⟩ ![0, 1] hb2 (broadcastInDim ⟨2, ![E, 1]⟩ ![0] hb1 nrm) (ix2 e k) = _
  rw [gather_rows_apply hN wf T gi e k, Cert.LibHostColumn.broadcastInDim_a1_ab_apply,
    Cert.LibColumn.broadcastInDim_a_a1_apply]

end Cert.LibAggregate

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.LibGcnLayer.lean ====
/-
  A graph-convolution layer with self-loops, entry by entry on the extended reals, in two arrangements.

  Nodes 0 … N − 1 carry feature rows X(n, ·); messages e = 0 … E − 1 each name a source word and a destination word. With
  P = X · W (an exact finite sum per entry) and a vector d over the nodes, the layer's entry at (n, k) is

      Σ over the messages e landing on n of  P(source row of e, k) · d(source row of e) · d(n)   +   P(n, k) · d(n) · d(n)   +   b(k),

  optionally under a maximum with zero. The first arrangement scales every row of P by d before the rows are collected
  and scales the collected sum by d(n) afterwards; the second gives every collected row its whole weight
  d(source) · d(destination). They agree whenever every d(n) is a non-negative real number: such a factor distributes
  over a finite sum of extended reals, and multiplication of extended reals is associative and commutative. No entry
  of X, W or b needs to be finite.

  d itself is the inverse square root of one plus the number of messages landing on the node: a count plus one is a real
  number at least 1, so its inverse square root is a positive real.
-/
import Idealize.ShloMosaic.Lib.IdealHost
import proofs.«130063_j23605140259289_2_alg».proof.Proof.LibGraphLayers
import proofs.«130063_j23605140259289_2_alg».proof.Proof.LibCollect
import proofs.«130063_j23605140259289_2_alg».proof.Proof.LibClippedDegree
import proofs.«130063_j23605140259289_2_alg».proof.Proof.LibAggregate
import proofs.«130063_j23605140259289_2_alg».proof.Proof.LibRowTiles

noncomputable section

namespace Cert.Gcn

open Idealize.ShloMosaic Idealize.ShloMosaic.ValueIdx Cert.SegmentSum Cert.KernelIdeal.Hand Cert.GraphLinear Cert.ClippedDegree
open Cert.LibGatherVec

/-! ## The combining kernel as a function of whole arrays -/

/-- d(p)·raw(p, q) + hp(p, q)·d(p) + b(0, q). -/
def combineLin {N C : Nat} (raw hp : Mat N C) (d : Mat N 1) (b : Mat 1 C) : Mat N C :=
  fun i => d (ix2 (i 0) (0 : Fin 1)) * raw i + hp i * d (ix2 (i 0) (0 : Fin 1)) + b (ix2 (0 : Fin 1) (i 1))

/-- The same under a maximum with zero. -/
def combineRelu {N C : Nat} (raw hp : Mat N C) (d : Mat N 1) (b : Mat 1 C) : Mat N C :=
  fun i => max (d (ix2 (i 0) (0 : Fin 1)) * raw i + hp i * d (ix2 (i 0) (0 : Fin 1)) + b (ix2 (0 : Fin 1) (i 1))) (0 : EReal)

theorem combineLin_apply {N C : Nat} (raw hp : Mat N C) (d : Mat N 1) (b : Mat 1 C) (p : Fin N) (q : Fin C) :
    combineLin raw hp d b (ix2 p q)
      = d (ix2 p (0 : Fin 1)) * raw (ix2 p q) + hp (ix2 p q) * d (ix2 p (0 : Fin 1)) + b (ix2 (0 : Fin 1) q) := rfl
theorem combineRelu_apply {N C : Nat} (raw hp : Mat N C) (d : Mat N 1) (b : Mat 1 C) (p : Fin N) (q : Fin C) :
    combineRelu raw hp d b (ix2 p q)
      = max (d (ix2 p (0 : Fin 1)) * raw (ix2 p q) + hp (ix2 p q) * d (ix2 p (0 : Fin 1)) + b (ix2 (0 : Fin 1) q)) (0 : EReal) := rfl

/-! ## One layer in the two arrangements, spelt with the host operations each program applies -/

section Layer
variable {N E K C : Nat}
variable (dotd : DotDims ⟨2, ![N, K]⟩ ⟨2, ![K, C]⟩ ⟨2, ![N, C]⟩)
variable (hbE : (⟨0, ![]⟩ : Shape).BroadcastsInDim ⟨1, ![E]⟩ ![])
variable (hcol : (⟨1, ![E]⟩ : Shape).BroadcastsInDim ⟨2, ![E, 1]⟩ ![0])
variable (gv : GatherDims ⟨1, ![N]⟩ ⟨2, ![E, 1]⟩ ⟨1, ![E]⟩)
variable (gr : GatherDims ⟨2, ![N, C]⟩ ⟨2, ![E, 1]⟩ ⟨2, ![E, C]⟩)
variable (sd : ScatterDims ⟨2, ![N, C]⟩ ⟨2, ![E, 1]⟩ ⟨2, ![E, C]⟩)
variable (hz : (⟨0, ![]⟩ : Shape).BroadcastsInDim ⟨2, ![N, C]⟩ ![])
variable (hEC : (⟨2, ![E, 1]⟩ : Shape).BroadcastsInDim ⟨2, ![E, C]⟩ ![0, 1])
variable (hN1 : (⟨1, ![N]⟩ : Shape).BroadcastsInDim ⟨2, ![N, 1]⟩ ![0])
variable (hNC : (⟨2, ![N, 1]⟩ : Shape).BroadcastsInDim ⟨2, ![N, C]⟩ ![0, 1])
variable (hb1 : (⟨1, ![C]⟩ : Shape).BroadcastsInDim ⟨2, ![1, C]⟩ ![1])
variable (hb2 : (⟨2, ![1, C]⟩ : Shape).BroadcastsInDim ⟨2, ![N, C]⟩ ![0, 1])
variable (hsc : (⟨1, ![C]⟩ : Shape).ShapeCasts ⟨2, ![1, C]⟩)
variable (nWord : BitVec 32)

/-- The rows scaled by d before they are collected: (X · W)(p, q) · d(p), with d laid out as a column. -/
def preScaled (X : FVec Ideal ⟨2, ![N, K]⟩ .f32) (W : FVec Ideal ⟨2, ![K, C]⟩ .f32) (dvec : FVec Ideal ⟨1, ![N]⟩ .f32) :
    FVec Ideal ⟨2, ![N, C]⟩ .f32 :=
  scaled X W (broadcastInDim ⟨2, ![N, 1]⟩ ![0] hN1 dvec)

/-- The pre-scaled rows gathered at the wrapped source words and added into zeros at the destination words. -/
def rawAgg (hp : FVec Ideal ⟨2, ![N, C]⟩ .f32) (src dst : IVec ⟨1, ![E]⟩ 32) : FVec Ideal ⟨2, ![N, C]⟩ .f32 :=
  Host.scatterAdd sd (broadcastInDim ⟨2, ![N, C]⟩ ![] hz (constant (F := Ideal) ⟨0, ![]⟩ .f32 0x00000000#32)) (idxCol hcol dst)
    (Host.gather gr hp (idxCol hcol (wrapIdx hbE nWord src)))

/-- The first arrangement, without the maximum. -/
def kerLin (X : FVec Ideal ⟨2, ![N, K]⟩ .f32) (W : FVec Ideal ⟨2, ![K, C]⟩ .f32) (dvec : FVec Ideal ⟨1, ![N]⟩ .f32)
    (src dst : IVec ⟨1, ![E]⟩ 32) (b : FVec Ideal ⟨1, ![C]⟩ .f32) : FVec Ideal ⟨2, ![N, C]⟩ .f32 :=
  combineLin (rawAgg hbE hcol gr sd hz nWord (preScaled hN1 X W dvec) src dst) (preScaled hN1 X W dvec)
    (broadcastInDim ⟨2, ![N, 1]⟩ ![0] hN1 dvec) (shapeCast ⟨2, ![1, C]⟩ b hsc)

/-- The first arrangement under the maximum with zero. -/
def kerRelu (X : FVec Ideal ⟨2, ![N, K]⟩ .f32) (W : FVec Ideal ⟨2, ![K, C]⟩ .f32) (dvec : FVec Ideal ⟨1, ![N]⟩ .f32)
    (src dst : IVec ⟨1, ![E]⟩ 32) (b : FVec Ideal ⟨1, ![C]⟩ .f32) : FVec Ideal ⟨2, ![N, C]⟩ .f32 :=
  combineRelu (rawAgg hbE hcol gr sd hz nWord (preScaled hN1 X W dvec) src dst) (preScaled hN1 X W dvec)
    (broadcastInDim ⟨2, ![N, 1]⟩ ![0] hN1 dvec) (shapeCast ⟨2, ![1, C]⟩ b hsc)

/-- The second arrangement, without the maximum: every gathered row of X · W times its message's whole weight, added into
    zeros; plus the node's own row times d(n)·d(n); plus the bias laid along the rows. -/
def refLin (X : FVec Ideal ⟨2, ![N, K]⟩ .f32) (W : FVec Ideal ⟨2, ![K, C]⟩ .f32) (dvec : FVec Ideal ⟨1, ![N]⟩ .f32)
    (src dst : IVec ⟨1, ![E]⟩ 32) (b : FVec Ideal ⟨1, ![C]⟩ .f32) : FVec Ideal ⟨2, ![N, C]⟩ .f32 :=
  addf
    (addf
      (Host.scatterAdd sd (broadcastInDim ⟨2, ![N, C]⟩ ![] hz (constant (F := Ideal) ⟨0, ![]⟩ .f32 0x00000000#32)) (idxCol hcol dst)
        (mulf (Host.gather gr (Host.dotGeneral dotd none X W) (idxCol hcol (wrapIdx hbE nWord src)))
          (broadcastInDim ⟨2, ![E, C]⟩ ![0, 1] hEC
            (broadcastInDim ⟨2, ![E, 1]⟩ ![0] hcol (normOf hbE hcol gv dvec nWord src dst)))))
      (mulf (Host.dotGeneral dotd none X W)
        (broadcastInDim ⟨2, ![N, C]⟩ ![0, 1] hNC (broadcastInDim ⟨2, ![N, 1]⟩ ![0] hN1 (mulf dvec dvec)))))
    (broadcastInDim ⟨2, ![N, C]⟩ ![0, 1] hb2 (broadcastInDim ⟨2, ![1, C]⟩ ![1] hb1 b))

/-- The second arrangement under the maximum with the zero splat. -/
def refRelu (X : FVec Ideal ⟨2, ![N, K]⟩ .f32) (W : FVec Ideal ⟨2, ![K, C]⟩ .f32) (dvec : FVec Ideal ⟨1, ![N]⟩ .f32)
    (src dst : IVec ⟨1, ![E]⟩ 32) (b : FVec Ideal ⟨1, ![C]⟩ .f32) : FVec Ideal ⟨2, ![N, C]⟩ .f32 :=
  maximumf (refLin dotd hbE hcol gv gr sd hz hEC hN1 hNC hb1 hb2 nWord X W dvec src dst b)
    (broadcastInDim ⟨2, ![N, C]⟩ ![] hz (constant (F := Ideal) ⟨0, ![]⟩ .f32 0x00000000#32))

/-! ## The law between them -/

section Law
variable (hN : 0 < N)
variable (hdot : dotd = DotDims.plain N K C)
variable (wfv : GatherDims.WF ⟨1, ![N]⟩ ⟨2, ![E, 1]⟩ ⟨1, ![E]⟩ [] [0] [] [0] [] 1 ![1]) (hgv : gv = vecDims N E wfv)
variable (wfr : GatherDims.WF ⟨2, ![N, C]⟩ ⟨2, ![E, 1]⟩ ⟨2, ![E, C]⟩ [1] [0] [] [0] [] 1 ![1, C]) (hgr : gr = rowDims N E C wfr)
variable (h1 : sd.updateWindowDims = [1]) (h2 : sd.insertedWindowDims = [0]) (h3 : sd.scatterDimsToOperandDims = [0])
variable (h4 : sd.indexVectorDim = 1)

include hN hgr h1 h2 h3 h4 in
/-- The first arrangement at (n, k): d(n) times the collected pre-scaled rows, plus the node's own pre-scaled row times
    d(n), plus the bias. -/
theorem kerLin_apply (dvec : FVec Ideal ⟨1, ![N]⟩ .f32)
    (X : FVec Ideal ⟨2, ![N, K]⟩ .f32) (W : FVec Ideal ⟨2, ![K, C]⟩ .f32) (src dst : IVec ⟨1, ![E]⟩ 32)
    (b : FVec Ideal ⟨1, ![C]⟩ .f32) (n : Fin N) (k : Fin C) :
    kerLin hbE hcol gr sd hz hN1 hsc nWord X W dvec src dst b (ix2 n k)
      = dvec (ix1 n) * (∑ e ∈ edgesAt (idxCol hcol dst) n,
            (∑ j : Fin K, X (ix2 (rowOf hN (idxCol hcol (wrapIdx hbE nWord src)) e) j) * W (ix2 j k))
              * dvec (ix1 (rowOf hN (idxCol hcol (wrapIdx hbE nWord src)) e)))
        + (∑ j : Fin K, X (ix2 n j) * W (ix2 j k)) * dvec (ix1 n) * dvec (ix1 n) + b (ix1 k) := by
  have hraw : rawAgg hbE hcol gr sd hz nWord (preScaled hN1 X W dvec) src dst
      = collect hN (idxCol hcol dst) (idxCol hcol (wrapIdx hbE nWord src)) (preScaled hN1 X W dvec) :=
    scatter_gather_eq_collect hN sd h1 h2 h3 h4 wfr gr hgr hz _ _ _
  have hD : ∀ p : Fin N, broadcastInDim ⟨2, ![N, 1]⟩ ![0] hN1 dvec (ix2 p (0 : Fin 1)) = dvec (ix1 p) :=
    fun p => Cert.LibColumn.broadcastInDim_a_a1_apply dvec hN1 p 0
  have hP : ∀ (p : Fin N) (q : Fin C), preScaled hN1 X W dvec (ix2 p q)
      = (∑ j : Fin K, X (ix2 p j) * W (ix2 j q)) * dvec (ix1 p) := by
    intro p q
    unfold preScaled
    rw [scaled_apply, hD]
  have hB : shapeCast ⟨2, ![1, C]⟩ b hsc (ix2 (0 : Fin 1) k) = b (ix1 k) := by
    refine shapeCast_apply b hsc (ix2 (0 : Fin 1) k) (ix1 k) ?_
    rw [Shape.rowMajor_val_two, Shape.rowMajor_val_one]
    show k.val = 0 * C + k.val
    omega
  unfold kerLin
  rw [combineLin_apply, hraw, collect_apply, hD, hB]
  simp only [hP]

include hN hdot hgr h1 h2 h3 h4 in
/-- The second arrangement at (n, k): zero plus the collected rows each times its message's weight, plus the node's own row
    times d(n) · d(n), plus the bias. -/
theorem refLin_apply (dvec : FVec Ideal ⟨1, ![N]⟩ .f32)
    (X : FVec Ideal ⟨2, ![N, K]⟩ .f32) (W : FVec Ideal ⟨2, ![K, C]⟩ .f32) (src dst : IVec ⟨1, ![E]⟩ 32)
    (b : FVec Ideal ⟨1, ![C]⟩ .f32) (n : Fin N) (k : Fin C) :
    refLin dotd hbE hcol gv gr sd hz hEC hN1 hNC hb1 hb2 nWord X W dvec src dst b (ix2 n k)
      = ((0 : EReal) + ∑ e ∈ edgesAt (idxCol hcol dst) n,
            (∑ j : Fin K, X (ix2 (rowOf hN (idxCol hcol (wrapIdx hbE nWord src)) e) j) * W (ix2 j k))
              * normOf hbE hcol gv dvec nWord src dst (ix1 e))
        + (∑ j : Fin K, X (ix2 n j) * W (ix2 j k)) * (dvec (ix1 n) * dvec (ix1 n)) + b (ix1 k) := by
  have hP : Host.dotGeneral dotd none X W = Cert.LibRowTiles.prod X W :=
    Cert.LibRowTiles.dotGeneral_eq_prod dotd hdot X W
  show Host.scatterAdd sd (broadcastInDim ⟨2, ![N, C]⟩ ![] hz (constant (F := Ideal) ⟨0, ![]⟩ .f32 0x00000000#32))
        (idxCol hcol dst)
        (mulf (Host.gather gr (Host.dotGeneral dotd none X W) (idxCol hcol (wrapIdx hbE nWord src)))
          (broadcastInDim ⟨2, ![E, C]⟩ ![0, 1] hEC
            (broadcastInDim ⟨2, ![E, 1]⟩ ![0] hcol (normOf hbE hcol gv dvec nWord src dst)))) (ix2 n k)
      + Host.dotGeneral dotd none X W (ix2 n k)
        * broadcastInDim ⟨2, ![N, C]⟩ ![0, 1] hNC (broadcastInDim ⟨2, ![N, 1]⟩ ![0] hN1 (mulf dvec dvec)) (ix2 n k)
      + broadcastInDim ⟨2, ![N, C]⟩ ![0, 1] hb2 (broadcastInDim ⟨2, ![1, C]⟩ ![1] hb1 b) (ix2 n k) = _
  rw [Cert.LibAggregate.aggregate_apply hN sd h1 h2 h3 h4 wfr gr hgr hcol hEC, hP, broadcastInDim_scalar_apply,
    constant_apply, Ideal.ofBits_zero_f32, Cert.LibHostColumn.broadcastInDim_a1_ab_apply,
    Cert.LibColumn.broadcastInDim_a_a1_apply, Cert.LibRowTiles.hostRow_apply]
  rfl

include hN hdot hgv hgr h1 h2 h3 h4 in
/-- Without the maximum: the two arrangements agree on any rows, weights and bias when every d(n) is a non-negative real. -/
theorem kerLin_eq_refLin (dvec : FVec Ideal ⟨1, ![N]⟩ .f32)
    (hd : ∀ n : Fin N, ∃ r : ℝ, 0 ≤ r ∧ dvec (ix1 n) = (r : EReal))
    (X : FVec Ideal ⟨2, ![N, K]⟩ .f32) (W : FVec Ideal ⟨2, ![K, C]⟩ .f32) (src dst : IVec ⟨1, ![E]⟩ 32)
    (b : FVec Ideal ⟨1, ![C]⟩ .f32) :
    kerLin hbE hcol gr sd hz hN1 hsc nWord X W dvec src dst b
      = refLin dotd hbE hcol gv gr sd hz hEC hN1 hNC hb1 hb2 nWord X W dvec src dst b := by
  funext i
  obtain ⟨n, k, rfl⟩ : ∃ (n : Fin N) (k : Fin C), i = ix2 n k := ⟨i 0, i 1, eq_ix2 i⟩
  obtain ⟨r, hr, hdn⟩ := hd n
  rw [kerLin_apply hbE hcol gr sd hz hN1 hsc nWord hN wfr hgr h1 h2 h3 h4 dvec X W src dst b n k,
    refLin_apply dotd hbE hcol gv gr sd hz hEC hN1 hNC hb1 hb2 nWord hN hdot wfr hgr h1 h2 h3 h4 dvec X W src dst b n k,
    zero_add, hdn]
  refine congrArg₂ (· + ·) (congrArg₂ (· + ·) ?_ (mul_assoc _ _ _)) rfl
  refine (mul_comm _ _).trans ?_
  rw [← Cert.Attn.sum_mul_coe _ _ r hr]
  refine Finset.sum_congr rfl fun e he => ?_
  rw [normOf_of_lands hN hbE hcol wfv gv hgv dvec nWord src dst n e he, hdn, mul_assoc]

include hN hdot hgv hgr h1 h2 h3 h4 in
/-- Under the maximum with zero likewise. -/
theorem kerRelu_eq_refRelu (dvec : FVec Ideal ⟨1, ![N]⟩ .f32)
    (hd : ∀ n : Fin N, ∃ r : ℝ, 0 ≤ r ∧ dvec (ix1 n) = (r : EReal))
    (X : FVec Ideal ⟨2, ![N, K]⟩ .f32) (W : FVec Ideal ⟨2, ![K, C]⟩ .f32) (src dst : IVec ⟨1, ![E]⟩ 32)
    (b : FVec Ideal ⟨1, ![C]⟩ .f32) :
    kerRelu hbE hcol gr sd hz hN1 hsc nWord X W dvec src dst b
      = refRelu dotd hbE hcol gv gr sd hz hEC hN1 hNC hb1 hb2 nWord X W dvec src dst b := by
  funext i
  show max (kerLin hbE hcol gr sd hz hN1 hsc nWord X W dvec src dst b i) (0 : EReal)
    = max (refLin dotd hbE hcol gv gr sd hz hEC hN1 hNC hb1 hb2 nWord X W dvec src dst b i)
        (broadcastInDim ⟨2, ![N, C]⟩ ![] hz (constant (F := Ideal) ⟨0, ![]⟩ .f32 0x00000000#32) i)
  rw [kerLin_eq_refLin dotd hbE hcol gv gr sd hz hEC hN1 hNC hb1 hb2 hsc nWord hN hdot wfv hgv wfr hgr h1 h2 h3 h4 dvec hd
      X W src dst b,
    broadcastInDim_scalar_apply, constant_apply, Ideal.ofBits_zero_f32]

end Law

end Layer

/-! ## The normalisation vector -/

section Degree
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)

/-- d(n) = 1/√(degree(n) + 1), the degree the number of messages whose destination word names n. -/
def dinvPlusOne (dst : IVec ⟨1, ![E]⟩ 32) : FVec Ideal ⟨1, ![N]⟩ .f32 :=
  Host.rsqrt (addf (degree hbN hbE hcol ds dst)
    (broadcastInDim ⟨1, ![N]⟩ ![] hbN (constant (F := Ideal) ⟨0, ![]⟩ .f32 0x3F800000#32)))

/-- d(n) is a non-negative real number, whatever the index words are. -/
theorem dinvPlusOne_nonneg_real (h1 : ds.updateWindowDims = []) (h2 : ds.insertedWindowDims = [0])
    (h3 : ds.scatterDimsToOperandDims = [0]) (h4 : ds.indexVectorDim = 1) (dst : IVec ⟨1, ![E]⟩ 32) (n : Fin N) :
    ∃ r : ℝ, 0 ≤ r ∧ dinvPlusOne hbN hbE hcol ds dst (ix1 n) = (r : EReal) := by
  have hd := degree_eq_card hbN hbE hcol ds h1 h2 h3 h4 dst n
  show ∃ r : ℝ, 0 ≤ r ∧ Ideal.rsqrt (degree hbN hbE hcol ds dst (ix1 n)
      + broadcastInDim ⟨1, ![N]⟩ ![] hbN (constant (F := Ideal) ⟨0, ![]⟩ .f32 0x3F800000#32) (ix1 n)) = (r : EReal)
  rw [hd, splat_apply, Ideal.ofBits_one_f32]
  generalize (edgesAt (idxCol hcol dst) n).card = c
  have hpos : (0 : ℝ) < (c : ℝ) + 1 := by positivity
  refine ⟨(Real.sqrt ((c : ℝ) + 1))⁻¹, inv_nonneg.2 (Real.sqrt_nonneg _), ?_⟩
  rw [← EReal.coe_one, ← EReal.coe_add, Ideal.rsqrt_coe, if_neg (not_lt.2 hpos.le), if_neg (ne_of_gt hpos)]

end Degree

end Cert.Gcn

end
-- ==== Proof.KernelHost.lean ====
/-
  What the kernel program's stretches of host operations compute, each stretch read over any contents of the buffers it
  finds.

  Before the first region: the node features (eight columns of the input beside the embedding row its ninth column names),
  the source and destination words of the messages, and d = 1/√(in-degree + 1) laid out as a column. Between two layers: the
  previous region's pre-scaled rows gathered at the wrapped source words and added into zeros at the destination words, and
  the layer's bias as a one-row matrix. Nothing else is written, so every other buffer keeps its contents.
-/
import proofs.«130063_j23605140259289_2_alg».proof.Proof.Gen.KernelIdeal.Frame
import proofs.«130063_j23605140259289_2_alg».proof.Proof.LibGcnLayer
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.ShloMosaic.StableHlo Idealize.ShloMosaic.ValueIdx Idealize.SL.Sem
open Cert.Gcn Cert.GraphLinear

/-! ## The values the first stretch computes, as functions of the arguments -/

/-- The token id of every node: the ninth input column converted to an integer word. -/
def tokenIds (x : FVec Ideal S50000x9 .f32) : IVec S50000 32 :=
  fptosi 32 (shapeCast S50000 (extractStridedSlice S50000x1 ![0, 8] x slices_S50000x9_S50000x1_0_8) shapeCasts_S50000x1_S50000)

/-- The node features: the first eight input columns beside the embedding row of the (wrapped) token id. -/
def feats (x : FVec Ideal S50000x9 .f32) (emb : FVec Ideal S3000x192 .f32) : FVec Ideal S50000x200 .f32 :=
  concatenate S50000x200 1
    [⟨S50000x8, extractStridedSlice S50000x8 ![0, 0] x slices_S50000x9_S50000x8_0_0⟩,
     ⟨S50000x192, Host.gather gather_S3000x192_S50000x1_S50000x192_1_0_n_n_0_1_1192 emb
        (broadcastInDim S50000x1 ![0] bcast_S50000_S50000x1_0
          (select (cmpi .slt (tokenIds x) (broadcastInDim S50000 ![] bcast_S_S50000 (constantI S_ 32 0#32)))
            (addi (tokenIds x) (broadcastInDim S50000 ![] bcast_S_S50000 (constantI S_ 32 3000#32))) (tokenIds x)))⟩]
    concatenates_S50000x8_S50000x192_S50000x200_d1

/-- The source words of the messages: row 0 of the edge array. -/
def srcOf (ei : IVec S2x1600000 32) : IVec S1600000 32 :=
  shapeCast S1600000 (extractStridedSlice S1x1600000 ![0, 0] ei slices_S2x1600000_S1x1600000_0_0) shapeCasts_S1x1600000_S1600000
/-- The destination words: row 1. -/
def dstOf (ei : IVec S2x1600000 32) : IVec S1600000 32 :=
  shapeCast S1600000 (extractStridedSlice S1x1600000 ![1, 0] ei slices_S2x1600000_S1x1600000_1_0) shapeCasts_S1x1600000_S1600000

/-- d = 1/√(in-degree + 1) over the nodes. -/
def dvecOf (ei : IVec S2x1600000 32) : FVec Ideal S50000 .f32 :=
  dinvPlusOne bcast_S_S50000 bcast_S_S1600000 bcast_S1600000_S1600000x1_0 scatter_S50000_S1600000x1_S1600000_n_0_0_1 (dstOf ei)

/-- d as a column. -/
def dcolOf (ei : IVec S2x1600000 32) : FVec Ideal S50000x1 .f32 :=
  broadcastInDim S50000x1 ![0] bcast_S50000_S50000x1_0 (dvecOf ei)

variable (W : Valuation τ sig (Elt Ideal))

theorem h0_feats : StableHlo.after (hostOps0 (F := Ideal)) W (Proc.devRef .tc main_v11)
    = feats (W (Proc.devRef .tc main_arg0)) (W (Proc.devRef .tc main_arg2)) := by
  after_results_simp; rfl
theorem h0_src : StableHlo.after (hostOps0 (F := Ideal)) W (Proc.devRef .tc main_v13) = srcOf (W (Proc.devRef .tc main_arg1)) := by
  after_results_simp; rfl
theorem h0_dst : StableHlo.after (hostOps0 (F := Ideal)) W (Proc.devRef .tc main_v15) = dstOf (W (Proc.devRef .tc main_arg1)) := by
  after_results_simp; rfl
theorem h0_dcol : StableHlo.after (hostOps0 (F := Ideal)) W (Proc.devRef .tc main_v23) = dcolOf (W (Proc.devRef .tc main_arg1)) := by
  after_results_simp; rfl

/-! ## The stretches between the layers -/

/-- Pre-scaled rows of width 128 collected along the messages. -/
abbrev raw128 (hp : FVec Ideal S50000x128 .f32) (src dst : IVec S1600000 32) : FVec Ideal S50000x128 .f32 :=
  rawAgg bcast_S_S1600000 bcast_S1600000_S1600000x1_0 gather_S50000x128_S1600000x1_S1600000x128_1_0_n_n_0_1_1128 scatter_S50000x128_S1600000x1_S1600000x128_1_0_0_1 bcast_S_S50000x128 50000#32 hp src dst
/-- The same at width 64. -/
abbrev raw64 (hp : FVec Ideal S50000x64 .f32) (src dst : IVec S1600000 32) : FVec Ideal S50000x64 .f32 :=
  rawAgg bcast_S_S1600000 bcast_S1600000_S1600000x1_0 gather_S50000x64_S1600000x1_S1600000x64_1_0_n_n_0_1_164 scatter_S50000x64_S1600000x1_S1600000x64_1_0_0_1 bcast_S_S50000x64 50000#32 hp src dst
/-- A bias vector as a one-row matrix. -/
abbrev brow128 (b : FVec Ideal S128 .f32) : FVec Ideal S1x128 .f32 := shapeCast S1x128 b shapeCasts_S128_S1x128
abbrev brow64 (b : FVec Ideal S64 .f32) : FVec Ideal S1x64 .f32 := shapeCast S1x64 b shapeCasts_S64_S1x64

theorem h1_raw : StableHlo.after (hostOps1 (F := Ideal)) W (Proc.devRef .tc main_v34)
    = raw128 (W (Proc.devRef .tc main_v24)) (W (Proc.devRef .tc main_v13)) (W (Proc.devRef .tc main_v15)) := by
  after_results_simp; rfl
theorem h1_bias : StableHlo.after (hostOps1 (F := Ideal)) W (Proc.devRef .tc main_v35) = brow128 (W (Proc.devRef .tc main_arg4)) := by
  after_results_simp; rfl

theorem h3_raw : StableHlo.after (hostOps3 (F := Ideal)) W (Proc.devRef .tc main_v47)
    = raw128 (W (Proc.devRef .tc main_v37)) (W (Proc.devRef .tc main_v13)) (W (Proc.devRef .tc main_v15)) := by
  after_results_simp; rfl
theorem h3_bias : StableHlo.after (hostOps3 (F := Ideal)) W (Proc.devRef .tc main_v48) = brow128 (W (Proc.devRef .tc main_arg6)) := by
  after_results_simp; rfl

theorem h5_raw : StableHlo.after (hostOps5 (F := Ideal)) W (Proc.devRef .tc main_v60)
    = raw128 (W (Proc.devRef .tc main_v50)) (W (Proc.devRef .tc main_v13)) (W (Proc.devRef .tc main_v15)) := by
  after_results_simp; rfl
theorem h5_bias : StableHlo.after (hostOps5 (F := Ideal)) W (Proc.devRef .tc main_v61) = brow128 (W (Proc.devRef .tc main_arg8)) := by
  after_results_simp; rfl

theorem h7_raw : StableHlo.after (hostOps7 (F := Ideal)) W (Proc.devRef .tc main_v73)
    = raw64 (W (Proc.devRef .tc main_v63)) (W (Proc.devRef .tc main_v13)) (W (Proc.devRef .tc main_v15)) := by
  after_results_simp; rfl
theorem h7_bias : StableHlo.after (hostOps7 (F := Ideal)) W (Proc.devRef .tc main_v74) = brow64 (W (Proc.devRef .tc main_arg10)) := by
  after_results_simp; rfl

/-! ## What each stretch leaves alone -/
theorem h0_keep_arg3 : StableHlo.after (hostOps0 (F := Ideal)) W (Proc.devRef .tc main_arg3) = W (Proc.devRef .tc main_arg3) := by
  after_results_simp
theorem h0_keep_arg4 : StableHlo.after (hostOps0 (F := Ideal)) W (Proc.devRef .tc main_arg4) = W (Proc.devRef .tc main_arg4) := by
  after_results_simp
theorem h0_keep_arg5 : StableHlo.after (hostOps0 (F := Ideal)) W (Proc.devRef .tc main_arg5) = W (Proc.devRef .tc main_arg5) := by
  after_results_simp
theorem h0_keep_arg6 : StableHlo.after (hostOps0 (F := Ideal)) W (Proc.devRef .tc main_arg6) = W (Proc.devRef .tc main_arg6) := by
  after_results_simp
theorem h0_keep_arg7 : StableHlo.after (hostOps0 (F := Ideal)) W (Proc.devRef .tc main_arg7) = W (Proc.devRef .tc main_arg7) := by
  after_results_simp
theorem h0_keep_arg8 : StableHlo.after (hostOps0 (F := Ideal)) W (Proc.devRef .tc main_arg8) = W (Proc.devRef .tc main_arg8) := by
  after_results_simp
theorem h0_keep_arg9 : StableHlo.after (hostOps0 (F := Ideal)) W (Proc.devRef .tc main_arg9) = W (Proc.devRef .tc main_arg9) := by
  after_results_simp
theorem h0_keep_arg10 : StableHlo.after (hostOps0 (F := Ideal)) W (Proc.devRef .tc main_arg10) = W (Proc.devRef .tc main_arg10) := by
  after_results_simp
theorem h1_keep_arg5 : StableHlo.after (hostOps1 (F := Ideal)) W (Proc.devRef .tc main_arg5) = W (Proc.devRef .tc main_arg5) := by
  after_results_simp
theorem h1_keep_arg6 : StableHlo.after (hostOps1 (F := Ideal)) W (Proc.devRef .tc main_arg6) = W (Proc.devRef .tc main_arg6) := by
  after_results_simp
theorem h1_keep_arg7 : StableHlo.after (hostOps1 (F := Ideal)) W (Proc.devRef .tc main_arg7) = W (Proc.devRef .tc main_arg7) := by
  after_results_simp
theorem h1_keep_arg8 : StableHlo.after (hostOps1 (F := Ideal)) W (Proc.devRef .tc main_arg8) = W (Proc.devRef .tc main_arg8) := by
  after_results_simp
theorem h1_keep_arg9 : StableHlo.after (hostOps1 (F := Ideal)) W (Proc.devRef .tc main_arg9) = W (Proc.devRef .tc main_arg9) := by
  after_results_simp
theorem h1_keep_arg10 : StableHlo.after (hostOps1 (F := Ideal)) W (Proc.devRef .tc main_arg10) = W (Proc.devRef .tc main_arg10) := by
  after_results_simp
theorem h1_keep_v13 : StableHlo.after (hostOps1 (F := Ideal)) W (Proc.devRef .tc main_v13) = W (Proc.devRef .tc main_v13) := by
  after_results_simp
theorem h1_keep_v15 : StableHlo.after (hostOps1 (F := Ideal)) W (Proc.devRef .tc main_v15) = W (Proc.devRef .tc main_v15) := by
  after_results_simp
theorem h1_keep_v23 : StableHlo.after (hostOps1 (F := Ideal)) W (Proc.devRef .tc main_v23) = W (Proc.devRef .tc main_v23) := by
  after_results_simp
theorem h1_keep_v24 : StableHlo.after (hostOps1 (F := Ideal)) W (Proc.devRef .tc main_v24) = W (Proc.devRef .tc main_v24) := by
  after_results_simp
theorem h3_keep_arg7 : StableHlo.after (hostOps3 (F := Ideal)) W (Proc.devRef .tc main_arg7) = W (Proc.devRef .tc main_arg7) := by
  after_results_simp
theorem h3_keep_arg8 : StableHlo.after (hostOps3 (F := Ideal)) W (Proc.devRef .tc main_arg8) = W (Proc.devRef .tc main_arg8) := by
  after_results_simp
theorem h3_keep_arg9 : StableHlo.after (hostOps3 (F := Ideal)) W (Proc.devRef .tc main_arg9) = W (Proc.devRef .tc main_arg9) := by
  after_results_simp
theorem h3_keep_arg10 : StableHlo.after (hostOps3 (F := Ideal)) W (Proc.devRef .tc main_arg10) = W (Proc.devRef .tc main_arg10) := by
  after_results_simp
theorem h3_keep_v13 : StableHlo.after (hostOps3 (F := Ideal)) W (Proc.devRef .tc main_v13) = W (Proc.devRef .tc main_v13) := by
  after_results_simp
theorem h3_keep_v15 : StableHlo.after (hostOps3 (F := Ideal)) W (Proc.devRef .tc main_v15) = W (Proc.devRef .tc main_v15) := by
  after_results_simp
theorem h3_keep_v23 : StableHlo.after (hostOps3 (F := Ideal)) W (Proc.devRef .tc main_v23) = W (Proc.devRef .tc main_v23) := by
  after_results_simp
theorem h3_keep_v37 : StableHlo.after (hostOps3 (F := Ideal)) W (Proc.devRef .tc main_v37) = W (Proc.devRef .tc main_v37) := by
  after_results_simp
theorem h5_keep_arg9 : StableHlo.after (hostOps5 (F := Ideal)) W (Proc.devRef .tc main_arg9) = W (Proc.devRef .tc main_arg9) := by
  after_results_simp
theorem h5_keep_arg10 : StableHlo.after (hostOps5 (F := Ideal)) W (Proc.devRef .tc main_arg10) = W (Proc.devRef .tc main_arg10) := by
  after_results_simp
theorem h5_keep_v13 : StableHlo.after (hostOps5 (F := Ideal)) W (Proc.devRef .tc main_v13) = W (Proc.devRef .tc main_v13) := by
  after_results_simp
theorem h5_keep_v15 : StableHlo.after (hostOps5 (F := Ideal)) W (Proc.devRef .tc main_v15) = W (Proc.devRef .tc main_v15) := by
  after_results_simp
theorem h5_keep_v23 : StableHlo.after (hostOps5 (F := Ideal)) W (Proc.devRef .tc main_v23) = W (Proc.devRef .tc main_v23) := by
  after_results_simp
theorem h5_keep_v50 : StableHlo.after (hostOps5 (F := Ideal)) W (Proc.devRef .tc main_v50) = W (Proc.devRef .tc main_v50) := by
  after_results_simp
theorem h7_keep_v23 : StableHlo.after (hostOps7 (F := Ideal)) W (Proc.devRef .tc main_v23) = W (Proc.devRef .tc main_v23) := by
  after_results_simp
theorem h7_keep_v63 : StableHlo.after (hostOps7 (F := Ideal)) W (Proc.devRef .tc main_v63) = W (Proc.devRef .tc main_v63) := by
  after_results_simp

end Cert.KernelIdeal.HostReads

end
-- ==== Proof.KernelNet.lean ====
/-
  The kernel program's result as a function of its eleven argument arrays.

  Four graph-convolution layers over the same messages and the same normalisation d = 1/√(in-degree + 1). Each layer
  scales the rows of (input · weights) by d, collects them along the messages, scales the collected sum by d again, adds
  the node's own pre-scaled row times d and the bias; the first three layers take the maximum with zero. The first layer's
  input is the node features.
-/
import proofs.«130063_j23605140259289_2_alg».proof.Proof.KernelHost

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem
open Cert.Gcn Cert.GraphLinear Cert.KernelIdeal.HostReads

variable (a0 : FVec Ideal S50000x9 .f32) (a1 : IVec S2x1600000 32) (a2 : FVec Ideal S3000x192 .f32)
variable (a3 : FVec Ideal S200x128 .f32) (a4 : FVec Ideal S128 .f32) (a5 : FVec Ideal S128x128 .f32) (a6 : FVec Ideal S128 .f32)
variable (a7 : FVec Ideal S128x128 .f32) (a8 : FVec Ideal S128 .f32) (a9 : FVec Ideal S128x64 .f32) (a10 : FVec Ideal S64 .f32)

/-- Layer 1's rows scaled by d. -/
def hp1 : FVec Ideal S50000x128 .f32 := scaled (N := 50000) (K := 200) (C := 128) (feats a0 a2) a3 (dcolOf a1)
/-- Layer 1's output. -/
def h1 : FVec Ideal S50000x128 .f32 :=
  combineRelu (N := 50000) (C := 128) (raw128 (hp1 a0 a1 a2 a3) (srcOf a1) (dstOf a1)) (hp1 a0 a1 a2 a3) (dcolOf a1) (brow128 a4)
def hp2 : FVec Ideal S50000x128 .f32 := scaled (N := 50000) (K := 128) (C := 128) (h1 a0 a1 a2 a3 a4) a5 (dcolOf a1)
def h2 : FVec Ideal S50000x128 .f32 :=
  combineRelu (N := 50000) (C := 128) (raw128 (hp2 a0 a1 a2 a3 a4 a5) (srcOf a1) (dstOf a1)) (hp2 a0 a1 a2 a3 a4 a5) (dcolOf a1) (brow128 a6)
def hp3 : FVec Ideal S50000x128 .f32 := scaled (N := 50000) (K := 128) (C := 128) (h2 a0 a1 a2 a3 a4 a5 a6) a7 (dcolOf a1)
def h3 : FVec Ideal S50000x128 .f32 :=
  combineRelu (N := 50000) (C := 128) (raw128 (hp3 a0 a1 a2 a3 a4 a5 a6 a7) (srcOf a1) (dstOf a1)) (hp3 a0 a1 a2 a3 a4 a5 a6 a7) (dcolOf a1) (brow128 a8)
def hp4 : FVec Ideal S50000x64 .f32 := scaled (N := 50000) (K := 128) (C := 64) (h3 a0 a1 a2 a3 a4 a5 a6 a7 a8) a9 (dcolOf a1)
/-- The network's output. -/
def out : FVec Ideal S50000x64 .f32 :=
  combineLin (N := 50000) (C := 64) (raw64 (hp4 a0 a1 a2 a3 a4 a5 a6 a7 a8 a9) (srcOf a1) (dstOf a1)) (hp4 a0 a1 a2 a3 a4 a5 a6 a7 a8 a9) (dcolOf a1) (brow64 a10)

end Cert.KernelIdeal.Net

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.RegionMM0.lean ====
/-
  The first scaled product as one function of whole arrays. The rows are cut into ten blocks of 5000; the block of
  rows 5000 t … 5000 t + 4999 of the result is computed from the same rows of the left factor and of the scaling
  column, and from the whole right factor. Entry (p, q) of the result depends on row p of the left factor, column q
  of the right factor and entry p of the column: (Σ_k X(p, k) · W(k, q)) · D(p, 0), an exact finite sum of extended
  reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear

namespace MM0

/-- The zero offsets of a whole-block load or store, in the two spellings. -/
theorem zeroOffsets : (![0, 0] : Fin 2 → Nat) = fun _ => 0 := funext fun a => by fin_cases a <;> rfl

/-- The block's arithmetic at one entry: if row `y 0` of the left block is row `i 0` of X, column `y 1` of the
    right block is column `i 1` of W and entry `y 0` of the column block is entry `i 0` of D, the block's entry at
    `y` is the scaled product's entry at `i`. -/
theorem payload_at (x0 : Vec Ideal S5000x200 .f32) (x1 : Vec Ideal S200x128 .f32) (x2 : Vec Ideal S5000x1 .f32)
    (X : Mat 50000 200) (W : Mat 200 128) (D : Mat 50000 1) (y : S5000x128.Idx) (i : S50000x128.Idx)
    (hx : ∀ k : Fin 200, x0 (ix2 (y 0) k) = X (ix2 (i 0) k))
    (hw : ∀ k : Fin 200, x1 (ix2 k (y 1)) = W (ix2 k (i 1)))
    (hd : x2 (ix2 (y 0) (0 : Fin 1)) = D (ix2 (i 0) (0 : Fin 1))) :
    k0_pay1 x0 x1 x2 y = scaled X W D i := by
  unfold k0_pay1
  have e1 := Cert.LibRowTiles.tile_prod_cast_apply (m := 5000) (M := 50000) (K := 200) (N := 128)
    dot_S5000x200_S200x128_S5000x128_1_0_0_1_n_n rfl bitsLt_bf16_f32 shapeCasts_S5000x200_S5000x200 x0 x1 X W y i hx hw
  have e2 : broadcastTo S5000x128 (shapeCast S5000x1 x2 shapeCasts_S5000x1_S5000x1) broadcasts_S5000x1_S5000x128 y
      = D (ix2 (i 0) (0 : Fin 1)) := by
    rw [shapeCast_self]
    have e := Cert.Lib.Keepdims.broadcastTo_a1_ab_apply (a := 5000) (b := 128) x2 broadcasts_S5000x1_S5000x128 (y 0) (y 1)
    exact ((congrArg (broadcastTo S5000x128 x2 broadcasts_S5000x1_S5000x128) (eq_ix2 y)).trans e).trans hd
  exact congrArg₂ (· * ·) e1 e2

variable (V : (c : Dev nD) → (b : Ref sig .tc) → Buf (Elt Ideal) ((c : Thread nD τ).loc b))

/-- The block index of each array at each of the ten points: the left factor's, the column's and the result's blocks
    move down the rows with the point; the right factor's one block is the whole array. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left factor's block at point t is rows 5000 t … 5000 t + 4999 of the array. -/
theorem left_block (c : Dev nD) (t : Fin cfg0.N) (x : S5000x200.Idx) (k : S50000x200.Idx)
    (h0 : (k 0).val = 5000 * t.val + (x 0).val) (h1 : (k 1).val = (x 1).val) :
    (iblk0 (F := Ideal) V c 0 t : Vec Ideal S5000x200 .f32) x = (V c main_v11 : S50000x200.Idx → EReal) k := by
  obtain ⟨e0, e1, -⟩ := blockIndex t
  unfold iblk0
  rw [View.read_apply]
  show V c main_v11 _ = V c main_v11 _
  congr 1
  funext a
  apply Fin.ext
  match a with
  | ⟨0, _⟩ => show win0_0.index t 0 * 5000 + 1 * (x 0).val = (k 0).val; rw [e0, h0]; omega
  | ⟨1, _⟩ => show win0_0.index t 1 * 200 + 1 * (x 1).val = (k 1).val; rw [e1, h1]; omega

/-- The right factor's block at every point is the whole array. -/
theorem right_block (c : Dev nD) (t : Fin cfg0.N) (x : S200x128.Idx) (k : S200x128.Idx)
    (h0 : (k 0).val = (x 0).val) (h1 : (k 1).val = (x 1).val) :
    (iblk0 (F := Ideal) V c 1 t : Vec Ideal S200x128 .f32) x = (V c main_arg3 : S200x128.Idx → EReal) k := by
  obtain ⟨-, -, e0, e1, -⟩ := blockIndex t
  unfold iblk0
  rw [View.read_apply]
  show V c main_arg3 _ = V c main_arg3 _
  congr 1
  funext a
  apply Fin.ext
  match a with
  | ⟨0, _⟩ => show win0_1.index t 0 * 200 + 1 * (x 0).val = (k 0).val; rw [e0, h0]; omega
  | ⟨1, _⟩ => show win0_1.index t 1 * 128 + 1 * (x 1).val = (k 1).val; rw [e1, h1]; omega

/-- The column's block at point t is entries 5000 t … 5000 t + 4999 of the column. -/
theorem column_block (c : Dev nD) (t : Fin cfg0.N) (x : S5000x1.Idx) (k : S50000x1.Idx)
    (h0 : (k 0).val = 5000 * t.val + (x 0).val) (h1 : (k 1).val = (x 1).val) :
    (iblk0 (F := Ideal) V c 2 t : Vec Ideal S5000x1 .f32) x = (V c main_v23 : S50000x1.Idx → EReal) k := by
  obtain ⟨-, -, -, -, e0, e1, -⟩ := blockIndex t
  unfold iblk0
  rw [View.read_apply]
  show V c main_v23 _ = V c main_v23 _
  congr 1
  funext a
  apply Fin.ext
  match a with
  | ⟨0, _⟩ => show win0_2.index t 0 * 5000 + 1 * (x 0).val = (k 0).val; rw [e0, h0]; omega
  | ⟨1, _⟩ => show win0_2.index t 1 * 1 + 1 * (x 1).val = (k 1).val; rw [e1, h1]; omega

/-- What point t writes back is block t of the scaled product of the arrays as the region finds them. -/
theorem flushed_eq (c : Dev nD) (t : Fin cfg0.N) :
    (dat0 (F := Ideal) V c).flushed 3 t = ((cfg0.win 3).blk t).view.read (Elt Ideal)
      (scaled (N := 50000) (K := 200) (C := 128) (V c main_v11) (V c main_arg3) (V c main_v23)) := by
  show (cfg0.win 3).cut (grid0.coords t) ((dat0 V c).after 3 t) = _
  rw [after0_3]
  unfold out0_3
  rw [View.canon_unit_zero zeroOffsets]
  simp only [View.ld_unit_zero (S := S5000x200) zeroOffsets, View.ld_unit_zero (S := S200x128) zeroOffsets,
    View.ld_unit_zero (S := S5000x1) zeroOffsets]
  obtain ⟨-, -, -, -, -, -, e0, e1⟩ := blockIndex t
  funext y
  show k0_pay1 (iblk0 V c 0 t) (iblk0 V c 1 t) (iblk0 V c 2 t) y
    = scaled (N := 50000) (K := 200) (C := 128) (V c main_v11) (V c main_arg3) (V c main_v23) (((cfg0.win 3).blk t).view.emb y)
  have hy0 : ((((cfg0.win 3).blk t).view.emb y) 0).val = 5000 * t.val + (y 0).val := by
    show win0_3.index t 0 * 5000 + 1 * (y 0).val = _
    rw [e0]; omega
  have hy1 : ((((cfg0.win 3).blk t).view.emb y) 1).val = (y 1).val := by
    show win0_3.index t 1 * 128 + 1 * (y 1).val = _
    rw [e1]; omega
  refine payload_at _ _ _ _ _ _ y _ (fun k => ?_) (fun k => ?_) ?_
  · exact left_block V c t _ _ hy0 rfl
  · exact right_block V c t _ _ rfl hy1
  · exact column_block V c t _ _ hy0 rfl

/-- An index of the result is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v24).slice (win0_3.rect t)).set ↔ _
  rw [View.set_slice_whole, Rect.mem_set_unit]
  exact Iff.rfl

/-- Row r of the result lies in the block of point r / 5000, which is written back. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, e0, e1⟩ := blockIndex t
  refine ⟨t, flush0_3 t, ?_⟩
  rw [mem_block]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 128 ≤ (i 1).val ∧ (i 1).val < win0_3.index t 1 * 128 + 128
    rw [e1]; omega

end MM0

/-- The result array after the ten points is the scaled product of the arrays as the region finds them. -/
theorem final0 (V : (c : Dev nD) → (b : Ref sig .tc) → Buf (Elt Ideal) ((c : Thread nD τ).loc b)) (c : Dev nD) :
    (dat0 (F := Ideal) V c).arrAt 3 cfg0.N
      = scaled (N := 50000) (K := 200) (C := 128) (V c main_v11) (V c main_arg3) (V c main_v23) :=
  (dat0 (F := Ideal) V c).arrAt_eq_of_cover 3 _ (fun t _ => MM0.flushed_eq V c t) MM0.cover

end Cert.KernelIdeal.Regions

end
-- ==== Proof.RegionComb1.lean ====
/-
  A combining step as one function of whole arrays. The rows are cut into ten blocks of 5000; the block of rows
  5000 t … 5000 t + 4999 of the result is computed from the same rows of the collected sums, of the scaled product and
  of the scaling column, and from the whole bias row. Entry (p, q) of the result depends on entry (p, q) of the
  collected sums and of the scaled product, entry p of the column and entry q of the bias row:
  max (d(p, 0) · raw(p, q) + hp(p, q) · d(p, 0) + b(0, q)) 0 on the extended reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGcnLayer
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear Cert.Gcn

namespace Comb1

/-- The zero offsets of a whole-block load or store, in the two spellings. -/
theorem zeroOffsets : (![0, 0] : Fin 2 → Nat) = fun _ => 0 := funext fun a => by fin_cases a <;> rfl

/-- A column block laid along the columns of the tile, read at an entry, is the column's entry of that row. -/
theorem column_at (v : Vec Ideal S5000x1 .f32) (d : Mat 50000 1) (y : S5000x128.Idx) (i : S50000x128.Idx)
    (h : v (ix2 (y 0) (0 : Fin 1)) = d (ix2 (i 0) (0 : Fin 1))) :
    broadcastTo S5000x128 (shapeCast S5000x1 v shapeCasts_S5000x1_S5000x1) broadcasts_S5000x1_S5000x128 y
      = d (ix2 (i 0) (0 : Fin 1)) := by
  rw [shapeCast_self]
  have e := Cert.Lib.Keepdims.broadcastTo_a1_ab_apply (a := 5000) (b := 128) v broadcasts_S5000x1_S5000x128 (y 0) (y 1)
  exact ((congrArg (broadcastTo S5000x128 v broadcasts_S5000x1_S5000x128) (eq_ix2 y)).trans e).trans h

/-- The block's arithmetic at one entry: if the entries at `y` of the two row blocks are the entries at `i` of the whole
    arrays, entry `y 0` of the column block is entry `i 0` of the column and entry `y 1` of the bias row is entry `i 1`,
    the block's entry at `y` is the combined entry at `i`. -/
theorem payload_at (v0 : Vec Ideal S5000x1 .f32) (v2 v6 : Vec Ideal S5000x128 .f32) (v8 : Vec Ideal S5000x1 .f32)
    (v13 : Vec Ideal S1x128 .f32) (raw hp : Mat 50000 128) (d : Mat 50000 1) (b : Mat 1 128)
    (y : S5000x128.Idx) (i : S50000x128.Idx)
    (h0 : v0 (ix2 (y 0) (0 : Fin 1)) = d (ix2 (i 0) (0 : Fin 1))) (h2 : v2 y = raw i) (h6 : v6 y = hp i)
    (h8 : v8 (ix2 (y 0) (0 : Fin 1)) = d (ix2 (i 0) (0 : Fin 1)))
    (h13 : v13 (ix2 (0 : Fin 1) (y 1)) = b (ix2 (0 : Fin 1) (i 1))) :
    k1_pay1 v0 v2 v6 v8 v13 y = combineRelu raw hp d b i := by
  unfold k1_pay1
  have c0 := column_at v0 d y i h0
  have c8 := column_at v8 d y i h8
  have s2 : shapeCast S5000x128 v2 shapeCasts_S5000x128_S5000x128 y = raw i := by rw [shapeCast_self]; exact h2
  have s6 : shapeCast S5000x128 v6 shapeCasts_S5000x128_S5000x128 y = hp i := by rw [shapeCast_self]; exact h6
  have r13 : broadcastTo S5000x128 (shapeCast S1x128 v13 shapeCasts_S1x128_S1x128) broadcasts_S1x128_S5000x128 y
      = b (ix2 (0 : Fin 1) (i 1)) := by
    rw [shapeCast_self]
    exact (Cert.LibRowTiles.broadcastTo_oneRow_at v13 broadcasts_S1x128_S5000x128 y).trans h13
  exact congrArg₂ max (congrArg₂ (· + ·) (congrArg₂ (· + ·) (congrArg₂ (· * ·) c0 s2) (congrArg₂ (· * ·) s6 c8)) r13)
    Ideal.ofBits_zero_f32

variable (V : (c : Dev nD) → (b : Ref sig .tc) → Buf (Elt Ideal) ((c : Thread nD τ).loc b))

/-- The block index of each array at each of the ten points: the two row arrays', the column's and the result's blocks
    move down the rows with the point; the bias row's one block is the whole row. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The collected sums' block at point t is rows 5000 t … 5000 t + 4999 of the array. -/
theorem raw_block (c : Dev nD) (t : Fin cfg1.N) (x : S5000x128.Idx) (k : S50000x128.Idx)
    (h0 : (k 0).val = 5000 * t.val + (x 0).val) (h1 : (k 1).val = (x 1).val) :
    (iblk1 (F := Ideal) V c 0 t : Vec Ideal S5000x128 .f32) x = (V c main_v34 : S50000x128.Idx → EReal) k := by
  obtain ⟨e0, e1, -⟩ := blockIndex t
  unfold iblk1
  rw [View.read_apply]
  show V c main_v34 _ = V c main_v34 _
  congr 1
  funext a
  apply Fin.ext
  match a with
  | ⟨0, _⟩ => show win1_0.index t 0 * 5000 + 1 * (x 0).val = (k 0).val; rw [e0, h0]; omega
  | ⟨1, _⟩ => show win1_0.index t 1 * 128 + 1 * (x 1).val = (k 1).val; rw [e1, h1]; omega

/-- The scaled product's block at point t is rows 5000 t … 5000 t + 4999 of the array. -/
theorem hp_block (c : Dev nD) (t : Fin cfg1.N) (x : S5000x128.Idx) (k : S50000x128.Idx)
    (h0 : (k 0).val = 5000 * t.val + (x 0).val) (h1 : (k 1).val = (x 1).val) :
    (iblk1 (F := Ideal) V c 1 t : Vec Ideal S5000x128 .f32) x = (V c main_v24 : S50000x128.Idx → EReal) k := by
  obtain ⟨-, -, e0, e1, -⟩ := blockIndex t
  unfold iblk1
  rw [View.read_apply]
  show V c main_v24 _ = V c main_v24 _
  congr 1
  funext a
  apply Fin.ext
  match a with
  | ⟨0, _⟩ => show win1_1.index t 0 * 5000 + 1 * (x 0).val = (k 0).val; rw [e0, h0]; omega
  | ⟨1, _⟩ => show win1_1.index t 1 * 128 + 1 * (x 1).val = (k 1).val; rw [e1, h1]; omega

/-- The column's block at point t is entries 5000 t … 5000 t + 4999 of the column. -/
theorem column_block (c : Dev nD) (t : Fin cfg1.N) (x : S5000x1.Idx) (k : S50000x1.Idx)
    (h0 : (k 0).val = 5000 * t.val + (x 0).val) (h1 : (k 1).val = (x 1).val) :
    (iblk1 (F := Ideal) V c 2 t : Vec Ideal S5000x1 .f32) x = (V c main_v23 : S50000x1.Idx → EReal) k := by
  obtain ⟨-, -, -, -, e0, e1, -⟩ := blockIndex t
  unfold iblk1
  rw [View.read_apply]
  show V c main_v23 _ = V c main_v23 _
  congr 1
  funext a
  apply Fin.ext
  match a with
  | ⟨0, _⟩ => show win1_2.index t 0 * 5000 + 1 * (x 0).val = (k 0).val; rw [e0, h0]; omega
  | ⟨1, _⟩ => show win1_2.index t 1 * 1 + 1 * (x 1).val = (k 1).val; rw [e1, h1]; omega

/-- The bias row's block at every point is the whole row. -/
theorem bias_block (c : Dev nD) (t : Fin cfg1.N) (x : S1x128.Idx) (k : S1x128.Idx)
    (h0 : (k 0).val = (x 0).val) (h1 : (k 1).val = (x 1).val) :
    (iblk1 (F := Ideal) V c 3 t : Vec Ideal S1x128 .f32) x = (V c main_v35 : S1x128.Idx → EReal) k := by
  obtain ⟨-, -, -, -, -, -, e0, e1, -⟩ := blockIndex t
  unfold iblk1
  rw [View.read_apply]
  show V c main_v35 _ = V c main_v35 _
  congr 1
  funext a
  apply Fin.ext
  match a with
  | ⟨0, _⟩ => show win1_3.index t 0 * 1 + 1 * (x 0).val = (k 0).val; rw [e0, h0]; omega
  | ⟨1, _⟩ => show win1_3.index t 1 * 128 + 1 * (x 1).val = (k 1).val; rw [e1, h1]; omega

/-- What point t writes back is block t of the combined array of the arrays as the region finds them. -/
theorem flushed_eq (c : Dev nD) (t : Fin cfg1.N) :
    (dat1 (F := Ideal) V c).flushed 4 t = ((cfg1.win 4).blk t).view.read (Elt Ideal)
      (combineRelu (N := 50000) (C := 128) (V c main_v34) (V c main_v24) (V c main_v23) (V c main_v35)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := blockIndex t
  funext y
  show k1_pay1 (iblk1 V c 2 t) (iblk1 V c 0 t) (iblk1 V c 1 t) (iblk1 V c 2 t) (iblk1 V c 3 t) y
    = combineRelu (N := 50000) (C := 128) (V c main_v34) (V c main_v24) (V c main_v23) (V c main_v35)
        (((cfg1.win 4).blk t).view.emb y)
  have hy0 : ((((cfg1.win 4).blk t).view.emb y) 0).val = 5000 * t.val + (y 0).val := by
    show win1_4.index t 0 * 5000 + 1 * (y 0).val = _
    rw [e0]; omega
  have hy1 : ((((cfg1.win 4).blk t).view.emb y) 1).val = (y 1).val := by
    show win1_4.index t 1 * 128 + 1 * (y 1).val = _
    rw [e1]; omega
  refine payload_at _ _ _ _ _ _ _ _ _ y _ ?_ ?_ ?_ ?_ ?_
  · exact column_block V c t _ _ hy0 rfl
  · exact raw_block V c t _ _ hy0 hy1
  · exact hp_block V c t _ _ hy0 hy1
  · exact column_block V c t _ _ hy0 rfl
  · exact bias_block V c t _ _ rfl hy1

/-- An index of the result is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v36).slice (win1_4.rect t)).set ↔ _
  rw [View.set_slice_whole, Rect.mem_set_unit]
  exact Iff.rfl

/-- Row r of the result lies in the block of point r / 5000, which is written back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, -, -, -, e0, e1⟩ := blockIndex t
  refine ⟨t, flush1_4 t, ?_⟩
  rw [mem_block]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 128 ≤ (i 1).val ∧ (i 1).val < win1_4.index t 1 * 128 + 128
    rw [e1]; omega

end Comb1

/-- The result array after the ten points is the combined array of the arrays as the region finds them. -/
theorem final1 (V : (c : Dev nD) → (b : Ref sig .tc) → Buf (Elt Ideal) ((c : Thread nD τ).loc b)) (c : Dev nD) :
    (dat1 (F := Ideal) V c).arrAt 4 cfg1.N
      = combineRelu (N := 50000) (C := 128) (V c main_v34) (V c main_v24) (V c main_v23) (V c main_v35) :=
  (dat1 (F := Ideal) V c).arrAt_eq_of_cover 4 _ (fun t _ => Comb1.flushed_eq V c t) Comb1.cover

end Cert.KernelIdeal.Regions

end
-- ==== Proof.RegionMM2.lean ====
/-
  The second scaled product as one function of whole arrays. The rows are cut into ten blocks of 5000; the block of
  rows 5000 t … 5000 t + 4999 of the result is computed from the same rows of the left factor and of the scaling
  column, and from the whole right factor. Entry (p, q) of the result depends on row p of the left factor, column q
  of the right factor and entry p of the column: (Σ_k X(p, k) · W(k, q)) · D(p, 0), an exact finite sum of extended
  reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear

namespace MM2

/-- The zero offsets of a whole-block load or store, in the two spellings. -/
theorem zeroOffsets : (![0, 0] : Fin 2 → Nat) = fun _ => 0 := funext fun a => by fin_cases a <;> rfl

/-- The block's arithmetic at one entry: if row `y 0` of the left block is row `i 0` of X, column `y 1` of the
    right block is column `i 1` of W and entry `y 0` of the column block is entry `i 0` of D, the block's entry at
    `y` is the scaled product's entry at `i`. -/
theorem payload_at (x0 : Vec Ideal S5000x128 .f32) (x1 : Vec Ideal S128x128 .f32) (x2 : Vec Ideal S5000x1 .f32)
    (X : Mat 50000 128) (W : Mat 128 128) (D : Mat 50000 1) (y : S5000x128.Idx) (i : S50000x128.Idx)
    (hx : ∀ k : Fin 128, x0 (ix2 (y 0) k) = X (ix2 (i 0) k))
    (hw : ∀ k : Fin 128, x1 (ix2 k (y 1)) = W (ix2 k (i 1)))
    (hd : x2 (ix2 (y 0) (0 : Fin 1)) = D (ix2 (i 0) (0 : Fin 1))) :
    k2_pay1 x0 x1 x2 y = scaled X W D i := by
  unfold k2_pay1
  have e1 := Cert.LibRowTiles.tile_prod_cast_apply (m := 5000) (M := 50000) (K := 128) (N := 128)
    dot_S5000x128_S128x128_S5000x128_1_0_0_1_n_n rfl bitsLt_bf16_f32 shapeCasts_S5000x128_S5000x128 x0 x1 X W y i hx hw
  have e2 : broadcastTo S5000x128 (shapeCast S5000x1 x2 shapeCasts_S5000x1_S5000x1) broadcasts_S5000x1_S5000x128 y
      = D (ix2 (i 0) (0 : Fin 1)) := by
    rw [shapeCast_self]
    have e := Cert.Lib.Keepdims.broadcastTo_a1_ab_apply (a := 5000) (b := 128) x2 broadcasts_S5000x1_S5000x128 (y 0) (y 1)
    exact ((congrArg (broadcastTo S5000x128 x2 broadcasts_S5000x1_S5000x128) (eq_ix2 y)).trans e).trans hd
  exact congrArg₂ (· * ·) e1 e2

variable (V : (c : Dev nD) → (b : Ref sig .tc) → Buf (Elt Ideal) ((c : Thread nD τ).loc b))

/-- The block index of each array at each of the ten points: the left factor's, the column's and the result's blocks
    move down the rows with the point; the right factor's one block is the whole array. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The left factor's block at point t is rows 5000 t … 5000 t + 4999 of the array. -/
theorem left_block (c : Dev nD) (t : Fin cfg2.N) (x : S5000x128.Idx) (k : S50000x128.Idx)
    (h0 : (k 0).val = 5000 * t.val + (x 0).val) (h1 : (k 1).val = (x 1).val) :
    (iblk2 (F := Ideal) V c 0 t : Vec Ideal S5000x128 .f32) x = (V c main_v36 : S50000x128.Idx → EReal) k := by
  obtain ⟨e0, e1, -⟩ := blockIndex t
  unfold iblk2
  rw [View.read_apply]
  show V c main_v36 _ = V c main_v36 _
  congr 1
  funext a
  apply Fin.ext
  match a with
  | ⟨0, _⟩ => show win2_0.index t 0 * 5000 + 1 * (x 0).val = (k 0).val; rw [e0, h0]; omega
  | ⟨1, _⟩ => show win2_0.index t 1 * 128 + 1 * (x 1).val = (k 1).val; rw [e1, h1]; omega

/-- The right factor's block at every point is the whole array. -/
theorem right_block (c : Dev nD) (t : Fin cfg2.N) (x : S128x128.Idx) (k : S128x128.Idx)
    (h0 : (k 0).val = (x 0).val) (h1 : (k 1).val = (x 1).val) :
    (iblk2 (F := Ideal) V c 1 t : Vec Ideal S128x128 .f32) x = (V c main_arg5 : S128x128.Idx → EReal) k := by
  obtain ⟨-, -, e0, e1, -⟩ := blockIndex t
  unfold iblk2
  rw [View.read_apply]
  show V c main_arg5 _ = V c main_arg5 _
  congr 1
  funext a
  apply Fin.ext
  match a with
  | ⟨0, _⟩ => show win2_1.index t 0 * 128 + 1 * (x 0).val = (k 0).val; rw [e0, h0]; omega
  | ⟨1, _⟩ => show win2_1.index t 1 * 128 + 1 * (x 1).val = (k 1).val; rw [e1, h1]; omega

/-- The column's block at point t is entries 5000 t … 5000 t + 4999 of the column. -/
theorem column_block (c : Dev nD) (t : Fin cfg2.N) (x : S5000x1.Idx) (k : S50000x1.Idx)
    (h0 : (k 0).val = 5000 * t.val + (x 0).val) (h1 : (k 1).val = (x 1).val) :
    (iblk2 (F := Ideal) V c 2 t : Vec Ideal S5000x1 .f32) x = (V c main_v23 : S50000x1.Idx → EReal) k := by
  obtain ⟨-, -, -, -, e0, e1, -⟩ := blockIndex t
  unfold iblk2
  rw [View.read_apply]
  show V c main_v23 _ = V c main_v23 _
  congr 1
  funext a
  apply Fin.ext
  match a with
  | ⟨0, _⟩ => show win2_2.index t 0 * 5000 + 1 * (x 0).val = (k 0).val; rw [e0, h0]; omega
  | ⟨1, _⟩ => show win2_2.index t 1 * 1 + 1 * (x 1).val = (k 1).val; rw [e1, h1]; omega

/-- What point t writes back is block t of the scaled product of the arrays as the region finds them. -/
theorem flushed_eq (c : Dev nD) (t : Fin cfg2.N) :
    (dat2 (F := Ideal) V c).flushed 3 t = ((cfg2.win 3).blk t).view.read (Elt Ideal)
      (scaled (N := 50000) (K := 128) (C := 128) (V c main_v36) (V c main_arg5) (V c main_v23)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S128x128) zeroOffsets,
    View.ld_unit_zero (S := S5000x1) zeroOffsets]
  obtain ⟨-, -, -, -, -, -, e0, e1⟩ := blockIndex t
  funext y
  show k2_pay1 (iblk2 V c 0 t) (iblk2 V c 1 t) (iblk2 V c 2 t) y
    = scaled (N := 50000) (K := 128) (C := 128) (V c main_v36) (V c main_arg5) (V c main_v23) (((cfg2.win 3).blk t).view.emb y)
  have hy0 : ((((cfg2.win 3).blk t).view.emb y) 0).val = 5000 * t.val + (y 0).val := by
    show win2_3.index t 0 * 5000 + 1 * (y 0).val = _
    rw [e0]; omega
  have hy1 : ((((cfg2.win 3).blk t).view.emb y) 1).val = (y 1).val := by
    show win2_3.index t 1 * 128 + 1 * (y 1).val = _
    rw [e1]; omega
  refine payload_at _ _ _ _ _ _ y _ (fun k => ?_) (fun k => ?_) ?_
  · exact left_block V c t _ _ hy0 rfl
  · exact right_block V c t _ _ rfl hy1
  · exact column_block V c t _ _ hy0 rfl

/-- An index of the result is in point t's block iff each coordinate is in the block's range on its axis. -/
theorem mem_block (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v37).slice (win2_3.rect t)).set ↔ _
  rw [View.set_slice_whole, Rect.mem_set_unit]
  exact Iff.rfl

/-- Row r of the result lies in the block of point r / 5000, which is written back. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, -, -, e0, e1⟩ := blockIndex t
  refine ⟨t, flush2_3 t, ?_⟩
  rw [mem_block]
  intro a
  match a with
  | ⟨0, _⟩ =>
    show win2_3.index t 0 * 5000 ≤ (i 0).val ∧ (i 0).val < win2_3.index t 0 * 5000 + 5000
    rw [e0, ht]; omega
  | ⟨1, _⟩ =>
    show win2_3.index t 1 * 128 ≤ (i 1).val ∧ (i 1).val < win2_3.index t 1 * 128 + 128
    rw [e1]; omega

end MM2

/-- The result array after the ten points is the scaled product of the arrays as the region finds them. -/
theorem final2 (V : (c : Dev nD) → (b : Ref sig .tc) → Buf (Elt Ideal) ((c : Thread nD τ).loc b)) (c : Dev nD) :
    (dat2 (F := Ideal) V c).arrAt 3 cfg2.N
      = scaled (N := 50000) (K := 128) (C := 128) (V c main_v36) (V c main_arg5) (V c main_v23) :=
  (dat2 (F := Ideal) V c).arrAt_eq_of_cover 3 _ (fun t _ => MM2.flushed_eq V c t) MM2.cover

end Cert.KernelIdeal.Regions

end
-- ==== Proof.RegionComb3.lean ====
/-
  A combining step as one function of whole arrays. The rows are cut into ten blocks of 5000; the block of rows
  5000 t … 5000 t + 4999 of the result is computed from the same rows of the collected sums, of the scaled product and
  of the scaling column, and from the whole bias row. Entry (p, q) of the result depends on entry (p, q) of the
  collected sums and of the scaled product, entry p of the column and entry q of the bias row:
  max (d(p, 0) · raw(p, q) + hp(p, q) · d(p, 0) + b(0, q)) 0 on the extended reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGcnLayer
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear Cert.Gcn

namespace Comb3

/-- The zero offsets of a whole-block load or store, in the two spellings. -/
theorem zeroOffsets : (![0, 0] : Fin 2 → Nat) = fun _ => 0 := funext fun a => by fin_cases a <;> rfl

/-- A column block laid along the columns of the tile, read at an entry, is the column's entry of that row. -/
theorem column_at (v : Vec Ideal S5000x1 .f32) (d : Mat 50000 1) (y : S5000x128.Idx) (i : S50000x128.Idx)
    (h : v (ix2 (y 0) (0 : Fin 1)) = d (ix2 (i 0) (0 : Fin 1))) :
    broadcastTo S5000x128 (shapeCast S5000x1 v shapeCasts_S5000x1_S5000x1) broadcasts_S5000x1_S5000x128 y
      = d (ix2 (i 0) (0 : Fin 1)) := by
  rw [shapeCast_self]
  have e := Cert.Lib.Keepdims.broadcastTo_a1_ab_apply (a := 5000) (b := 128) v broadcasts_S5000x1_S5000x128 (y 0) (y 1)
  exact ((congrArg (broadcastTo S5000x128 v broadcasts_S5000x1_S5000x128) (eq_ix2 y)).trans e).trans h

/-- The block's arithmetic at one entry: if the entries at `y` of the two row blocks are the entries at `i` of the whole
    arrays, entry `y 0` of the column block is entry `i 0` of the column and entry `y 1` of the bias row is entry `i 1`,
    the block's entry at `y` is the combined entry at `i`. -/
theorem payload_at (v0 : Vec Ideal S5000x1 .f32) (v2 v6 : Vec Ideal S5000x128 .f32) (v8 : Vec Ideal S5000x1 .f32)
    (v13 : Vec Ideal S1x128 .f32) (raw hp : Mat 50000 128) (d : Mat 50000 1) (b : Mat 1 128)
    (y : S5000x128.Idx) (i : S50000x128.Idx)
    (h0 : v0 (ix2 (y 0) (0 : Fin 1)) = d (ix2 (i 0) (0 : Fin 1))) (h2 : v2 y = raw i) (h6 : v6 y = hp i)
    (h8 : v8 (ix2 (y 0) (0 : Fin 1)) = d (ix2 (i 0) (0 : Fin 1)))
    (h13 : v13 (ix2 (0 : Fin 1) (y 1)) = b (ix2 (0 : Fin 1) (i 1))) :
    k3_pay1 v0 v2 v6 v8 v13 y = combineRelu raw hp d b i := by
  unfold k3_pay1
  have c0 := column_at v0 d y i h0
  have c8 := column_at v8 d y i h8
  have s2 : shapeCast S5000x128 v2 shapeCasts_S5000x128_S5000x128 y = raw i := by rw [shapeCast_self]; exact h2
  have s6 : shapeCast S5000x128 v6 shapeCasts_S5000x128_S5000x128 y = hp i := by rw [shapeCast_self]; exact h6
  have r13 : broadcastTo S5000x128 (shapeCast S1x128 v13 shapeCasts_S1x128_S1x128) broadcasts_S1x128_S5000x128 y
      = b (ix2 (0 : Fin 1) (i 1)) := by
    rw [shapeCast_self]
    exact (Cert.LibRowTiles.broadcastTo_oneRow_at v13 broadcasts_S1x128_S5000x128 y).trans h13
  exact congrArg₂ max (congrArg₂ (· + ·) (congrArg₂ (· + ·) (congrArg₂ (· * ·) c0 s2) (congrArg₂ (· * ·) s6 c8)) r13)
    Ideal.ofBits_zero_f32

variable (V : (c : Dev nD) → (b : Ref sig .tc) → Buf (Elt Ideal) ((c : Thread nD τ).loc b))

/-- The block index of each array at each of the ten points: the two row arrays', the column's and the result's blocks
    move down the rows with the point; the bias row's one block is the whole row. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The collected sums' block at point t is rows 5000 t … 5000 t + 4999 of the array. -/
theorem raw_block (c : Dev nD) (t : Fin cfg3.N) (x : S5000x128.Idx) (k : S50000x128.Idx)
    (h0 : (k 0).val = 5000 * t.val + (x 0).val) (h1 : (k 1).val = (x 1).val) :
    (iblk3 (F := Ideal) V c 0 t : Vec Ideal S5000x128 .f32) x = (V c main_v47 : S50000x128.Idx → EReal) k := by
  obtain ⟨e0, e1, -⟩ := blockIndex t
  unfold iblk3
  rw [View.read_apply]
  show V c main_v47 _ = V c main_v47 _
  congr 1
  funext a
  apply Fin.ext
  match a with
  | ⟨0, _⟩ => show win3_0.index t 0 * 5000 + 1 * (x 0).val = (k 0).val; rw [e0, h0]; omega
  | ⟨1, _⟩ => show win3_0.index t 1 * 128 + 1 * (x 1).val = (k 1).val; rw [e1, h1]; omega

/-- The scaled product's block at point t is rows 5000 t … 5000 t + 4999 of the array. -/
theorem hp_block (c : Dev nD) (t : Fin cfg3.N) (x : S5000x128.Idx) (k : S50000x128.Idx)
    (h0 : (k 0).val = 5000 * t.val + (x 0).val) (h1 : (k 1).val = (x 1).val) :
    (iblk3 (F := Ideal) V c 1 t : Vec Ideal S5000x128 .f32) x = (V c main_v37 : S50000x128.Idx → EReal) k := by
  obtain ⟨-, -, e0, e1, -⟩ := blockIndex t
  unfold iblk3
  rw [View.read_apply]
  show V c main_v37 _ = V c main_v37 _
  congr 1
  funext a
  apply Fin.ext
  match a with
  | ⟨0, _⟩ => show win3_1.index t 0 * 5000 + 1 * (x 0).val = (k 0).val; rw [e0, h0]; omega
  | ⟨1, _⟩ => show win3_1.index t 1 * 128 + 1 * (x 1).val = (k 1).val; rw [e1, h1]; omega

/-- The column's block at point t is entries 5000 t … 5000 t + 4999 of the column. -/
theorem column_block (c : Dev nD) (t : Fin cfg3.N) (x : S5000x1.Idx) (k : S50000x1.Idx)
    (h0 : (k 0).val = 5000 * t.val + (x 0).val) (h1 : (k 1).val = (x 1).val) :
    (iblk3 (F := Ideal) V c 2 t : Vec Ideal S5000x1 .f32) x = (V c main_v23 : S50000x1.Idx → EReal) k := by
  obtain ⟨-, -, -, -, e0, e1, -⟩ := blockIndex t
  unfold iblk3
  rw [View.read_apply]
  show V c main_v23 _ = V c main_v23 _
  congr 1
  funext a
  apply Fin.ext
  match a with
  | ⟨0, _⟩ => show win3_2.index t 0 * 5000 + 1 * (x 0).val = (k 0).val; rw [e0, h0]; omega
  | ⟨1, _⟩ => show win3_2.index t 1 * 1 + 1 * (x 1).val = (k 1).val; rw [e1, h1]; omega

/-- The bias row's block at every point is the whole row. -/
theorem bias_block (c : Dev nD) (t : Fin cfg3.N) (x : S1x128.Idx) (k : S1x128.Idx)
    (h0 : (k 0).val = (x 0).val) (h1 : (k 1).val = (x 1).val) :
    (iblk3 (F := Ideal) V c 3 t : Vec Ideal S1x128 .f32) x = (V c main_v48 : S1x128.Idx → EReal) k := by
  obtain ⟨-, -, -, -, -, -, e0, e1, -⟩ := blockIndex t
  unfold iblk3
  rw [View.read_apply]
  show V c main_v48 _ = V c main_v48 _
  congr 1
  funext a
  apply Fin.ext
  match a with
  | ⟨0, _⟩ => show win3_3.index t 0 * 1 + 1 * (x 0).val = (k 0).val; rw [e0, h0]; omega
  | ⟨1, _⟩ => show win3_3.index t 1 * 128 + 1 * (x 1).val = (k 1).val; rw [e1, h1]; omega

/-- What point t writes back is block t of the combined array of the arrays as the region finds them. -/
theorem flushed_eq (c : Dev nD) (t : Fin cfg3.N) :
    (dat3 (F := Ideal) V c).flushed 4 t = ((cfg3.win 4).blk t).view.read (Elt Ideal)
      (combineRelu (N := 50000) (C := 128) (V c main_v47) (V c main_v37) (V c main_v23) (V c main_v48)) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := blockIndex t
  funext y
  show k3_pay1 (iblk3 V c 2 t) (iblk3 V c 0 t) (iblk3 V c 1 t) (iblk3 V c 2 t) (iblk3 V c 3 t) y
    = combineRelu (N := 50000) (C := 128) (V c main_v47) (V c main_v37) (V c main_v23) (V c main_v48)
        (((cfg3.win 4).blk t).view.emb y)
  have hy0 : ((((cfg3.win 4).blk t).view.emb y) 0).val = 5000 * t.val + (y 0).val := by
    show win3_4.index t 0 * 5000 + 1 * (y 0).val = _
    rw [e0]; omega
  have hy1 : ((((cfg3.win 4).blk t).view.emb y) 1).val = (y 1).val := by
    show win3_4.index t 1 * 128 + 1 * (y 1).val = _
    rw [e1]; omega
  refine payload_at _ _ _ _ _ _ _ _ _ y _ ?_ ?_ ?_ ?_ ?_
  · exact column_block V c t _ _ hy0 rfl
  · exact raw_block V c t _ _ hy0 hy1
  · exact hp_block V c t _ _ hy0 hy1
  · exact column_block V c t _ _ hy0 rfl
  · exact bias_block V c t _ _ rfl hy1

/-- An index of the result is in point t's block iff each coordinate is in the block's range on its axis. -/
theorem mem_block (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v49).slice (win3_4.rect t)).set ↔ _
  rw [View.set_slice_whole, Rect.mem_set_unit]
  exact Iff.rfl

/-- Row r of the result lies in the block of point r / 5000, which is written back. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, -, -, -, -, e0, e1⟩ := blockIndex t
  refine ⟨t, flush3_4 t, ?_⟩
  rw [mem_block]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 128 ≤ (i 1).val ∧ (i 1).val < win3_4.index t 1 * 128 + 128
    rw [e1]; omega

end Comb3

/-- The result array after the ten points is the combined array of the arrays as the region finds them. -/
theorem final3 (V : (c : Dev nD) → (b : Ref sig .tc) → Buf (Elt Ideal) ((c : Thread nD τ).loc b)) (c : Dev nD) :
    (dat3 (F := Ideal) V c).arrAt 4 cfg3.N
      = combineRelu (N := 50000) (C := 128) (V c main_v47) (V c main_v37) (V c main_v23) (V c main_v48) :=
  (dat3 (F := Ideal) V c).arrAt_eq_of_cover 4 _ (fun t _ => Comb3.flushed_eq V c t) Comb3.cover

end Cert.KernelIdeal.Regions

end
-- ==== Proof.RegionMM4.lean ====
/-
  The third scaled product as one function of whole arrays. The rows are cut into ten blocks of 5000; the block of
  rows 5000 t … 5000 t + 4999 of the result is computed from the same rows of the left factor and of the scaling
  column, and from the whole right factor. Entry (p, q) of the result depends on row p of the left factor, column q
  of the right factor and entry p of the column: (Σ_k X(p, k) · W(k, q)) · D(p, 0), an exact finite sum of extended
  reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear

namespace MM4

/-- The zero offsets of a whole-block load or store, in the two spellings. -/
theorem zeroOffsets : (![0, 0] : Fin 2 → Nat) = fun _ => 0 := funext fun a => by fin_cases a <;> rfl

/-- The block's arithmetic at one entry: if row `y 0` of the left block is row `i 0` of X, column `y 1` of the
    right block is column `i 1` of W and entry `y 0` of the column block is entry `i 0` of D, the block's entry at
    `y` is the scaled product's entry at `i`. -/
theorem payload_at (x0 : Vec Ideal S5000x128 .f32) (x1 : Vec Ideal S128x128 .f32) (x2 : Vec Ideal S5000x1 .f32)
    (X : Mat 50000 128) (W : Mat 128 128) (D : Mat 50000 1) (y : S5000x128.Idx) (i : S50000x128.Idx)
    (hx : ∀ k : Fin 128, x0 (ix2 (y 0) k) = X (ix2 (i 0) k))
    (hw : ∀ k : Fin 128, x1 (ix2 k (y 1)) = W (ix2 k (i 1)))
    (hd : x2 (ix2 (y 0) (0 : Fin 1)) = D (ix2 (i 0) (0 : Fin 1))) :
    k4_pay1 x0 x1 x2 y = scaled X W D i := by
  unfold k4_pay1
  have e1 := Cert.LibRowTiles.tile_prod_cast_apply (m := 5000) (M := 50000) (K := 128) (N := 128)
    dot_S5000x128_S128x128_S5000x128_1_0_0_1_n_n rfl bitsLt_bf16_f32 shapeCasts_S5000x128_S5000x128 x0 x1 X W y i hx hw
  have e2 : broadcastTo S5000x128 (shapeCast S5000x1 x2 shapeCasts_S5000x1_S5000x1) broadcasts_S5000x1_S5000x128 y
      = D (ix2 (i 0) (0 : Fin 1)) := by
    rw [shapeCast_self]
    have e := Cert.Lib.Keepdims.broadcastTo_a1_ab_apply (a := 5000) (b := 128) x2 broadcasts_S5000x1_S5000x128 (y 0) (y 1)
    exact ((congrArg (broadcastTo S5000x128 x2 broadcasts_S5000x1_S5000x128) (eq_ix2 y)).trans e).trans hd
  exact congrArg₂ (· * ·) e1 e2

variable (V : (c : Dev nD) → (b : Ref sig .tc) → Buf (Elt Ideal) ((c : Thread nD τ).loc b))

/-- The block index of each array at each of the ten points: the left factor's, the column's and the result's blocks
    move down the rows with the point; the right factor's one block is the whole array. -/
theorem blockIndex : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The left factor's block at point t is rows 5000 t … 5000 t + 4999 of the array. -/
theorem left_block (c : Dev nD) (t : Fin cfg4.N) (x : S5000x128.Idx) (k : S50000x128.Idx)
    (h0 : (k 0).val = 5000 * t.val + (x 0).val) (h1 : (k 1).val = (x 1).val) :
    (iblk4 (F := Ideal) V c 0 t : Vec Ideal S5000x128 .f32) x = (V c main_v49 : S50000x128.Idx → EReal) k := by
  obtain ⟨e0, e1, -⟩ := blockIndex t
  unfold iblk4
  rw [View.read_apply]
  show V c main_v49 _ = V c main_v49 _
  congr 1
  funext a
  apply Fin.ext
  match a with
  | ⟨0, _⟩ => show win4_0.index t 0 * 5000 + 1 * (x 0).val = (k 0).val; rw [e0, h0]; omega
  | ⟨1, _⟩ => show win4_0.index t 1 * 128 + 1 * (x 1).val = (k 1).val; rw [e1, h1]; omega

/-- The right factor's block at every point is the whole array. -/
theorem right_block (c : Dev nD) (t : Fin cfg4.N) (x : S128x128.Idx) (k : S128x128.Idx)
    (h0 : (k 0).val = (x 0).val) (h1 : (k 1).val = (x 1).val) :
    (iblk4 (F := Ideal) V c 1 t : Vec Ideal S128x128 .f32) x = (V c main_arg7 : S128x128.Idx → EReal) k := by
  obtain ⟨-, -, e0, e1, -⟩ := blockIndex t
  unfold iblk4
  rw [View.read_apply]
  show V c main_arg7 _ = V c main_arg7 _
  congr 1
  funext a
  apply Fin.ext
  match a with
  | ⟨0, _⟩ => show win4_1.index t 0 * 128 + 1 * (x 0).val = (k 0).val; rw [e0, h0]; omega
  | ⟨1, _⟩ => show win4_1.index t 1 * 128 + 1 * (x 1).val = (k 1).val; rw [e1, h1]; omega

/-- The column's block at point t is entries 5000 t … 5000 t + 4999 of the column. -/
theorem column_block (c : Dev nD) (t : Fin cfg4.N) (x : S5000x1.Idx) (k : S50000x1.Idx)
    (h0 : (k 0).val = 5000 * t.val + (x 0).val) (h1 : (k 1).val = (x 1).val) :
    (iblk4 (F := Ideal) V c 2 t : Vec Ideal S5000x1 .f32) x = (V c main_v23 : S50000x1.Idx → EReal) k := by
  obtain ⟨-, -, -, -, e0, e1, -⟩ := blockIndex t
  unfold iblk4
  rw [View.read_apply]
  show V c main_v23 _ = V c main_v23 _
  congr 1
  funext a
  apply Fin.ext
  match a with
  | ⟨0, _⟩ => show win4_2.index t 0 * 5000 + 1 * (x 0).val = (k 0).val; rw [e0, h0]; omega
  | ⟨1, _⟩ => show win4_2.index t 1 * 1 + 1 * (x 1).val = (k 1).val; rw [e1, h1]; omega

/-- What point t writes back is block t of the scaled product of the arrays as the region finds them. -/
theorem flushed_eq (c : Dev nD) (t : Fin cfg4.N) :
    (dat4 (F := Ideal) V c).flushed 3 t = ((cfg4.win 3).blk t).view.read (Elt Ideal)
      (scaled (N := 50000) (K := 128) (C := 128) (V c main_v49) (V c main_arg7) (V c main_v23)) := by
  show (cfg4.win 3).cut (grid4.coords t) ((dat4 V c).after 3 t) = _
  rw [after4_3]
  unfold out4_3
  rw [View.canon_unit_zero zeroOffsets]
  simp only [View.ld_unit_zero (S := S5000x128) zeroOffsets, View.ld_unit_zero (S := S128x128) zeroOffsets,
    View.ld_unit_zero (S := S5000x1) zeroOffsets]
  obtain ⟨-, -, -, -, -, -, e0, e1⟩ := blockIndex t
  funext y
  show k4_pay1 (iblk4 V c 0 t) (iblk4 V c 1 t) (iblk4 V c 2 t) y
    = scaled (N := 50000) (K := 128) (C := 128) (V c main_v49) (V c main_arg7) (V c main_v23) (((cfg4.win 3).blk t).view.emb y)
  have hy0 : ((((cfg4.win 3).blk t).view.emb y) 0).val = 5000 * t.val + (y 0).val := by
    show win4_3.index t 0 * 5000 + 1 * (y 0).val = _
    rw [e0]; omega
  have hy1 : ((((cfg4.win 3).blk t).view.emb y) 1).val = (y 1).val := by
    show win4_3.index t 1 * 128 + 1 * (y 1).val = _
    rw [e1]; omega
  refine payload_at _ _ _ _ _ _ y _ (fun k => ?_) (fun k => ?_) ?_
  · exact left_block V c t _ _ hy0 rfl
  · exact right_block V c t _ _ rfl hy1
  · exact column_block V c t _ _ hy0 rfl

/-- An index of the result is in point t's block iff each coordinate is in the block's range on its axis. -/
theorem mem_block (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v50).slice (win4_3.rect t)).set ↔ _
  rw [View.set_slice_whole, Rect.mem_set_unit]
  exact Iff.rfl

/-- Row r of the result lies in the block of point r / 5000, which is written back. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 :=
    ⟨⟨(i 0).val / 5000, by show (i 0).val / 5000 < grid4.N; omega⟩, rfl⟩
  obtain ⟨-, -, -, -, -, -, e0, e1⟩ := blockIndex t
  refine ⟨t, flush4_3 t, ?_⟩
  rw [mem_block]
  intro a
  match a with
  | ⟨0, _⟩ =>
    show win4_3.index t 0 * 5000 ≤ (i 0).val ∧ (i 0).val < win4_3.index t 0 * 5000 + 5000
    rw [e0, ht]; omega
  | ⟨1, _⟩ =>
    show win4_3.index t 1 * 128 ≤ (i 1).val ∧ (i 1).val < win4_3.index t 1 * 128 + 128
    rw [e1]; omega

end MM4

/-- The result array after the ten points is the scaled product of the arrays as the region finds them. -/
theorem final4 (V : (c : Dev nD) → (b : Ref sig .tc) → Buf (Elt Ideal) ((c : Thread nD τ).loc b)) (c : Dev nD) :
    (dat4 (F := Ideal) V c).arrAt 3 cfg4.N
      = scaled (N := 50000) (K := 128) (C := 128) (V c main_v49) (V c main_arg7) (V c main_v23) :=
  (dat4 (F := Ideal) V c).arrAt_eq_of_cover 3 _ (fun t _ => MM4.flushed_eq V c t) MM4.cover

end Cert.KernelIdeal.Regions

end
-- ==== Proof.RegionComb5.lean ====
/-
  A combining step as one function of whole arrays. The rows are cut into ten blocks of 5000; the block of rows
  5000 t … 5000 t + 4999 of the result is computed from the same rows of the collected sums, of the scaled product and
  of the scaling column, and from the whole bias row. Entry (p, q) of the result depends on entry (p, q) of the
  collected sums and of the scaled product, entry p of the column and entry q of the bias row:
  max (d(p, 0) · raw(p, q) + hp(p, q) · d(p, 0) + b(0, q)) 0 on the extended reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGcnLayer
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear Cert.Gcn

namespace Comb5

/-- The zero offsets of a whole-block load or store, in the two spellings. -/
theorem zeroOffsets : (![0, 0] : Fin 2 → Nat) = fun _ => 0 := funext fun a => by fin_cases a <;> rfl

/-- A column block laid along the columns of the tile, read at an entry, is the column's entry of that row. -/
theorem column_at (v : Vec Ideal S5000x1 .f32) (d : Mat 50000 1) (y : S5000x128.Idx) (i : S50000x128.Idx)
    (h : v (ix2 (y 0) (0 : Fin 1)) = d (ix2 (i 0) (0 : Fin 1))) :
    broadcastTo S5000x128 (shapeCast S5000x1 v shapeCasts_S5000x1_S5000x1) broadcasts_S5000x1_S5000x128 y
      = d (ix2 (i 0) (0 : Fin 1)) := by
  rw [shapeCast_self]
  have e := Cert.Lib.Keepdims.broadcastTo_a1_ab_apply (a := 5000) (b := 128) v broadcasts_S5000x1_S5000x128 (y 0) (y 1)
  exact ((congrArg (broadcastTo S5000x128 v broadcasts_S5000x1_S5000x128) (eq_ix2 y)).trans e).trans h

/-- The block's arithmetic at one entry: if the entries at `y` of the two row blocks are the entries at `i` of the whole
    arrays, entry `y 0` of the column block is entry `i 0` of the column and entry `y 1` of the bias row is entry `i 1`,
    the block's entry at `y` is the combined entry at `i`. -/
theorem payload_at (v0 : Vec Ideal S5000x1 .f32) (v2 v6 : Vec Ideal S5000x128 .f32) (v8 : Vec Ideal S5000x1 .f32)
    (v13 : Vec Ideal S1x128 .f32) (raw hp : Mat 50000 128) (d : Mat 50000 1) (b : Mat 1 128)
    (y : S5000x128.Idx) (i : S50000x128.Idx)
    (h0 : v0 (ix2 (y 0) (0 : Fin 1)) = d (ix2 (i 0) (0 : Fin 1))) (h2 : v2 y = raw i) (h6 : v6 y = hp i)
    (h8 : v8 (ix2 (y 0) (0 : Fin 1)) = d (ix2 (i 0) (0 : Fin 1)))
    (h13 : v13 (ix2 (0 : Fin 1) (y 1)) = b (ix2 (0 : Fin 1) (i 1))) :
    k5_pay1 v0 v2 v6 v8 v13 y = combineRelu raw hp d b i := by
  unfold k5_pay1
  have c0 := column_at v0 d y i h0
  have c8 := column_at v8 d y i h8
  have s2 : shapeCast S5000x128 v2 shapeCasts_S5000x128_S5000x128 y = raw i := by rw [shapeCast_self]; exact h2
  have s6 : shapeCast S5000x128 v6 shapeCasts_S5000x128_S5000x128 y = hp i := by rw [shapeCast_self]; exact h6
  have r13 : broadcastTo S5000x128 (shapeCast S1x128 v13 shapeCasts_S1x128_S1x128) broadcasts_S1x128_S5000x128 y
      = b (ix2 (0 : Fin 1) (i 1)) := by
    rw [shapeCast_self]
    exact (Cert.LibRowTiles.broadcastTo_oneRow_at v13 broadcasts_S1x128_S5000x128 y).trans h13
  exact congrArg₂ max (congrArg₂ (· + ·) (congrArg₂ (· + ·) (congrArg₂ (· * ·) c0 s2) (congrArg₂ (· * ·) s6 c8)) r13)
    Ideal.ofBits_zero_f32

variable (V : (c : Dev nD) → (b : Ref sig .tc) → Buf (Elt Ideal) ((c : Thread nD τ).loc b))

/-- The block index of each array at each of the ten points: the two row arrays', the column's and the result's blocks
    move down the rows with the point; the bias row's one block is the whole row. -/
theorem blockIndex : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The collected sums' block at point t is rows 5000 t … 5000 t + 4999 of the array. -/
theorem raw_block (c : Dev nD) (t : Fin cfg5.N) (x : S5000x128.Idx) (k : S50000x128.Idx)
    (h0 : (k 0).val = 5000 * t.val + (x 0).val) (h1 : (k 1).val = (x 1).val) :
    (iblk5 (F := Ideal) V c 0 t : Vec Ideal S5000x128 .f32) x = (V c main_v60 : S50000x128.Idx → EReal) k := by
  obtain ⟨e0, e1, -⟩ := blockIndex t
  unfold iblk5
  rw [View.read_apply]
  show V c main_v60 _ = V c main_v60 _
  congr 1
  funext a
  apply Fin.ext
  match a with
  | ⟨0, _⟩ => show win5_0.index t 0 * 5000 + 1 * (x 0).val = (k 0).val; rw [e0, h0]; omega
  | ⟨1, _⟩ => show win5_0.index t 1 * 128 + 1 * (x 1).val = (k 1).val; rw [e1, h1]; omega

/-- The scaled product's block at point t is rows 5000 t … 5000 t + 4999 of the array. -/
theorem hp_block (c : Dev nD) (t : Fin cfg5.N) (x : S5000x128.Idx) (k : S50000x128.Idx)
    (h0 : (k 0).val = 5000 * t.val + (x 0).val) (h1 : (k 1).val = (x 1).val) :
    (iblk5 (F := Ideal) V c 1 t : Vec Ideal S5000x128 .f32) x = (V c main_v50 : S50000x128.Idx → EReal) k := by
  obtain ⟨-, -, e0, e1, -⟩ := blockIndex t
  unfold iblk5
  rw [View.read_apply]
  show V c main_v50 _ = V c main_v50 _
  congr 1
  funext a
  apply Fin.ext
  match a with
  | ⟨0, _⟩ => show win5_1.index t 0 * 5000 + 1 * (x 0).val = (k 0).val; rw [e0, h0]; omega
  | ⟨1, _⟩ => show win5_1.index t 1 * 128 + 1 * (x 1).val = (k 1).val; rw [e1, h1]; omega

/-- The column's block at point t is entries 5000 t … 5000 t + 4999 of the column. -/
theorem column_block (c : Dev nD) (t : Fin cfg5.N) (x : S5000x1.Idx) (k : S50000x1.Idx)
    (h0 : (k 0).val = 5000 * t.val + (x 0).val) (h1 : (k 1).val = (x 1).val) :
    (iblk5 (F := Ideal) V c 2 t : Vec Ideal S5000x1 .f32) x = (V c main_v23 : S50000x1.Idx → EReal) k := by
  obtain ⟨-, -, -, -, e0, e1, -⟩ := blockIndex t
  unfold iblk5
  rw [View.read_apply]
  show V c main_v23 _ = V c main_v23 _
  congr 1
  funext a
  apply Fin.ext
  match a with
  | ⟨0, _⟩ => show win5_2.index t 0 * 5000 + 1 * (x 0).val = (k 0).val; rw [e0, h0]; omega
  | ⟨1, _⟩ => show win5_2.index t 1 * 1 + 1 * (x 1).val = (k 1).val; rw [e1, h1]; omega

/-- The bias row's block at every point is the whole row. -/
theorem bias_block (c : Dev nD) (t : Fin cfg5.N) (x : S1x128.Idx) (k : S1x128.Idx)
    (h0 : (k 0).val = (x 0).val) (h1 : (k 1).val = (x 1).val) :
    (iblk5 (F := Ideal) V c 3 t : Vec Ideal S1x128 .f32) x = (V c main_v61 : S1x128.Idx → EReal) k := by
  obtain ⟨-, -, -, -, -, -, e0, e1, -⟩ := blockIndex t
  unfold iblk5
  rw [View.read_apply]
  show V c main_v61 _ = V c main_v61 _
  congr 1
  funext a
  apply Fin.ext
  match a with
  | ⟨0, _⟩ => show win5_3.index t 0 * 1 + 1 * (x 0).val = (k 0).val; rw [e0, h0]; omega
  | ⟨1, _⟩ => show win5_3.index t 1 * 128 + 1 * (x 1).val = (k 1).val; rw [e1, h1]; omega

/-- What point t writes back is block t of the combined array of the arrays as the region finds them. -/
theorem flushed_eq (c : Dev nD) (t : Fin cfg5.N) :
    (dat5 (F := Ideal) V c).flushed 4 t = ((cfg5.win 4).blk t).view.read (Elt Ideal)
      (combineRelu (N := 50000) (C := 128) (V c main_v60) (V c main_v50) (V c main_v23) (V c main_v61)) := by
  show (cfg5.win 4).cut (grid5.coords t) ((dat5 V c).after 4 t) = _
  rw [after5_4]
  unfold out5_4
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, -, -, e0, e1⟩ := blockIndex t
  funext y
  show k5_pay1 (iblk5 V c 2 t) (iblk5 V c 0 t) (iblk5 V c 1 t) (iblk5 V c 2 t) (iblk5 V c 3 t) y
    = combineRelu (N := 50000) (C := 128) (V c main_v60) (V c main_v50) (V c main_v23) (V c main_v61)
        (((cfg5.win 4).blk t).view.emb y)
  have hy0 : ((((cfg5.win 4).blk t).view.emb y) 0).val = 5000 * t.val + (y 0).val := by
    show win5_4.index t 0 * 5000 + 1 * (y 0).val = _
    rw [e0]; omega
  have hy1 : ((((cfg5.win 4).blk t).view.emb y) 1).val = (y 1).val := by
    show win5_4.index t 1 * 128 + 1 * (y 1).val = _
    rw [e1]; omega
  refine payload_at _ _ _ _ _ _ _ _ _ y _ ?_ ?_ ?_ ?_ ?_
  · exact column_block V c t _ _ hy0 rfl
  · exact raw_block V c t _ _ hy0 hy1
  · exact hp_block V c t _ _ hy0 hy1
  · exact column_block V c t _ _ hy0 rfl
  · exact bias_block V c t _ _ rfl hy1

/-- An index of the result is in point t's block iff each coordinate is in the block's range on its axis. -/
theorem mem_block (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v62).slice (win5_4.rect t)).set ↔ _
  rw [View.set_slice_whole, Rect.mem_set_unit]
  exact Iff.rfl

/-- Row r of the result lies in the block of point r / 5000, which is written back. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 :=
    ⟨⟨(i 0).val / 5000, by show (i 0).val / 5000 < grid5.N; omega⟩, rfl⟩
  obtain ⟨-, -, -, -, -, -, -, -, e0, e1⟩ := blockIndex t
  refine ⟨t, flush5_4 t, ?_⟩
  rw [mem_block]
  intro a
  match a with
  | ⟨0, _⟩ =>
    show win5_4.index t 0 * 5000 ≤ (i 0).val ∧ (i 0).val < win5_4.index t 0 * 5000 + 5000
    rw [e0, ht]; omega
  | ⟨1, _⟩ =>
    show win5_4.index t 1 * 128 ≤ (i 1).val ∧ (i 1).val < win5_4.index t 1 * 128 + 128
    rw [e1]; omega

end Comb5

/-- The result array after the ten points is the combined array of the arrays as the region finds them. -/
theorem final5 (V : (c : Dev nD) → (b : Ref sig .tc) → Buf (Elt Ideal) ((c : Thread nD τ).loc b)) (c : Dev nD) :
    (dat5 (F := Ideal) V c).arrAt 4 cfg5.N
      = combineRelu (N := 50000) (C := 128) (V c main_v60) (V c main_v50) (V c main_v23) (V c main_v61) :=
  (dat5 (F := Ideal) V c).arrAt_eq_of_cover 4 _ (fun t _ => Comb5.flushed_eq V c t) Comb5.cover

end Cert.KernelIdeal.Regions

end
-- ==== Proof.RegionMM6.lean ====
/-
  The fourth scaled product as one function of whole arrays. The rows are cut into ten blocks of 5000; the block of
  rows 5000 t … 5000 t + 4999 of the result is computed from the same rows of the left factor and of the scaling
  column, and from the whole right factor. Entry (p, q) of the result depends on row p of the left factor, column q
  of the right factor and entry p of the column: (Σ_k X(p, k) · W(k, q)) · D(p, 0), an exact finite sum of extended
  reals.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear

namespace MM6

/-- The zero offsets of a whole-block load or store, in the two spellings. -/
theorem zeroOffsets : (![0, 0] : Fin 2 → Nat) = fun _ => 0 := funext fun a => by fin_cases a <;> rfl

/-- The block's arithmetic at one entry: if row `y 0` of the left block is row `i 0` of X, column `y 1` of the
    right block is column `i 1` of W and entry `y 0` of the column block is entry `i 0` of D, the block's entry at
    `y` is the scaled product's entry at `i`. -/
theorem payload_at (x0 : Vec Ideal S5000x128 .f32) (x1 : Vec Ideal S128x64 .f32) (x2 : Vec Ideal S5000x1 .f32)
    (X : Mat 50000 128) (W : Mat 128 64) (D : Mat 50000 1) (y : S5000x64.Idx) (i : S50000x64.Idx)
    (hx : ∀ k : Fin 128, x0 (ix2 (y 0) k) = X (ix2 (i 0) k))
    (hw : ∀ k : Fin 128, x1 (ix2 k (y 1)) = W (ix2 k (i 1)))
    (hd : x2 (ix2 (y 0) (0 : Fin 1)) = D (ix2 (i 0) (0 : Fin 1))) :
    k6_pay1 x0 x1 x2 y = scaled X W D i := by
  unfold k6_pay1
  have e1 := Cert.LibRowTiles.tile_prod_cast_apply (m := 5000) (M := 50000) (K := 128) (N := 64)
    dot_S5000x128_S128x64_S5000x64_1_0_0_1_n_n rfl bitsLt_bf16_f32 shapeCasts_S5000x128_S5000x128 x0 x1 X W y i hx hw
  have e2 : broadcastTo S5000x64 (shapeCast S5000x1 x2 shapeCasts_S5000x1_S5000x1) broadcasts_S5000x1_S5000x64 y
      = D (ix2 (i 0) (0 : Fin 1)) := by
    rw [shapeCast_self]
    have e := Cert.Lib.Keepdims.broadcastTo_a1_ab_apply (a := 5000) (b := 64) x2 broadcasts_S5000x1_S5000x64 (y 0) (y 1)
    exact ((congrArg (broadcastTo S5000x64 x2 broadcasts_S5000x1_S5000x64) (eq_ix2 y)).trans e).trans hd
  exact congrArg₂ (· * ·) e1 e2

variable (V : (c : Dev nD) → (b : Ref sig .tc) → Buf (Elt Ideal) ((c : Thread nD τ).loc b))

/-- The block index of each array at each of the ten points: the left factor's, the column's and the result's blocks
    move down the rows with the point; the right factor's one block is the whole array. -/
theorem blockIndex : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The left factor's block at point t is rows 5000 t … 5000 t + 4999 of the array. -/
theorem left_block (c : Dev nD) (t : Fin cfg6.N) (x : S5000x128.Idx) (k : S50000x128.Idx)
    (h0 : (k 0).val = 5000 * t.val + (x 0).val) (h1 : (k 1).val = (x 1).val) :
    (iblk6 (F := Ideal) V c 0 t : Vec Ideal S5000x128 .f32) x = (V c main_v62 : S50000x128.Idx → EReal) k := by
  obtain ⟨e0, e1, -⟩ := blockIndex t
  unfold iblk6
  rw [View.read_apply]
  show V c main_v62 _ = V c main_v62 _
  congr 1
  funext a
  apply Fin.ext
  match a with
  | ⟨0, _⟩ => show win6_0.index t 0 * 5000 + 1 * (x 0).val = (k 0).val; rw [e0, h0]; omega
  | ⟨1, _⟩ => show win6_0.index t 1 * 128 + 1 * (x 1).val = (k 1).val; rw [e1, h1]; omega

/-- The right factor's block at every point is the whole array. -/
theorem right_block (c : Dev nD) (t : Fin cfg6.N) (x : S128x64.Idx) (k : S128x64.Idx)
    (h0 : (k 0).val = (x 0).val) (h1 : (k 1).val = (x 1).val) :
    (iblk6 (F := Ideal) V c 1 t : Vec Ideal S128x64 .f32) x = (V c main_arg9 : S128x64.Idx → EReal) k := by
  obtain ⟨-, -, e0, e1, -⟩ := blockIndex t
  unfold iblk6
  rw [View.read_apply]
  show V c main_arg9 _ = V c main_arg9 _
  congr 1
  funext a
  apply Fin.ext
  match a with
  | ⟨0, _⟩ => show win6_1.index t 0 * 128 + 1 * (x 0).val = (k 0).val; rw [e0, h0]; omega
  | ⟨1, _⟩ => show win6_1.index t 1 * 64 + 1 * (x 1).val = (k 1).val; rw [e1, h1]; omega

/-- The column's block at point t is entries 5000 t … 5000 t + 4999 of the column. -/
theorem column_block (c : Dev nD) (t : Fin cfg6.N) (x : S5000x1.Idx) (k : S50000x1.Idx)
    (h0 : (k 0).val = 5000 * t.val + (x 0).val) (h1 : (k 1).val = (x 1).val) :
    (iblk6 (F := Ideal) V c 2 t : Vec Ideal S5000x1 .f32) x = (V c main_v23 : S50000x1.Idx → EReal) k := by
  obtain ⟨-, -, -, -, e0, e1, -⟩ := blockIndex t
  unfold iblk6
  rw [View.read_apply]
  show V c main_v23 _ = V c main_v23 _
  congr 1
  funext a
  apply Fin.ext
  match a with
  | ⟨0, _⟩ => show win6_2.index t 0 * 5000 + 1 * (x 0).val = (k 0).val; rw [e0, h0]; omega
  | ⟨1, _⟩ => show win6_2.index t 1 * 1 + 1 * (x 1).val = (k 1).val; rw [e1, h1]; omega

/-- What point t writes back is block t of the scaled product of the arrays as the region finds them. -/
theorem flushed_eq (c : Dev nD) (t : Fin cfg6.N) :
    (dat6 (F := Ideal) V c).flushed 3 t = ((cfg6.win 3).blk t).view.read (Elt Ideal)
      (scaled (N := 50000) (K := 128) (C := 64) (V c main_v62) (V c main_arg9) (V c main_v23)) := by
  show (cfg6.win 3).cut (grid6.coords t) ((dat6 V c).after 3 t) = _
  rw [after6_3]
  unfold out6_3
  rw [View.canon_unit_zero zeroOffsets]
  simp only [View.ld_unit_zero (S := S5000x128) zeroOffsets, View.ld_unit_zero (S := S128x64) zeroOffsets,
    View.ld_unit_zero (S := S5000x1) zeroOffsets]
  obtain ⟨-, -, -, -, -, -, e0, e1⟩ := blockIndex t
  funext y
  show k6_pay1 (iblk6 V c 0 t) (iblk6 V c 1 t) (iblk6 V c 2 t) y
    = scaled (N := 50000) (K := 128) (C := 64) (V c main_v62) (V c main_arg9) (V c main_v23) (((cfg6.win 3).blk t).view.emb y)
  have hy0 : ((((cfg6.win 3).blk t).view.emb y) 0).val = 5000 * t.val + (y 0).val := by
    show win6_3.index t 0 * 5000 + 1 * (y 0).val = _
    rw [e0]; omega
  have hy1 : ((((cfg6.win 3).blk t).view.emb y) 1).val = (y 1).val := by
    show win6_3.index t 1 * 64 + 1 * (y 1).val = _
    rw [e1]; omega
  refine payload_at _ _ _ _ _ _ y _ (fun k => ?_) (fun k => ?_) ?_
  · exact left_block V c t _ _ hy0 rfl
  · exact right_block V c t _ _ rfl hy1
  · exact column_block V c t _ _ hy0 rfl

/-- An index of the result is in point t's block iff each coordinate is in the block's range on its axis. -/
theorem mem_block (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v63).slice (win6_3.rect t)).set ↔ _
  rw [View.set_slice_whole, Rect.mem_set_unit]
  exact Iff.rfl

/-- Row r of the result lies in the block of point r / 5000, which is written back. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 10 := N_6
  obtain ⟨t, ht⟩ : ∃ t : Fin cfg6.N, t.val = (i 0).val / 5000 :=
    ⟨⟨(i 0).val / 5000, by show (i 0).val / 5000 < grid6.N; omega⟩, rfl⟩
  obtain ⟨-, -, -, -, -, -, e0, e1⟩ := blockIndex t
  refine ⟨t, flush6_3 t, ?_⟩
  rw [mem_block]
  intro a
  match a with
  | ⟨0, _⟩ =>
    show win6_3.index t 0 * 5000 ≤ (i 0).val ∧ (i 0).val < win6_3.index t 0 * 5000 + 5000
    rw [e0, ht]; omega
  | ⟨1, _⟩ =>
    show win6_3.index t 1 * 64 ≤ (i 1).val ∧ (i 1).val < win6_3.index t 1 * 64 + 64
    rw [e1]; omega

end MM6

/-- The result array after the ten points is the scaled product of the arrays as the region finds them. -/
theorem final6 (V : (c : Dev nD) → (b : Ref sig .tc) → Buf (Elt Ideal) ((c : Thread nD τ).loc b)) (c : Dev nD) :
    (dat6 (F := Ideal) V c).arrAt 3 cfg6.N
      = scaled (N := 50000) (K := 128) (C := 64) (V c main_v62) (V c main_arg9) (V c main_v23) :=
  (dat6 (F := Ideal) V c).arrAt_eq_of_cover 3 _ (fun t _ => MM6.flushed_eq V c t) MM6.cover

end Cert.KernelIdeal.Regions

end
-- ==== Proof.RegionComb7.lean ====
/-
  The last combining step as one function of whole arrays. The rows are cut into ten blocks of 5000; the block of rows
  5000 t … 5000 t + 4999 of the result is computed from the same rows of the collected sums, of the scaled product and
  of the scaling column, and from the whole bias row. Entry (p, q) of the result depends on entry (p, q) of the
  collected sums and of the scaled product, entry p of the column and entry q of the bias row:
  d(p, 0) · raw(p, q) + hp(p, q) · d(p, 0) + b(0, q) on the extended reals, with no maximum.
-/
import proofs.«130063_j23605140259289_2_alg».proof.Proof.Gen.KernelIdeal.Frame
import Idealize.ShloMosaic.Lib.Pipeline.Value
import Idealize.ShloMosaic.Lib.ValueIdx
import proofs.«130063_j23605140259289_2_alg».proof.Proof.LibGcnLayer
import proofs.«130063_j23605140259289_2_alg».proof.Proof.LibGraphLayers
import proofs.«130063_j23605140259289_2_alg».proof.Proof.LibRowTiles
import proofs.«130063_j23605140259289_2_alg».proof.Proof.LibKeepdims

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)
open Cert.GraphLinear Cert.Gcn

namespace Comb7

/-- The zero offsets of a whole-block load or store, in the two spellings. -/
theorem zeroOffsets : (![0, 0] : Fin 2 → Nat) = fun _ => 0 := funext fun a => by fin_cases a <;> rfl

/-- A column block laid along the columns of the tile, read at an entry, is the column's entry of that row. -/
theorem column_at (v : Vec Ideal S5000x1 .f32) (d : Mat 50000 1) (y : S5000x64.Idx) (i : S50000x64.Idx)
    (h : v (ix2 (y 0) (0 : Fin 1)) = d (ix2 (i 0) (0 : Fin 1))) :
    broadcastTo S5000x64 (shapeCast S5000x1 v shapeCasts_S5000x1_S5000x1) broadcasts_S5000x1_S5000x64 y
      = d (ix2 (i 0) (0 : Fin 1)) := by
  rw [shapeCast_self]
  have e := Cert.Lib.Keepdims.broadcastTo_a1_ab_apply (a := 5000) (b := 64) v broadcasts_S5000x1_S5000x64 (y 0) (y 1)
  exact ((congrArg (broadcastTo S5000x64 v broadcasts_S5000x1_S5000x64) (eq_ix2 y)).trans e).trans h

/-- The block's arithmetic at one entry: if the entries at `y` of the two row blocks are the entries at `i` of the whole
    arrays, entry `y 0` of the column block is entry `i 0` of the column and entry `y 1` of the bias row is entry `i 1`,
    the block's entry at `y` is the combined entry at `i`. -/
theorem payload_at (v0 : Vec Ideal S5000x1 .f32) (v2 v6 : Vec Ideal S5000x64 .f32) (v8 : Vec Ideal S5000x1 .f32)
    (v13 : Vec Ideal S1x64 .f32) (raw hp : Mat 50000 64) (d : Mat 50000 1) (b : Mat 1 64)
    (y : S5000x64.Idx) (i : S50000x64.Idx)
    (h0 : v0 (ix2 (y 0) (0 : Fin 1)) = d (ix2 (i 0) (0 : Fin 1))) (h2 : v2 y = raw i) (h6 : v6 y = hp i)
    (h8 : v8 (ix2 (y 0) (0 : Fin 1)) = d (ix2 (i 0) (0 : Fin 1)))
    (h13 : v13 (ix2 (0 : Fin 1) (y 1)) = b (ix2 (0 : Fin 1) (i 1))) :
    k7_pay1 v0 v2 v6 v8 v13 y = combineLin raw hp d b i := by
  unfold k7_pay1
  have c0 := column_at v0 d y i h0
  have c8 := column_at v8 d y i h8
  have s2 : shapeCast S5000x64 v2 shapeCasts_S5000x64_S5000x64 y = raw i := by rw [shapeCast_self]; exact h2
  have s6 : shapeCast S5000x64 v6 shapeCasts_S5000x64_S5000x64 y = hp i := by rw [shapeCast_self]; exact h6
  have r13 : broadcastTo S5000x64 (shapeCast S1x64 v13 shapeCasts_S1x64_S1x64) broadcasts_S1x64_S5000x64 y
      = b (ix2 (0 : Fin 1) (i 1)) := by
    rw [shapeCast_self]
    exact (Cert.LibRowTiles.broadcastTo_oneRow_at v13 broadcasts_S1x64_S5000x64 y).trans h13
  exact congrArg₂ (· + ·) (congrArg₂ (· + ·) (congrArg₂ (· * ·) c0 s2) (congrArg₂ (· * ·) s6 c8)) r13

variable (V : (c : Dev nD) → (b : Ref sig .tc) → Buf (Elt Ideal) ((c : Thread nD τ).loc b))

/-- The block index of each array at each of the ten points: the two row arrays', the column's and the result's blocks
    move down the rows with the point; the bias row's one block is the whole row. -/
theorem blockIndex : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The collected sums' block at point t is rows 5000 t … 5000 t + 4999 of the array. -/
theorem raw_block (c : Dev nD) (t : Fin cfg7.N) (x : S5000x64.Idx) (k : S50000x64.Idx)
    (h0 : (k 0).val = 5000 * t.val + (x 0).val) (h1 : (k 1).val = (x 1).val) :
    (iblk7 (F := Ideal) V c 0 t : Vec Ideal S5000x64 .f32) x = (V c main_v73 : S50000x64.Idx → EReal) k := by
  obtain ⟨e0, e1, -⟩ := blockIndex t
  unfold iblk7
  rw [View.read_apply]
  show V c main_v73 _ = V c main_v73 _
  congr 1
  funext a
  apply Fin.ext
  match a with
  | ⟨0, _⟩ => show win7_0.index t 0 * 5000 + 1 * (x 0).val = (k 0).val; rw [e0, h0]; omega
  | ⟨1, _⟩ => show win7_0.index t 1 * 64 + 1 * (x 1).val = (k 1).val; rw [e1, h1]; omega

/-- The scaled product's block at point t is rows 5000 t … 5000 t + 4999 of the array. -/
theorem hp_block (c : Dev nD) (t : Fin cfg7.N) (x : S5000x64.Idx) (k : S50000x64.Idx)
    (h0 : (k 0).val = 5000 * t.val + (x 0).val) (h1 : (k 1).val = (x 1).val) :
    (iblk7 (F := Ideal) V c 1 t : Vec Ideal S5000x64 .f32) x = (V c main_v63 : S50000x64.Idx → EReal) k := by
  obtain ⟨-, -, e0, e1, -⟩ := blockIndex t
  unfold iblk7
  rw [View.read_apply]
  show V c main_v63 _ = V c main_v63 _
  congr 1
  funext a
  apply Fin.ext
  match a with
  | ⟨0, _⟩ => show win7_1.index t 0 * 5000 + 1 * (x 0).val = (k 0).val; rw [e0, h0]; omega
  | ⟨1, _⟩ => show win7_1.index t 1 * 64 + 1 * (x 1).val = (k 1).val; rw [e1, h1]; omega

/-- The column's block at point t is entries 5000 t … 5000 t + 4999 of the column. -/
theorem column_block (c : Dev nD) (t : Fin cfg7.N) (x : S5000x1.Idx) (k : S50000x1.Idx)
    (h0 : (k 0).val = 5000 * t.val + (x 0).val) (h1 : (k 1).val = (x 1).val) :
    (iblk7 (F := Ideal) V c 2 t : Vec Ideal S5000x1 .f32) x = (V c main_v23 : S50000x1.Idx → EReal) k := by
  obtain ⟨-, -, -, -, e0, e1, -⟩ := blockIndex t
  unfold iblk7
  rw [View.read_apply]
  show V c main_v23 _ = V c main_v23 _
  congr 1
  funext a
  apply Fin.ext
  match a with
  | ⟨0, _⟩ => show win7_2.index t 0 * 5000 + 1 * (x 0).val = (k 0).val; rw [e0, h0]; omega
  | ⟨1, _⟩ => show win7_2.index t 1 * 1 + 1 * (x 1).val = (k 1).val; rw [e1, h1]; omega

/-- The bias row's block at every point is the whole row. -/
theorem bias_block (c : Dev nD) (t : Fin cfg7.N) (x : S1x64.Idx) (k : S1x64.Idx)
    (h0 : (k 0).val = (x 0).val) (h1 : (k 1).val = (x 1).val) :
    (iblk7 (F := Ideal) V c 3 t : Vec Ideal S1x64 .f32) x = (V c main_v74 : S1x64.Idx → EReal) k := by
  obtain ⟨-, -, -, -, -, -, e0, e1, -⟩ := blockIndex t
  unfold iblk7
  rw [View.read_apply]
  show V c main_v74 _ = V c main_v74 _
  congr 1
  funext a
  apply Fin.ext
  match a with
  | ⟨0, _⟩ => show win7_3.index t 0 * 1 + 1 * (x 0).val = (k 0).val; rw [e0, h0]; omega
  | ⟨1, _⟩ => show win7_3.index t 1 * 64 + 1 * (x 1).val = (k 1).val; rw [e1, h1]; omega

/-- What point t writes back is block t of the combined array of the arrays as the region finds them. -/
theorem flushed_eq (c : Dev nD) (t : Fin cfg7.N) :
    (dat7 (F := Ideal) V c).flushed 4 t = ((cfg7.win 4).blk t).view.read (Elt Ideal)
      (combineLin (N := 50000) (C := 64) (V c main_v73) (V c main_v63) (V c main_v23) (V c main_v74)) := by
  show (cfg7.win 4).cut (grid7.coords t) ((dat7 V c).after 4 t) = _
  rw [after7_4]
  unfold out7_4
  rw [View.canon_unit_zero zeroOffsets]
  simp only [View.ld_unit_zero (S := S5000x64) zeroOffsets, View.ld_unit_zero (S := S5000x1) zeroOffsets,
    View.ld_unit_zero (S := S1x64) zeroOffsets]
  obtain ⟨-, -, -, -, -, -, -, -, e0, e1⟩ := blockIndex t
  funext y
  show k7_pay1 (iblk7 V c 2 t) (iblk7 V c 0 t) (iblk7 V c 1 t) (iblk7 V c 2 t) (iblk7 V c 3 t) y
    = combineLin (N := 50000) (C := 64) (V c main_v73) (V c main_v63) (V c main_v23) (V c main_v74)
        (((cfg7.win 4).blk t).view.emb y)
  have hy0 : ((((cfg7.win 4).blk t).view.emb y) 0).val = 5000 * t.val + (y 0).val := by
    show win7_4.index t 0 * 5000 + 1 * (y 0).val = _
    rw [e0]; omega
  have hy1 : ((((cfg7.win 4).blk t).view.emb y) 1).val = (y 1).val := by
    show win7_4.index t 1 * 64 + 1 * (y 1).val = _
    rw [e1]; omega
  refine payload_at _ _ _ _ _ _ _ _ _ y _ ?_ ?_ ?_ ?_ ?_
  · exact column_block V c t _ _ hy0 rfl
  · exact raw_block V c t _ _ hy0 hy1
  · exact hp_block V c t _ _ hy0 hy1
  · exact column_block V c t _ _ hy0 rfl
  · exact bias_block V c t _ _ rfl hy1

/-- An index of the result is in point t's block iff each coordinate is in the block's range on its axis. -/
theorem mem_block (t : Fin cfg7.N) (i : S50000x64.Idx) :
    i ∈ ((cfg7.win 4).blk t).view.set ↔ ∀ a : Fin 2, win7_4.index t a * S5000x64.size a ≤ (i a).val
      ∧ (i a).val < win7_4.index t a * S5000x64.size a + S5000x64.size a := by
  show i ∈ ((View.whole main_v75).slice (win7_4.rect t)).set ↔ _
  rw [View.set_slice_whole, Rect.mem_set_unit]
  exact Iff.rfl

/-- Row r of the result lies in the block of point r / 5000, which is written back. -/
theorem cover (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hN : grid7.N = 10 := N_7
  obtain ⟨t, ht⟩ : ∃ t : Fin cfg7.N, t.val = (i 0).val / 5000 :=
    ⟨⟨(i 0).val / 5000, by show (i 0).val / 5000 < grid7.N; omega⟩, rfl⟩
  obtain ⟨-, -, -, -, -, -, -, -, e0, e1⟩ := blockIndex t
  refine ⟨t, flush7_4 t, ?_⟩
  rw [mem_block]
  intro a
  match a with
  | ⟨0, _⟩ =>
    show win7_4.index t 0 * 5000 ≤ (i 0).val ∧ (i 0).val < win7_4.index t 0 * 5000 + 5000
    rw [e0, ht]; omega
  | ⟨1, _⟩ =>
    show win7_4.index t 1 * 64 ≤ (i 1).val ∧ (i 1).val < win7_4.index t 1 * 64 + 64
    rw [e1]; omega

end Comb7

/-- The result array after the ten points is the combined array of the arrays as the region finds them. -/
theorem final7 (V : (c : Dev nD) → (b : Ref sig .tc) → Buf (Elt Ideal) ((c : Thread nD τ).loc b)) (c : Dev nD) :
    (dat7 (F := Ideal) V c).arrAt 4 cfg7.N
      = combineLin (N := 50000) (C := 64) (V c main_v73) (V c main_v63) (V c main_v23) (V c main_v74) :=
  (dat7 (F := Ideal) V c).arrAt_eq_of_cover 4 _ (fun t _ => Comb7.flushed_eq V c t) Comb7.cover

end Cert.KernelIdeal.Regions

end
-- ==== Proof.KernelValue.lean ====
/-
  The idealized kernel program's buffers at its thirteen segment boundaries, as functions of the eleven argument arrays.

  A stretch of host operations writes its own results and leaves every other buffer alone; a region writes its output
  array — one whole-array function of the arrays it reads — and leaves every other buffer alone. Walking the boundaries in
  order gives every buffer a later segment reads, and at the last boundary the result buffer, in closed form.
-/
import proofs.«130063_j23605140259289_2_alg».proof.Proof.Gen.KernelIdeal.Frame
import proofs.«130063_j23605140259289_2_alg».proof.Proof.KernelHost
import proofs.«130063_j23605140259289_2_alg».proof.Proof.KernelNet
import proofs.«130063_j23605140259289_2_alg».proof.Proof.RegionMM0
import proofs.«130063_j23605140259289_2_alg».proof.Proof.RegionComb1
import proofs.«130063_j23605140259289_2_alg».proof.Proof.RegionMM2
import proofs.«130063_j23605140259289_2_alg».proof.Proof.RegionComb3
import proofs.«130063_j23605140259289_2_alg».proof.Proof.RegionMM4
import proofs.«130063_j23605140259289_2_alg».proof.Proof.RegionComb5
import proofs.«130063_j23605140259289_2_alg».proof.Proof.RegionMM6
import proofs.«130063_j23605140259289_2_alg».proof.Proof.RegionComb7

set_option maxRecDepth 16384

noncomputable section

namespace Cert.KernelIdeal.Chain

open Cert.KernelIdeal Cert.KernelIdeal.Gen Cert.KernelIdeal.HostReads Cert.KernelIdeal.Net Cert.KernelIdeal.Regions
open Idealize.ShloMosaic Idealize.ShloMosaic.TcCoe Idealize.ShloMosaic.StableHlo Idealize.ShloMosaic.ValueIdx Idealize.SL.Sem
open Cert.Gcn Cert.GraphLinear

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)

/-! ## At the launch -/

theorem w0_arg0 : W0 (F := Ideal) m ρ c (Proc.devRef .tc main_arg0) = A0 := rfl
theorem w0_arg1 : W0 (F := Ideal) m ρ c (Proc.devRef .tc main_arg1) = A1 := rfl
theorem w0_arg2 : W0 (F := Ideal) m ρ c (Proc.devRef .tc main_arg2) = A2 := rfl
theorem w0_arg3 : W0 (F := Ideal) m ρ c (Proc.devRef .tc main_arg3) = A3 := rfl
theorem w0_arg4 : W0 (F := Ideal) m ρ c (Proc.devRef .tc main_arg4) = A4 := rfl
theorem w0_arg5 : W0 (F := Ideal) m ρ c (Proc.devRef .tc main_arg5) = A5 := rfl
theorem w0_arg6 : W0 (F := Ideal) m ρ c (Proc.devRef .tc main_arg6) = A6 := rfl
theorem w0_arg7 : W0 (F := Ideal) m ρ c (Proc.devRef .tc main_arg7) = A7 := rfl
theorem w0_arg8 : W0 (F := Ideal) m ρ c (Proc.devRef .tc main_arg8) = A8 := rfl
theorem w0_arg9 : W0 (F := Ideal) m ρ c (Proc.devRef .tc main_arg9) = A9 := rfl
theorem w0_arg10 : W0 (F := Ideal) m ρ c (Proc.devRef .tc main_arg10) = A10 := rfl

/-! ## Boundary 1: after a stretch of host operations -/

theorem w1_v11 : W1 (F := Ideal) m ρ c (Proc.devRef .tc main_v11) = feats A0 A2 :=
  (h0_feats (W0 (F := Ideal) m ρ c)).trans (by rw [w0_arg0 m ρ c, w0_arg2 m ρ c])
theorem w1_v13 : W1 (F := Ideal) m ρ c (Proc.devRef .tc main_v13) = srcOf A1 :=
  (h0_src (W0 (F := Ideal) m ρ c)).trans (by rw [w0_arg1 m ρ c])
theorem w1_v15 : W1 (F := Ideal) m ρ c (Proc.devRef .tc main_v15) = dstOf A1 :=
  (h0_dst (W0 (F := Ideal) m ρ c)).trans (by rw [w0_arg1 m ρ c])
theorem w1_v23 : W1 (F := Ideal) m ρ c (Proc.devRef .tc main_v23) = dcolOf A1 :=
  (h0_dcol (W0 (F := Ideal) m ρ c)).trans (by rw [w0_arg1 m ρ c])
theorem w1_arg3 : W1 (F := Ideal) m ρ c (Proc.devRef .tc main_arg3) = A3 :=
  (h0_keep_arg3 (W0 (F := Ideal) m ρ c)).trans (w0_arg3 m ρ c)
theorem w1_arg4 : W1 (F := Ideal) m ρ c (Proc.devRef .tc main_arg4) = A4 :=
  (h0_keep_arg4 (W0 (F := Ideal) m ρ c)).trans (w0_arg4 m ρ c)
theorem w1_arg5 : W1 (F := Ideal) m ρ c (Proc.devRef .tc main_arg5) = A5 :=
  (h0_keep_arg5 (W0 (F := Ideal) m ρ c)).trans (w0_arg5 m ρ c)
theorem w1_arg6 : W1 (F := Ideal) m ρ c (Proc.devRef .tc main_arg6) = A6 :=
  (h0_keep_arg6 (W0 (F := Ideal) m ρ c)).trans (w0_arg6 m ρ c)
theorem w1_arg7 : W1 (F := Ideal) m ρ c (Proc.devRef .tc main_arg7) = A7 :=
  (h0_keep_arg7 (W0 (F := Ideal) m ρ c)).trans (w0_arg7 m ρ c)
theorem w1_arg8 : W1 (F := Ideal) m ρ c (Proc.devRef .tc main_arg8) = A8 :=
  (h0_keep_arg8 (W0 (F := Ideal) m ρ c)).trans (w0_arg8 m ρ c)
theorem w1_arg9 : W1 (F := Ideal) m ρ c (Proc.devRef .tc main_arg9) = A9 :=
  (h0_keep_arg9 (W0 (F := Ideal) m ρ c)).trans (w0_arg9 m ρ c)
theorem w1_arg10 : W1 (F := Ideal) m ρ c (Proc.devRef .tc main_arg10) = A10 :=
  (h0_keep_arg10 (W0 (F := Ideal) m ρ c)).trans (w0_arg10 m ρ c)

/-! ## Boundary 2: after region 0 -/

theorem w2_v24 : W2 (F := Ideal) m ρ c (Proc.devRef .tc main_v24) = hp1 A0 A1 A2 A3 :=
  (W2_arr m ρ c 3).trans ((final0 (V1 (F := Ideal) m ρ) c).trans (by
    show scaled (N := 50000) (K := 200) (C := 128) (W1 (F := Ideal) m ρ c (Proc.devRef .tc main_v11)) (W1 (F := Ideal) m ρ c (Proc.devRef .tc main_arg3)) (W1 (F := Ideal) m ρ c (Proc.devRef .tc main_v23)) = _
    rw [w1_v11 m ρ c, w1_arg3 m ρ c, w1_v23 m ρ c]
    rfl))
theorem w2_arg4 : W2 (F := Ideal) m ρ c (Proc.devRef .tc main_arg4) = A4 :=
  (W2_of_ne m ρ c main_arg4 (by decide)).trans (w1_arg4 m ρ c)
theorem w2_arg5 : W2 (F := Ideal) m ρ c (Proc.devRef .tc main_arg5) = A5 :=
  (W2_of_ne m ρ c main_arg5 (by decide)).trans (w1_arg5 m ρ c)
theorem w2_arg6 : W2 (F := Ideal) m ρ c (Proc.devRef .tc main_arg6) = A6 :=
  (W2_of_ne m ρ c main_arg6 (by decide)).trans (w1_arg6 m ρ c)
theorem w2_arg7 : W2 (F := Ideal) m ρ c (Proc.devRef .tc main_arg7) = A7 :=
  (W2_of_ne m ρ c main_arg7 (by decide)).trans (w1_arg7 m ρ c)
theorem w2_arg8 : W2 (F := Ideal) m ρ c (Proc.devRef .tc main_arg8) = A8 :=
  (W2_of_ne m ρ c main_arg8 (by decide)).trans (w1_arg8 m ρ c)
theorem w2_arg9 : W2 (F := Ideal) m ρ c (Proc.devRef .tc main_arg9) = A9 :=
  (W2_of_ne m ρ c main_arg9 (by decide)).trans (w1_arg9 m ρ c)
theorem w2_arg10 : W2 (F := Ideal) m ρ c (Proc.devRef .tc main_arg10) = A10 :=
  (W2_of_ne m ρ c main_arg10 (by decide)).trans (w1_arg10 m ρ c)
theorem w2_v13 : W2 (F := Ideal) m ρ c (Proc.devRef .tc main_v13) = srcOf A1 :=
  (W2_of_ne m ρ c main_v13 (by decide)).trans (w1_v13 m ρ c)
theorem w2_v15 : W2 (F := Ideal) m ρ c (Proc.devRef .tc main_v15) = dstOf A1 :=
  (W2_of_ne m ρ c main_v15 (by decide)).trans (w1_v15 m ρ c)
theorem w2_v23 : W2 (F := Ideal) m ρ c (Proc.devRef .tc main_v23) = dcolOf A1 :=
  ((W2_arr m ρ c 2).trans (((dat0 (V1 (F := Ideal) m ρ) c).arrAt_in 2 rfl _).trans (A_eq0 (V1 (F := Ideal) m ρ) c 2))).trans (w1_v23 m ρ c)

/-! ## Boundary 3: after a stretch of host operations -/

theorem w3_v34 : W3 (F := Ideal) m ρ c (Proc.devRef .tc main_v34) = raw128 (hp1 A0 A1 A2 A3) (srcOf A1) (dstOf A1) :=
  (h1_raw (W2 (F := Ideal) m ρ c)).trans (by rw [w2_v24 m ρ c, w2_v13 m ρ c, w2_v15 m ρ c])
theorem w3_v35 : W3 (F := Ideal) m ρ c (Proc.devRef .tc main_v35) = brow128 A4 :=
  (h1_bias (W2 (F := Ideal) m ρ c)).trans (by rw [w2_arg4 m ρ c])
theorem w3_arg5 : W3 (F := Ideal) m ρ c (Proc.devRef .tc main_arg5) = A5 :=
  (h1_keep_arg5 (W2 (F := Ideal) m ρ c)).trans (w2_arg5 m ρ c)
theorem w3_arg6 : W3 (F := Ideal) m ρ c (Proc.devRef .tc main_arg6) = A6 :=
  (h1_keep_arg6 (W2 (F := Ideal) m ρ c)).trans (w2_arg6 m ρ c)
theorem w3_arg7 : W3 (F := Ideal) m ρ c (Proc.devRef .tc main_arg7) = A7 :=
  (h1_keep_arg7 (W2 (F := Ideal) m ρ c)).trans (w2_arg7 m ρ c)
theorem w3_arg8 : W3 (F := Ideal) m ρ c (Proc.devRef .tc main_arg8) = A8 :=
  (h1_keep_arg8 (W2 (F := Ideal) m ρ c)).trans (w2_arg8 m ρ c)
theorem w3_arg9 : W3 (F := Ideal) m ρ c (Proc.devRef .tc main_arg9) = A9 :=
  (h1_keep_arg9 (W2 (F := Ideal) m ρ c)).trans (w2_arg9 m ρ c)
theorem w3_arg10 : W3 (F := Ideal) m ρ c (Proc.devRef .tc main_arg10) = A10 :=
  (h1_keep_arg10 (W2 (F := Ideal) m ρ c)).trans (w2_arg10 m ρ c)
theorem w3_v13 : W3 (F := Ideal) m ρ c (Proc.devRef .tc main_v13) = srcOf A1 :=
  (h1_keep_v13 (W2 (F := Ideal) m ρ c)).trans (w2_v13 m ρ c)
theorem w3_v15 : W3 (F := Ideal) m ρ c (Proc.devRef .tc main_v15) = dstOf A1 :=
  (h1_keep_v15 (W2 (F := Ideal) m ρ c)).trans (w2_v15 m ρ c)
theorem w3_v23 : W3 (F := Ideal) m ρ c (Proc.devRef .tc main_v23) = dcolOf A1 :=
  (h1_keep_v23 (W2 (F := Ideal) m ρ c)).trans (w2_v23 m ρ c)
theorem w3_v24 : W3 (F := Ideal) m ρ c (Proc.devRef .tc main_v24) = hp1 A0 A1 A2 A3 :=
  (h1_keep_v24 (W2 (F := Ideal) m ρ c)).trans (w2_v24 m ρ c)

/-! ## Boundary 4: after region 1 -/

theorem w4_v36 : W4 (F := Ideal) m ρ c (Proc.devRef .tc main_v36) = h1 A0 A1 A2 A3 A4 :=
  (W4_arr m ρ c 4).trans ((final1 (V3 (F := Ideal) m ρ) c).trans (by
    show combineRelu (N := 50000) (C := 128) (W3 (F := Ideal) m ρ c (Proc.devRef .tc main_v34)) (W3 (F := Ideal) m ρ c (Proc.devRef .tc main_v24)) (W3 (F := Ideal) m ρ c (Proc.devRef .tc main_v23)) (W3 (F := Ideal) m ρ c (Proc.devRef .tc main_v35)) = _
    rw [w3_v34 m ρ c, w3_v24 m ρ c, w3_v23 m ρ c, w3_v35 m ρ c]
    rfl))
theorem w4_arg5 : W4 (F := Ideal) m ρ c (Proc.devRef .tc main_arg5) = A5 :=
  (W4_of_ne m ρ c main_arg5 (by decide)).trans (w3_arg5 m ρ c)
theorem w4_arg6 : W4 (F := Ideal) m ρ c (Proc.devRef .tc main_arg6) = A6 :=
  (W4_of_ne m ρ c main_arg6 (by decide)).trans (w3_arg6 m ρ c)
theorem w4_arg7 : W4 (F := Ideal) m ρ c (Proc.devRef .tc main_arg7) = A7 :=
  (W4_of_ne m ρ c main_arg7 (by decide)).trans (w3_arg7 m ρ c)
theorem w4_arg8 : W4 (F := Ideal) m ρ c (Proc.devRef .tc main_arg8) = A8 :=
  (W4_of_ne m ρ c main_arg8 (by decide)).trans (w3_arg8 m ρ c)
theorem w4_arg9 : W4 (F := Ideal) m ρ c (Proc.devRef .tc main_arg9) = A9 :=
  (W4_of_ne m ρ c main_arg9 (by decide)).trans (w3_arg9 m ρ c)
theorem w4_arg10 : W4 (F := Ideal) m ρ c (Proc.devRef .tc main_arg10) = A10 :=
  (W4_of_ne m ρ c main_arg10 (by decide)).trans (w3_arg10 m ρ c)
theorem w4_v13 : W4 (F := Ideal) m ρ c (Proc.devRef .tc main_v13) = srcOf A1 :=
  (W4_of_ne m ρ c main_v13 (by decide)).trans (w3_v13 m ρ c)
theorem w4_v15 : W4 (F := Ideal) m ρ c (Proc.devRef .tc main_v15) = dstOf A1 :=
  (W4_of_ne m ρ c main_v15 (by decide)).trans (w3_v15 m ρ c)
theorem w4_v23 : W4 (F := Ideal) m ρ c (Proc.devRef .tc main_v23) = dcolOf A1 :=
  ((W4_arr m ρ c 2).trans (((dat1 (V3 (F := Ideal) m ρ) c).arrAt_in 2 rfl _).trans (A_eq1 (V3 (F := Ideal) m ρ) c 2))).trans (w3_v23 m ρ c)

/-! ## Boundary 5: after region 2 -/

theorem w5_v37 : W5 (F := Ideal) m ρ c (Proc.devRef .tc main_v37) = hp2 A0 A1 A2 A3 A4 A5 :=
  (W5_arr m ρ c 3).trans ((final2 (V4 (F := Ideal) m ρ) c).trans (by
    show scaled (N := 50000) (K := 128) (C := 128) (W4 (F := Ideal) m ρ c (Proc.devRef .tc main_v36)) (W4 (F := Ideal) m ρ c (Proc.devRef .tc main_arg5)) (W4 (F := Ideal) m ρ c (Proc.devRef .tc main_v23)) = _
    rw [w4_v36 m ρ c, w4_arg5 m ρ c, w4_v23 m ρ c]
    rfl))
theorem w5_arg6 : W5 (F := Ideal) m ρ c (Proc.devRef .tc main_arg6) = A6 :=
  (W5_of_ne m ρ c main_arg6 (by decide)).trans (w4_arg6 m ρ c)
theorem w5_arg7 : W5 (F := Ideal) m ρ c (Proc.devRef .tc main_arg7) = A7 :=
  (W5_of_ne m ρ c main_arg7 (by decide)).trans (w4_arg7 m ρ c)
theorem w5_arg8 : W5 (F := Ideal) m ρ c (Proc.devRef .tc main_arg8) = A8 :=
  (W5_of_ne m ρ c main_arg8 (by decide)).trans (w4_arg8 m ρ c)
theorem w5_arg9 : W5 (F := Ideal) m ρ c (Proc.devRef .tc main_arg9) = A9 :=
  (W5_of_ne m ρ c main_arg9 (by decide)).trans (w4_arg9 m ρ c)
theorem w5_arg10 : W5 (F := Ideal) m ρ c (Proc.devRef .tc main_arg10) = A10 :=
  (W5_of_ne m ρ c main_arg10 (by decide)).trans (w4_arg10 m ρ c)
theorem w5_v13 : W5 (F := Ideal) m ρ c (Proc.devRef .tc main_v13) = srcOf A1 :=
  (W5_of_ne m ρ c main_v13 (by decide)).trans (w4_v13 m ρ c)
theorem w5_v15 : W5 (F := Ideal) m ρ c (Proc.devRef .tc main_v15) = dstOf A1 :=
  (W5_of_ne m ρ c main_v15 (by decide)).trans (w4_v15 m ρ c)
theorem w5_v23 : W5 (F := Ideal) m ρ c (Proc.devRef .tc main_v23) = dcolOf A1 :=
  ((W5_arr m ρ c 2).trans (((dat2 (V4 (F := Ideal) m ρ) c).arrAt_in 2 rfl _).trans (A_eq2 (V4 (F := Ideal) m ρ) c 2))).trans (w4_v23 m ρ c)

/-! ## Boundary 6: after a stretch of host operations -/

theorem w6_v47 : W6 (F := Ideal) m ρ c (Proc.devRef .tc main_v47) = raw128 (hp2 A0 A1 A2 A3 A4 A5) (srcOf A1) (dstOf A1) :=
  (h3_raw (W5 (F := Ideal) m ρ c)).trans (by rw [w5_v37 m ρ c, w5_v13 m ρ c, w5_v15 m ρ c])
theorem w6_v48 : W6 (F := Ideal) m ρ c (Proc.devRef .tc main_v48) = brow128 A6 :=
  (h3_bias (W5 (F := Ideal) m ρ c)).trans (by rw [w5_arg6 m ρ c])
theorem w6_arg7 : W6 (F := Ideal) m ρ c (Proc.devRef .tc main_arg7) = A7 :=
  (h3_keep_arg7 (W5 (F := Ideal) m ρ c)).trans (w5_arg7 m ρ c)
theorem w6_arg8 : W6 (F := Ideal) m ρ c (Proc.devRef .tc main_arg8) = A8 :=
  (h3_keep_arg8 (W5 (F := Ideal) m ρ c)).trans (w5_arg8 m ρ c)
theorem w6_arg9 : W6 (F := Ideal) m ρ c (Proc.devRef .tc main_arg9) = A9 :=
  (h3_keep_arg9 (W5 (F := Ideal) m ρ c)).trans (w5_arg9 m ρ c)
theorem w6_arg10 : W6 (F := Ideal) m ρ c (Proc.devRef .tc main_arg10) = A10 :=
  (h3_keep_arg10 (W5 (F := Ideal) m ρ c)).trans (w5_arg10 m ρ c)
theorem w6_v13 : W6 (F := Ideal) m ρ c (Proc.devRef .tc main_v13) = srcOf A1 :=
  (h3_keep_v13 (W5 (F := Ideal) m ρ c)).trans (w5_v13 m ρ c)
theorem w6_v15 : W6 (F := Ideal) m ρ c (Proc.devRef .tc main_v15) = dstOf A1 :=
  (h3_keep_v15 (W5 (F := Ideal) m ρ c)).trans (w5_v15 m ρ c)
theorem w6_v23 : W6 (F := Ideal) m ρ c (Proc.devRef .tc main_v23) = dcolOf A1 :=
  (h3_keep_v23 (W5 (F := Ideal) m ρ c)).trans (w5_v23 m ρ c)
theorem w6_v37 : W6 (F := Ideal) m ρ c (Proc.devRef .tc main_v37) = hp2 A0 A1 A2 A3 A4 A5 :=
  (h3_keep_v37 (W5 (F := Ideal) m ρ c)).trans (w5_v37 m ρ c)

/-! ## Boundary 7: after region 3 -/

theorem w7_v49 : W7 (F := Ideal) m ρ c (Proc.devRef .tc main_v49) = h2 A0 A1 A2 A3 A4 A5 A6 :=
  (W7_arr m ρ c 4).trans ((final3 (V6 (F := Ideal) m ρ) c).trans (by
    show combineRelu (N := 50000) (C := 128) (W6 (F := Ideal) m ρ c (Proc.devRef .tc main_v47)) (W6 (F := Ideal) m ρ c (Proc.devRef .tc main_v37)) (W6 (F := Ideal) m ρ c (Proc.devRef .tc main_v23)) (W6 (F := Ideal) m ρ c (Proc.devRef .tc main_v48)) = _
    rw [w6_v47 m ρ c, w6_v37 m ρ c, w6_v23 m ρ c, w6_v48 m ρ c]
    rfl))
theorem w7_arg7 : W7 (F := Ideal) m ρ c (Proc.devRef .tc main_arg7) = A7 :=
  (W7_of_ne m ρ c main_arg7 (by decide)).trans (w6_arg7 m ρ c)
theorem w7_arg8 : W7 (F := Ideal) m ρ c (Proc.devRef .tc main_arg8) = A8 :=
  (W7_of_ne m ρ c main_arg8 (by decide)).trans (w6_arg8 m ρ c)
theorem w7_arg9 : W7 (F := Ideal) m ρ c (Proc.devRef .tc main_arg9) = A9 :=
  (W7_of_ne m ρ c main_arg9 (by decide)).trans (w6_arg9 m ρ c)
theorem w7_arg10 : W7 (F := Ideal) m ρ c (Proc.devRef .tc main_arg10) = A10 :=
  (W7_of_ne m ρ c main_arg10 (by decide)).trans (w6_arg10 m ρ c)
theorem w7_v13 : W7 (F := Ideal) m ρ c (Proc.devRef .tc main_v13) = srcOf A1 :=
  (W7_of_ne m ρ c main_v13 (by decide)).trans (w6_v13 m ρ c)
theorem w7_v15 : W7 (F := Ideal) m ρ c (Proc.devRef .tc main_v15) = dstOf A1 :=
  (W7_of_ne m ρ c main_v15 (by decide)).trans (w6_v15 m ρ c)
theorem w7_v23 : W7 (F := Ideal) m ρ c (Proc.devRef .tc main_v23) = dcolOf A1 :=
  ((W7_arr m ρ c 2).trans (((dat3 (V6 (F := Ideal) m ρ) c).arrAt_in 2 rfl _).trans (A_eq3 (V6 (F := Ideal) m ρ) c 2))).trans (w6_v23 m ρ c)

/-! ## Boundary 8: after region 4 -/

theorem w8_v50 : W8 (F := Ideal) m ρ c (Proc.devRef .tc main_v50) = hp3 A0 A1 A2 A3 A4 A5 A6 A7 :=
  (W8_arr m ρ c 3).trans ((final4 (V7 (F := Ideal) m ρ) c).trans (by
    show scaled (N := 50000) (K := 128) (C := 128) (W7 (F := Ideal) m ρ c (Proc.devRef .tc main_v49)) (W7 (F := Ideal) m ρ c (Proc.devRef .tc main_arg7)) (W7 (F := Ideal) m ρ c (Proc.devRef .tc main_v23)) = _
    rw [w7_v49 m ρ c, w7_arg7 m ρ c, w7_v23 m ρ c]
    rfl))
theorem w8_arg8 : W8 (F := Ideal) m ρ c (Proc.devRef .tc main_arg8) = A8 :=
  (W8_of_ne m ρ c main_arg8 (by decide)).trans (w7_arg8 m ρ c)
theorem w8_arg9 : W8 (F := Ideal) m ρ c (Proc.devRef .tc main_arg9) = A9 :=
  (W8_of_ne m ρ c main_arg9 (by decide)).trans (w7_arg9 m ρ c)
theorem w8_arg10 : W8 (F := Ideal) m ρ c (Proc.devRef .tc main_arg10) = A10 :=
  (W8_of_ne m ρ c main_arg10 (by decide)).trans (w7_arg10 m ρ c)
theorem w8_v13 : W8 (F := Ideal) m ρ c (Proc.devRef .tc main_v13) = srcOf A1 :=
  (W8_of_ne m ρ c main_v13 (by decide)).trans (w7_v13 m ρ c)
theorem w8_v15 : W8 (F := Ideal) m ρ c (Proc.devRef .tc main_v15) = dstOf A1 :=
  (W8_of_ne m ρ c main_v15 (by decide)).trans (w7_v15 m ρ c)
theorem w8_v23 : W8 (F := Ideal) m ρ c (Proc.devRef .tc main_v23) = dcolOf A1 :=
  ((W8_arr m ρ c 2).trans (((dat4 (V7 (F := Ideal) m ρ) c).arrAt_in 2 rfl _).trans (A_eq4 (V7 (F := Ideal) m ρ) c 2))).trans (w7_v23 m ρ c)

/-! ## Boundary 9: after a stretch of host operations -/

theorem w9_v60 : W9 (F := Ideal) m ρ c (Proc.devRef .tc main_v60) = raw128 (hp3 A0 A1 A2 A3 A4 A5 A6 A7) (srcOf A1) (dstOf A1) :=
  (h5_raw (W8 (F := Ideal) m ρ c)).trans (by rw [w8_v50 m ρ c, w8_v13 m ρ c, w8_v15 m ρ c])
theorem w9_v61 : W9 (F := Ideal) m ρ c (Proc.devRef .tc main_v61) = brow128 A8 :=
  (h5_bias (W8 (F := Ideal) m ρ c)).trans (by rw [w8_arg8 m ρ c])
theorem w9_arg9 : W9 (F := Ideal) m ρ c (Proc.devRef .tc main_arg9) = A9 :=
  (h5_keep_arg9 (W8 (F := Ideal) m ρ c)).trans (w8_arg9 m ρ c)
theorem w9_arg10 : W9 (F := Ideal) m ρ c (Proc.devRef .tc main_arg10) = A10 :=
  (h5_keep_arg10 (W8 (F := Ideal) m ρ c)).trans (w8_arg10 m ρ c)
theorem w9_v13 : W9 (F := Ideal) m ρ c (Proc.devRef .tc main_v13) = srcOf A1 :=
  (h5_keep_v13 (W8 (F := Ideal) m ρ c)).trans (w8_v13 m ρ c)
theorem w9_v15 : W9 (F := Ideal) m ρ c (Proc.devRef .tc main_v15) = dstOf A1 :=
  (h5_keep_v15 (W8 (F := Ideal) m ρ c)).trans (w8_v15 m ρ c)
theorem w9_v23 : W9 (F := Ideal) m ρ c (Proc.devRef .tc main_v23) = dcolOf A1 :=
  (h5_keep_v23 (W8 (F := Ideal) m ρ c)).trans (w8_v23 m ρ c)
theorem w9_v50 : W9 (F := Ideal) m ρ c (Proc.devRef .tc main_v50) = hp3 A0 A1 A2 A3 A4 A5 A6 A7 :=
  (h5_keep_v50 (W8 (F := Ideal) m ρ c)).trans (w8_v50 m ρ c)

/-! ## Boundary 10: after region 5 -/

theorem w10_v62 : W10 (F := Ideal) m ρ c (Proc.devRef .tc main_v62) = h3 A0 A1 A2 A3 A4 A5 A6 A7 A8 :=
  (W10_arr m ρ c 4).trans ((final5 (V9 (F := Ideal) m ρ) c).trans (by
    show combineRelu (N := 50000) (C := 128) (W9 (F := Ideal) m ρ c (Proc.devRef .tc main_v60)) (W9 (F := Ideal) m ρ c (Proc.devRef .tc main_v50)) (W9 (F := Ideal) m ρ c (Proc.devRef .tc main_v23)) (W9 (F := Ideal) m ρ c (Proc.devRef .tc main_v61)) = _
    rw [w9_v60 m ρ c, w9_v50 m ρ c, w9_v23 m ρ c, w9_v61 m ρ c]
    rfl))
theorem w10_arg9 : W10 (F := Ideal) m ρ c (Proc.devRef .tc main_arg9) = A9 :=
  (W10_of_ne m ρ c main_arg9 (by decide)).trans (w9_arg9 m ρ c)
theorem w10_arg10 : W10 (F := Ideal) m ρ c (Proc.devRef .tc main_arg10) = A10 :=
  (W10_of_ne m ρ c main_arg10 (by decide)).trans (w9_arg10 m ρ c)
theorem w10_v13 : W10 (F := Ideal) m ρ c (Proc.devRef .tc main_v13) = srcOf A1 :=
  (W10_of_ne m ρ c main_v13 (by decide)).trans (w9_v13 m ρ c)
theorem w10_v15 : W10 (F := Ideal) m ρ c (Proc.devRef .tc main_v15) = dstOf A1 :=
  (W10_of_ne m ρ c main_v15 (by decide)).trans (w9_v15 m ρ c)
theorem w10_v23 : W10 (F := Ideal) m ρ c (Proc.devRef .tc main_v23) = dcolOf A1 :=
  ((W10_arr m ρ c 2).trans (((dat5 (V9 (F := Ideal) m ρ) c).arrAt_in 2 rfl _).trans (A_eq5 (V9 (F := Ideal) m ρ) c 2))).trans (w9_v23 m ρ c)

/-! ## Boundary 11: after region 6 -/

theorem w11_v63 : W11 (F := Ideal) m ρ c (Proc.devRef .tc main_v63) = hp4 A0 A1 A2 A3 A4 A5 A6 A7 A8 A9 :=
  (W11_arr m ρ c 3).trans ((final6 (V10 (F := Ideal) m ρ) c).trans (by
    show scaled (N := 50000) (K := 128) (C := 64) (W10 (F := Ideal) m ρ c (Proc.devRef .tc main_v62)) (W10 (F := Ideal) m ρ c (Proc.devRef .tc main_arg9)) (W10 (F := Ideal) m ρ c (Proc.devRef .tc main_v23)) = _
    rw [w10_v62 m ρ c, w10_arg9 m ρ c, w10_v23 m ρ c]
    rfl))
theorem w11_arg10 : W11 (F := Ideal) m ρ c (Proc.devRef .tc main_arg10) = A10 :=
  (W11_of_ne m ρ c main_arg10 (by decide)).trans (w10_arg10 m ρ c)
theorem w11_v13 : W11 (F := Ideal) m ρ c (Proc.devRef .tc main_v13) = srcOf A1 :=
  (W11_of_ne m ρ c main_v13 (by decide)).trans (w10_v13 m ρ c)
theorem w11_v15 : W11 (F := Ideal) m ρ c (Proc.devRef .tc main_v15) = dstOf A1 :=
  (W11_of_ne m ρ c main_v15 (by decide)).trans (w10_v15 m ρ c)
theorem w11_v23 : W11 (F := Ideal) m ρ c (Proc.devRef .tc main_v23) = dcolOf A1 :=
  ((W11_arr m ρ c 2).trans (((dat6 (V10 (F := Ideal) m ρ) c).arrAt_in 2 rfl _).trans (A_eq6 (V10 (F := Ideal) m ρ) c 2))).trans (w10_v23 m ρ c)

/-! ## Boundary 12: after a stretch of host operations -/

theorem w12_v73 : W12 (F := Ideal) m ρ c (Proc.devRef .tc main_v73) = raw64 (hp4 A0 A1 A2 A3 A4 A5 A6 A7 A8 A9) (srcOf A1) (dstOf A1) :=
  (h7_raw (W11 (F := Ideal) m ρ c)).trans (by rw [w11_v63 m ρ c, w11_v13 m ρ c, w11_v15 m ρ c])
theorem w12_v74 : W12 (F := Ideal) m ρ c (Proc.devRef .tc main_v74) = brow64 A10 :=
  (h7_bias (W11 (F := Ideal) m ρ c)).trans (by rw [w11_arg10 m ρ c])
theorem w12_v23 : W12 (F := Ideal) m ρ c (Proc.devRef .tc main_v23) = dcolOf A1 :=
  (h7_keep_v23 (W11 (F := Ideal) m ρ c)).trans (w11_v23 m ρ c)
theorem w12_v63 : W12 (F := Ideal) m ρ c (Proc.devRef .tc main_v63) = hp4 A0 A1 A2 A3 A4 A5 A6 A7 A8 A9 :=
  (h7_keep_v63 (W11 (F := Ideal) m ρ c)).trans (w11_v63 m ρ c)

/-! ## Boundary 13: after region 7 -/

theorem w13_v75 : W13 (F := Ideal) m ρ c (Proc.devRef .tc main_v75) = out A0 A1 A2 A3 A4 A5 A6 A7 A8 A9 A10 :=
  (W13_arr m ρ c 4).trans ((final7 (V12 (F := Ideal) m ρ) c).trans (by
    show combineLin (N := 50000) (C := 64) (W12 (F := Ideal) m ρ c (Proc.devRef .tc main_v73)) (W12 (F := Ideal) m ρ c (Proc.devRef .tc main_v63)) (W12 (F := Ideal) m ρ c (Proc.devRef .tc main_v23)) (W12 (F := Ideal) m ρ c (Proc.devRef .tc main_v74)) = _
    rw [w12_v73 m ρ c, w12_v63 m ρ c, w12_v23 m ρ c, w12_v74 m ρ c]
    rfl))

/-- The result buffer at the last boundary is the network's output of the argument arrays. -/
theorem value : W13 (F := Ideal) m ρ c (Proc.devRef .tc main_v75) = out A0 A1 A2 A3 A4 A5 A6 A7 A8 A9 A10 := w13_v75 m ρ c

end Cert.KernelIdeal.Chain

end
-- ==== Proof.Bridge.lean ====
/-
  The kernel program's result function is the reference program's last stage.

  Both programs compute four graph-convolution layers with self-loops over the same messages and the same normalisation
  d = 1/√(in-degree + 1). The reference gives every collected row its whole weight d(source) · d(destination) and the
  node's own row the weight d(n) · d(n); the kernel scales the rows by d before they are collected and the collected sum
  and the own row by d(n) afterwards. Each d(n) is a non-negative real number, so the two arrangements of a layer agree
  on any input rows; chaining the four layers from the shared node features gives the same result.
-/
import proofs.«130063_j23605140259289_2_alg».proof.Proof.KernelNet
import proofs.«130063_j23605140259289_2_alg».proof.Proof.Gen.ReferenceIdeal.Read
import proofs.«130063_j23605140259289_2_alg».proof.Proof.LibGcnLayer

set_option maxRecDepth 16384

noncomputable section

namespace Cert.Proof.Bridge

open Idealize.ShloMosaic Idealize.ShloMosaic.ValueIdx
open Cert.Gcn Cert.GraphLinear Cert.ClippedDegree

/-! ## The reference's stages, layer by layer, as the second arrangement -/

section Ref
open Cert.ReferenceIdeal Cert.ReferenceIdeal.Gen Cert.ReferenceIdeal.Read

variable (x0 : FVec Ideal S50000x9 .f32) (x1 : IVec S2x1600000 32) (x2 : FVec Ideal S3000x192 .f32)
variable (x3 : FVec Ideal S200x128 .f32) (x4 : FVec Ideal S128 .f32) (x5 : FVec Ideal S128x128 .f32) (x6 : FVec Ideal S128 .f32)
variable (x7 : FVec Ideal S128x128 .f32) (x8 : FVec Ideal S128 .f32) (x9 : FVec Ideal S128x64 .f32) (x10 : FVec Ideal S64 .f32)

/-- A layer of width 128 in the second arrangement under the maximum, with the reference's dimension records. -/
abbrev refLayer128 {K : Nat} (dotd : DotDims ⟨2, ![50000, K]⟩ ⟨2, ![K, 128]⟩ ⟨2, ![50000, 128]⟩)
    (X : FVec Ideal ⟨2, ![50000, K]⟩ .f32) (W : FVec Ideal ⟨2, ![K, 128]⟩ .f32) (dvec : FVec Ideal ⟨1, ![50000]⟩ .f32)
    (src dst : IVec ⟨1, ![1600000]⟩ 32) (b : FVec Ideal ⟨1, ![128]⟩ .f32) : FVec Ideal ⟨2, ![50000, 128]⟩ .f32 :=
  refRelu (N := 50000) (E := 1600000) (K := K) (C := 128)
    dotd bcast_S_S1600000 bcast_S1600000_S1600000x1_0
    gather_S50000_S1600000x1_S1600000_n_0_n_n_0_1_1 gather_S50000x128_S1600000x1_S1600000x128_1_0_n_n_0_1_1128
    scatter_S50000x128_S1600000x1_S1600000x128_1_0_0_1 bcast_S_S50000x128 bcast_S1600000x1_S1600000x128_0_1
    bcast_S50000_S50000x1_0 bcast_S50000x1_S50000x128_0_1 bcast_S128_S1x128_1 bcast_S1x128_S50000x128_0_1 50000#32
    X W dvec src dst b

/-- The last layer, of width 64, in the second arrangement without the maximum. -/
abbrev refLayer64 (X : FVec Ideal ⟨2, ![50000, 128]⟩ .f32) (W : FVec Ideal ⟨2, ![128, 64]⟩ .f32)
    (dvec : FVec Ideal ⟨1, ![50000]⟩ .f32) (src dst : IVec ⟨1, ![1600000]⟩ 32) (b : FVec Ideal ⟨1, ![64]⟩ .f32) :
    FVec Ideal ⟨2, ![50000, 64]⟩ .f32 :=
  refLin (N := 50000) (E := 1600000) (K := 128) (C := 64)
    dot_S50000x128_S128x64_S50000x64_1_0_0_1_n_n bcast_S_S1600000 bcast_S1600000_S1600000x1_0
    gather_S50000_S1600000x1_S1600000_n_0_n_n_0_1_1 gather_S50000x64_S1600000x1_S1600000x64_1_0_n_n_0_1_164
    scatter_S50000x64_S1600000x1_S1600000x64_1_0_0_1 bcast_S_S50000x64 bcast_S1600000x1_S1600000x64_0_1
    bcast_S50000_S50000x1_0 bcast_S50000x1_S50000x64_0_1 bcast_S64_S1x64_1 bcast_S1x64_S50000x64_0_1 50000#32
    X W dvec src dst b

/-! The two programs' first stretches are the same host operations: the node features, the source and destination words
    and d. -/

theorem ref_feats : val_main_v11 (F := Ideal) x0 x2 = Cert.KernelIdeal.HostReads.feats x0 x2 := rfl
theorem ref_src : val_main_v13 (F := Ideal) x1 = Cert.KernelIdeal.HostReads.srcOf x1 := rfl
theorem ref_dst : val_main_v15 (F := Ideal) x1 = Cert.KernelIdeal.HostReads.dstOf x1 := rfl
theorem ref_dvec : val_main_v22 (F := Ideal) x1 = Cert.KernelIdeal.HostReads.dvecOf x1 := rfl

/-! Each layer of the reference is the second arrangement applied to the previous layer's value. -/

theorem ref_l1 :
    val_main_v60 (F := Ideal) x0 x1 x2 x3 x4
      = refLayer128 dot_S50000x200_S200x128_S50000x128_1_0_0_1_n_n (Cert.KernelIdeal.HostReads.feats x0 x2) x3
          (Cert.KernelIdeal.HostReads.dvecOf x1) (Cert.KernelIdeal.HostReads.srcOf x1)
          (Cert.KernelIdeal.HostReads.dstOf x1) x4 := rfl

theorem ref_l2 :
    val_main_v98 (F := Ideal) x0 x1 x2 x3 x4 x5 x6
      = refLayer128 dot_S50000x128_S128x128_S50000x128_1_0_0_1_n_n (val_main_v60 (F := Ideal) x0 x1 x2 x3 x4) x5
          (Cert.KernelIdeal.HostReads.dvecOf x1) (Cert.KernelIdeal.HostReads.srcOf x1)
          (Cert.KernelIdeal.HostReads.dstOf x1) x6 := rfl

theorem ref_l3 :
    val_main_v136 (F := Ideal) x0 x1 x2 x3 x4 x5 x6 x7 x8
      = refLayer128 dot_S50000x128_S128x128_S50000x128_1_0_0_1_n_n (val_main_v98 (F := Ideal) x0 x1 x2 x3 x4 x5 x6) x7
          (Cert.KernelIdeal.HostReads.dvecOf x1) (Cert.KernelIdeal.HostReads.srcOf x1)
          (Cert.KernelIdeal.HostReads.dstOf x1) x8 := rfl

theorem ref_l4 :
    val_main_v173 (F := Ideal) x0 x1 x2 x3 x4 x5 x6 x7 x8 x9 x10
      = refLayer64 (val_main_v136 (F := Ideal) x0 x1 x2 x3 x4 x5 x6 x7 x8) x9
          (Cert.KernelIdeal.HostReads.dvecOf x1) (Cert.KernelIdeal.HostReads.srcOf x1)
          (Cert.KernelIdeal.HostReads.dstOf x1) x10 := rfl

end Ref

/-! ## The kernel's layers as the first arrangement, and the law at the two programs' records -/

section Ker
open Cert.KernelIdeal Cert.KernelIdeal.Gen Cert.KernelIdeal.HostReads Cert.KernelIdeal.Net

variable (a0 : FVec Ideal S50000x9 .f32) (a1 : IVec S2x1600000 32) (a2 : FVec Ideal S3000x192 .f32)
variable (a3 : FVec Ideal S200x128 .f32) (a4 : FVec Ideal S128 .f32) (a5 : FVec Ideal S128x128 .f32) (a6 : FVec Ideal S128 .f32)
variable (a7 : FVec Ideal S128x128 .f32) (a8 : FVec Ideal S128 .f32) (a9 : FVec Ideal S128x64 .f32) (a10 : FVec Ideal S64 .f32)

/-- A layer of width 128 in the first arrangement under the maximum, with the kernel's dimension records. -/
abbrev kerLayer128 {K : Nat} (X : FVec Ideal ⟨2, ![50000, K]⟩ .f32) (W : FVec Ideal ⟨2, ![K, 128]⟩ .f32)
    (dvec : FVec Ideal ⟨1, ![50000]⟩ .f32) (src dst : IVec ⟨1, ![1600000]⟩ 32) (b : FVec Ideal ⟨1, ![128]⟩ .f32) :
    FVec Ideal ⟨2, ![50000, 128]⟩ .f32 :=
  kerRelu (N := 50000) (E := 1600000) (K := K) (C := 128)
    bcast_S_S1600000 bcast_S1600000_S1600000x1_0 gather_S50000x128_S1600000x1_S1600000x128_1_0_n_n_0_1_1128
    scatter_S50000x128_S1600000x1_S1600000x128_1_0_0_1 bcast_S_S50000x128 bcast_S50000_S50000x1_0 shapeCasts_S128_S1x128
    50000#32 X W dvec src dst b

/-- The last layer, of width 64, in the first arrangement without the maximum. -/
abbrev kerLayer64 (X : FVec Ideal ⟨2, ![50000, 128]⟩ .f32) (W : FVec Ideal ⟨2, ![128, 64]⟩ .f32)
    (dvec : FVec Ideal ⟨1, ![50000]⟩ .f32) (src dst : IVec ⟨1, ![1600000]⟩ 32) (b : FVec Ideal ⟨1, ![64]⟩ .f32) :
    FVec Ideal ⟨2, ![50000, 64]⟩ .f32 :=
  kerLin (N := 50000) (E := 1600000) (K := 128) (C := 64)
    bcast_S_S1600000 bcast_S1600000_S1600000x1_0 gather_S50000x64_S1600000x1_S1600000x64_1_0_n_n_0_1_164
    scatter_S50000x64_S1600000x1_S1600000x64_1_0_0_1 bcast_S_S50000x64 bcast_S50000_S50000x1_0 shapeCasts_S64_S1x64
    50000#32 X W dvec src dst b

theorem ker_l1 : h1 a0 a1 a2 a3 a4 = kerLayer128 (feats a0 a2) a3 (dvecOf a1) (srcOf a1) (dstOf a1) a4 := rfl
theorem ker_l2 : h2 a0 a1 a2 a3 a4 a5 a6
    = kerLayer128 (h1 a0 a1 a2 a3 a4) a5 (dvecOf a1) (srcOf a1) (dstOf a1) a6 := rfl
theorem ker_l3 : h3 a0 a1 a2 a3 a4 a5 a6 a7 a8
    = kerLayer128 (h2 a0 a1 a2 a3 a4 a5 a6) a7 (dvecOf a1) (srcOf a1) (dstOf a1) a8 := rfl
theorem ker_l4 : out a0 a1 a2 a3 a4 a5 a6 a7 a8 a9 a10
    = kerLayer64 (h3 a0 a1 a2 a3 a4 a5 a6 a7 a8) a9 (dvecOf a1) (srcOf a1) (dstOf a1) a10 := rfl

/-- Every d(n) is a non-negative real number. -/
theorem dvec_nonneg (n : Fin 50000) : ∃ r : ℝ, 0 ≤ r ∧ dvecOf a1 (ix1 n) = (r : EReal) :=
  dinvPlusOne_nonneg_real bcast_S_S50000 bcast_S_S1600000 bcast_S1600000_S1600000x1_0
    scatter_S50000_S1600000x1_S1600000_n_0_0_1 rfl rfl rfl rfl (dstOf a1) n

/-- A layer of width 128: the two arrangements agree on any rows, weights and bias. -/
theorem law128 {K : Nat} (dotd : DotDims ⟨2, ![50000, K]⟩ ⟨2, ![K, 128]⟩ ⟨2, ![50000, 128]⟩)
    (hdot : dotd = DotDims.plain 50000 K 128)
    (X : FVec Ideal ⟨2, ![50000, K]⟩ .f32) (W : FVec Ideal ⟨2, ![K, 128]⟩ .f32) (b : FVec Ideal ⟨1, ![128]⟩ .f32) :
    kerLayer128 X W (dvecOf a1) (srcOf a1) (dstOf a1) b
      = refLayer128 dotd X W (dvecOf a1) (srcOf a1) (dstOf a1) b :=
  kerRelu_eq_refRelu (N := 50000) (E := 1600000) (K := K) (C := 128) dotd
    Cert.ReferenceIdeal.Gen.bcast_S_S1600000 Cert.ReferenceIdeal.Gen.bcast_S1600000_S1600000x1_0
    Cert.ReferenceIdeal.gather_S50000_S1600000x1_S1600000_n_0_n_n_0_1_1
    Cert.ReferenceIdeal.gather_S50000x128_S1600000x1_S1600000x128_1_0_n_n_0_1_1128
    Cert.ReferenceIdeal.scatter_S50000x128_S1600000x1_S1600000x128_1_0_0_1
    Cert.ReferenceIdeal.Gen.bcast_S_S50000x128 Cert.ReferenceIdeal.Gen.bcast_S1600000x1_S1600000x128_0_1
    Cert.ReferenceIdeal.Gen.bcast_S50000_S50000x1_0 Cert.ReferenceIdeal.Gen.bcast_S50000x1_S50000x128_0_1
    Cert.ReferenceIdeal.Gen.bcast_S128_S1x128_1 Cert.ReferenceIdeal.Gen.bcast_S1x128_S50000x128_0_1
    shapeCasts_S128_S1x128 50000#32 (by decide) hdot
    Cert.ReferenceIdeal.Facts₀.gather_S50000_S1600000x1_S1600000_n_0_n_n_0_1_1_wf rfl
    Cert.ReferenceIdeal.Facts₀.gather_S50000x128_S1600000x1_S1600000x128_1_0_n_n_0_1_1128_wf rfl
    rfl rfl rfl rfl (dvecOf a1) (dvec_nonneg a1) X W (srcOf a1) (dstOf a1) b

/-- The last layer likewise. -/
theorem law64 (X : FVec Ideal ⟨2, ![50000, 128]⟩ .f32) (W : FVec Ideal ⟨2, ![128, 64]⟩ .f32) (b : FVec Ideal ⟨1, ![64]⟩ .f32) :
    kerLayer64 X W (dvecOf a1) (srcOf a1) (dstOf a1) b
      = refLayer64 X W (dvecOf a1) (srcOf a1) (dstOf a1) b :=
  kerLin_eq_refLin (N := 50000) (E := 1600000) (K := 128) (C := 64)
    Cert.ReferenceIdeal.dot_S50000x128_S128x64_S50000x64_1_0_0_1_n_n
    Cert.ReferenceIdeal.Gen.bcast_S_S1600000 Cert.ReferenceIdeal.Gen.bcast_S1600000_S1600000x1_0
    Cert.ReferenceIdeal.gather_S50000_S1600000x1_S1600000_n_0_n_n_0_1_1
    Cert.ReferenceIdeal.gather_S50000x64_S1600000x1_S1600000x64_1_0_n_n_0_1_164
    Cert.ReferenceIdeal.scatter_S50000x64_S1600000x1_S1600000x64_1_0_0_1
    Cert.ReferenceIdeal.Gen.bcast_S_S50000x64 Cert.ReferenceIdeal.Gen.bcast_S1600000x1_S1600000x64_0_1
    Cert.ReferenceIdeal.Gen.bcast_S50000_S50000x1_0 Cert.ReferenceIdeal.Gen.bcast_S50000x1_S50000x64_0_1
    Cert.ReferenceIdeal.Gen.bcast_S64_S1x64_1 Cert.ReferenceIdeal.Gen.bcast_S1x64_S50000x64_0_1
    shapeCasts_S64_S1x64 50000#32 (by decide) rfl
    Cert.ReferenceIdeal.Facts₀.gather_S50000_S1600000x1_S1600000_n_0_n_n_0_1_1_wf rfl
    Cert.ReferenceIdeal.Facts₀.gather_S50000x64_S1600000x1_S1600000x64_1_0_n_n_0_1_164_wf rfl
    rfl rfl rfl rfl (dvecOf a1) (dvec_nonneg a1) X W (srcOf a1) (dstOf a1) b

end Ker

/-! ## The chain of the four layers -/

section Chain
open Cert.KernelIdeal.HostReads

variable (a0 : FVec Ideal Cert.KernelIdeal.S50000x9 .f32) (a1 : IVec Cert.KernelIdeal.S2x1600000 32)
variable (a2 : FVec Ideal Cert.KernelIdeal.S3000x192 .f32) (a3 : FVec Ideal Cert.KernelIdeal.S200x128 .f32)
variable (a4 : FVec Ideal Cert.KernelIdeal.S128 .f32) (a5 : FVec Ideal Cert.KernelIdeal.S128x128 .f32)
variable (a6 : FVec Ideal Cert.KernelIdeal.S128 .f32) (a7 : FVec Ideal Cert.KernelIdeal.S128x128 .f32)
variable (a8 : FVec Ideal Cert.KernelIdeal.S128 .f32) (a9 : FVec Ideal Cert.KernelIdeal.S128x64 .f32)
variable (a10 : FVec Ideal Cert.KernelIdeal.S64 .f32)

theorem h1_eq : Cert.KernelIdeal.Net.h1 a0 a1 a2 a3 a4 = Cert.ReferenceIdeal.Read.val_main_v60 (F := Ideal) a0 a1 a2 a3 a4 :=
  (ker_l1 a0 a1 a2 a3 a4).trans
    ((law128 a1 Cert.ReferenceIdeal.dot_S50000x200_S200x128_S50000x128_1_0_0_1_n_n rfl (feats a0 a2) a3 a4).trans
      (ref_l1 a0 a1 a2 a3 a4).symm)

theorem h2_eq : Cert.KernelIdeal.Net.h2 a0 a1 a2 a3 a4 a5 a6
    = Cert.ReferenceIdeal.Read.val_main_v98 (F := Ideal) a0 a1 a2 a3 a4 a5 a6 :=
  (ker_l2 a0 a1 a2 a3 a4 a5 a6).trans
    ((law128 a1 Cert.ReferenceIdeal.dot_S50000x128_S128x128_S50000x128_1_0_0_1_n_n rfl _ a5 a6).trans
      ((congrArg (fun X => refLayer128 Cert.ReferenceIdeal.dot_S50000x128_S128x128_S50000x128_1_0_0_1_n_n X a5
          (dvecOf a1) (srcOf a1) (dstOf a1) a6) (h1_eq a0 a1 a2 a3 a4)).trans
        (ref_l2 a0 a1 a2 a3 a4 a5 a6).symm))

theorem h3_eq : Cert.KernelIdeal.Net.h3 a0 a1 a2 a3 a4 a5 a6 a7 a8
    = Cert.ReferenceIdeal.Read.val_main_v136 (F := Ideal) a0 a1 a2 a3 a4 a5 a6 a7 a8 :=
  (ker_l3 a0 a1 a2 a3 a4 a5 a6 a7 a8).trans
    ((law128 a1 Cert.ReferenceIdeal.dot_S50000x128_S128x128_S50000x128_1_0_0_1_n_n rfl _ a7 a8).trans
      ((congrArg (fun X => refLayer128 Cert.ReferenceIdeal.dot_S50000x128_S128x128_S50000x128_1_0_0_1_n_n X a7
          (dvecOf a1) (srcOf a1) (dstOf a1) a8) (h2_eq a0 a1 a2 a3 a4 a5 a6)).trans
        (ref_l3 a0 a1 a2 a3 a4 a5 a6 a7 a8).symm))

end Chain

/-- The kernel program's result, as a function of the eleven arguments, is the reference program's last stage. -/
theorem net_eq (a0 : FVec Ideal Cert.KernelIdeal.S50000x9 .f32) (a1 : IVec Cert.KernelIdeal.S2x1600000 32) (a2 : FVec Ideal Cert.KernelIdeal.S3000x192 .f32)
    (a3 : FVec Ideal Cert.KernelIdeal.S200x128 .f32) (a4 : FVec Ideal Cert.KernelIdeal.S128 .f32) (a5 : FVec Ideal Cert.KernelIdeal.S128x128 .f32)
    (a6 : FVec Ideal Cert.KernelIdeal.S128 .f32) (a7 : FVec Ideal Cert.KernelIdeal.S128x128 .f32) (a8 : FVec Ideal Cert.KernelIdeal.S128 .f32)
    (a9 : FVec Ideal Cert.KernelIdeal.S128x64 .f32) (a10 : FVec Ideal Cert.KernelIdeal.S64 .f32) :
    Cert.KernelIdeal.Net.out a0 a1 a2 a3 a4 a5 a6 a7 a8 a9 a10
      = Cert.ReferenceIdeal.Read.val_main_v173 (F := Ideal) a0 a1 a2 a3 a4 a5 a6 a7 a8 a9 a10 :=
  (ker_l4 a0 a1 a2 a3 a4 a5 a6 a7 a8 a9 a10).trans
    ((law64 a1 _ a9 a10).trans
      ((congrArg (fun X => refLayer64 X a9 (Cert.KernelIdeal.HostReads.dvecOf a1) (Cert.KernelIdeal.HostReads.srcOf a1)
          (Cert.KernelIdeal.HostReads.dstOf a1) a10) (h3_eq a0 a1 a2 a3 a4 a5 a6 a7 a8)).trans
        (ref_l4 a0 a1 a2 a3 a4 a5 a6 a7 a8 a9 a10).symm))

end Cert.Proof.Bridge

end
-- ==== Proof.lean ====
/-
  Two programs for a four-layer graph convolution with self-loops over 50000 nodes and 1600000 messages, equal as
  functions of their arguments on the extended reals.

  Both start from the same node features (eight input columns beside an embedding row), the same source and destination
  words and the same normalisation d = 1/√(in-degree + 1). The kernel program scales each layer's rows of
  (input · weights) by d inside a tiled matrix product, collects the pre-scaled rows along the messages on the host, and
  in a second tiled kernel scales the collected sum by d, adds the node's own pre-scaled row times d and the bias, and takes
  the maximum with zero (not in the last layer). The reference gives every gathered row its whole weight
  d(source) · d(destination) before it is collected and adds the node's own row times d · d. Since every d(n) is a positive
  real number, it distributes over the collected finite sum of extended reals, so the two arrangements agree entry by
  entry, whatever the features, weights and biases are.

  The frames of the two kernel programs are the generated ones; the reference's frame is its generated run with the result
  dropped; the idealization rewrote nothing, so there is nothing to preserve beyond the text itself.
-/
import proofs.«130063_j23605140259289_2_alg».proof.Defs
import proofs.«130063_j23605140259289_2_alg».proof.Proof.Gen.Kernel
import proofs.«130063_j23605140259289_2_alg».proof.Proof.Gen.Kernel.Frame
import proofs.«130063_j23605140259289_2_alg».proof.Proof.Gen.KernelIdeal
import proofs.«130063_j23605140259289_2_alg».proof.Proof.Gen.KernelIdeal.Frame
import proofs.«130063_j23605140259289_2_alg».proof.Proof.Gen.ReferenceIdeal
import proofs.«130063_j23605140259289_2_alg».proof.Proof.Gen.Pre_finite_inputs
import proofs.«130063_j23605140259289_2_alg».proof.Proof.Gen.ReferenceIdeal.Run
import proofs.«130063_j23605140259289_2_alg».proof.Proof.Gen.ReferenceIdeal.Read
import proofs.«130063_j23605140259289_2_alg».proof.Proof.KernelRun
import proofs.«130063_j23605140259289_2_alg».proof.Proof.KernelValue
import proofs.«130063_j23605140259289_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network's output of the arguments in their result
    buffers: the kernel program by walking its segment boundaries, the reference by its run's last stage, and the two
    functions of the arguments are one. -/
theorem algebraic : Cert.algebraic_KernelIdeal_ReferenceIdeal := by
  intro m ρ m' ρ' _ hagree
  refine ⟨fun c => Cert.KernelIdeal.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v173_eq, e0, e1, e2, e3, e4, e5, e6, e7, e8, e9, e10]
    exact (Cert.Proof.Bridge.net_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
